-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S3x128x64 : Shape := ⟨3, ![3, 128, 64]⟩
abbrev S64 : Shape := ⟨1, ![64]⟩
abbrev S3x64x32 : Shape := ⟨3, ![3, 64, 32]⟩
abbrev S32 : Shape := ⟨1, ![32]⟩
abbrev S3x32x16 : Shape := ⟨3, ![3, 32, 16]⟩
abbrev S16 : Shape := ⟨1, ![16]⟩
abbrev S3x16x4 : Shape := ⟨3, ![3, 16, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_
  bcast_S_S3x64x32 : S_.BroadcastsInDim S3x64x32 (![] : Fin 0 → Fin S3x64x32.rank)
  reducesTo_S3x64x32_S_d0_1_2 : S3x64x32.ReducesTo [0, 1, 2] S_
  bcast_S_S32 : S_.BroadcastsInDim S32 (![] : Fin 0 → Fin S32.rank)
  reducesTo_S32_S_d0 : S32.ReducesTo [0] S_
  bcast_S_S3x32x16 : S_.BroadcastsInDim S3x32x16 (![] : Fin 0 → Fin S3x32x16.rank)
  reducesTo_S3x32x16_S_d0_1_2 : S3x32x16.ReducesTo [0, 1, 2] S_
  bcast_S_S16 : S_.BroadcastsInDim S16 (![] : Fin 0 → Fin S16.rank)
  reducesTo_S16_S_d0 : S16.ReducesTo [0] S_
  bcast_S_S3x16x4 : S_.BroadcastsInDim S3x16x4 (![] : Fin 0 → Fin S3x16x4.rank)
  reducesTo_S3x16x4_S_d0_1_2 : S3x16x4.ReducesTo [0, 1, 2] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S16 .f32) (main_arg9 : FVec F S3x16x4 .f32) (main_arg10 : FVec F S4 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S3x16x4 .f32 := Host.absf main_arg9
  let main_cst_14 : FVec F S_ .f32 := constant S_ .f32 0x7F800000#32
  let main_v40 : FVec F S3x16x4 .f32 := broadcastInDim S3x16x4 ![] bcast_S_S3x16x4 main_cst_14
  let main_v41 : IVec S3x16x4 1 := cmpf .olt main_v39 main_v40
  let main_c_15 : IVec S_ 1 := constantI S_ 1 1#1
  let main_v42 : IVec S_ 1 := (fun x v => Host.reduce IntOp.andi x v reducesTo_S3x16x4_S_d0_1_2 h_S_) main_v41 main_c_15
  let main_v43 : IVec S_ 1 := andi main_v38 main_v42
  let main_v44 : FVec F S4 .f32 := Host.absf main_arg10
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  main_v48

def fn_part1 {F : FTy → Type} [FloatOps F] (main_arg5 : FVec F S3x64x32 .f32) (main_arg6 : FVec F S32 .f32) (main_arg7 : FVec F S3x32x16 .f32) (main_arg8 : FVec F S16 .f32) (main_arg9 : FVec F S3x16x4 .f32) (main_arg10 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x32 .f32 := Host.absf main_arg5
  let main_cst_6 : FVec F S_ .f32 := constant S_ .f32 0x7F800000#32
  let main_v20 : FVec F S3x64x32 .f32 := broadcastInDim S3x64x32 ![] bcast_S_S3x64x32 main_cst_6
  let main_v21 : IVec S3x64x32 1 := cmpf .olt main_v19 main_v20
  let main_c_7 : IVec S_ 1 := constantI S_ 1 1#1
  let main_v22 : IVec S_ 1 := (fun x v => Host.reduce IntOp.andi x v reducesTo_S3x64x32_S_d0_1_2 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S3x32x16 .f32 := Host.absf main_arg7
  let main_cst_10 : FVec F S_ .f32 := constant S_ .f32 0x7F800000#32
  let main_v30 : FVec F S3x32x16 .f32 := broadcastInDim S3x32x16 ![] bcast_S_S3x32x16 main_cst_10
  let main_v31 : IVec S3x32x16 1 := cmpf .olt main_v29 main_v30
  let main_c_11 : IVec S_ 1 := constantI S_ 1 1#1
  let main_v32 : IVec S_ 1 := (fun x v => Host.reduce IntOp.andi x v reducesTo_S3x32x16_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000 .f32) (main_arg3 : FVec F S3x128x64 .f32) (main_arg4 : FVec F S64 .f32) (main_arg5 : FVec F S3x64x32 .f32) (main_arg6 : FVec F S32 .f32) (main_arg7 : FVec F S3x32x16 .f32) (main_arg8 : FVec F S16 .f32) (main_arg9 : FVec F S3x16x4 .f32) (main_arg10 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x64 .f32 := Host.absf main_arg3
  let main_cst_2 : FVec F S_ .f32 := constant S_ .f32 0x7F800000#32
  let main_v10 : FVec F S3x128x64 .f32 := broadcastInDim S3x128x64 ![] bcast_S_S3x128x64 main_cst_2
  let main_v11 : IVec S3x128x64 1 := cmpf .olt main_v9 main_v10
  let main_c_3 : IVec S_ 1 := constantI S_ 1 1#1
  let main_v12 : IVec S_ 1 := (fun x v => Host.reduce IntOp.andi x v reducesTo_S3x128x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S3x128x64 : Shape := ⟨3, ![3, 128, 64]⟩
abbrev S64 : Shape := ⟨1, ![64]⟩
abbrev S3x64x32 : Shape := ⟨3, ![3, 64, 32]⟩
abbrev S32 : Shape := ⟨1, ![32]⟩
abbrev S3x32x16 : Shape := ⟨3, ![3, 32, 16]⟩
abbrev S16 : Shape := ⟨1, ![16]⟩
abbrev S3x16x4 : Shape := ⟨3, ![3, 16, 4]⟩
abbrev S4 : Shape := ⟨1, ![4]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1x128x64 : Shape := ⟨3, ![1, 128, 64]⟩
abbrev S128x64 : Shape := ⟨2, ![128, 64]⟩
abbrev S1600000x64 : Shape := ⟨2, ![1600000, 64]⟩
abbrev S1x32 : Shape := ⟨2, ![1, 32]⟩
abbrev S100000x32 : Shape := ⟨2, ![100000, 32]⟩
abbrev S5000x32 : Shape := ⟨2, ![5000, 32]⟩
abbrev S1x64x32 : Shape := ⟨3, ![1, 64, 32]⟩
abbrev S64x32 : Shape := ⟨2, ![64, 32]⟩
abbrev S1600000x32 : Shape := ⟨2, ![1600000, 32]⟩
abbrev S1x16 : Shape := ⟨2, ![1, 16]⟩
abbrev S100000x16 : Shape := ⟨2, ![100000, 16]⟩
abbrev S5000x16 : Shape := ⟨2, ![5000, 16]⟩
abbrev S1x32x16 : Shape := ⟨3, ![1, 32, 16]⟩
abbrev S32x16 : Shape := ⟨2, ![32, 16]⟩
abbrev S1600000x16 : Shape := ⟨2, ![1600000, 16]⟩
abbrev S1x4 : Shape := ⟨2, ![1, 4]⟩
abbrev S100000x4 : Shape := ⟨2, ![100000, 4]⟩
abbrev S5000x4 : Shape := ⟨2, ![5000, 4]⟩
abbrev S1x16x4 : Shape := ⟨3, ![1, 16, 4]⟩
abbrev S16x4 : Shape := ⟨2, ![16, 4]⟩
abbrev S5000 : Shape := ⟨1, ![5000]⟩
abbrev S5000x1 : Shape := ⟨2, ![5000, 1]⟩

abbrev nBuf : Space → Nat
  | .hbm => 207
  | .vmem => 40
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x64, .f32⟩
  | 4 => ⟨S64, .f32⟩
  | 5 => ⟨S3x64x32, .f32⟩
  | 6 => ⟨S32, .f32⟩
  | 7 => ⟨S3x32x16, .f32⟩
  | 8 => ⟨S16, .f32⟩
  | 9 => ⟨S3x16x4, .f32⟩
  | 10 => ⟨S4, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x128, .f32⟩
  | 64 => ⟨S1600000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S1600000x128, .f32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S1x64, .f32⟩
  | 86 => ⟨S100000x64, .f32⟩
  | 87 => ⟨S1600000x1, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S1600000x64, .f32⟩
  | 98 => ⟨S1600000x64, .f32⟩
  | 99 => ⟨S_, .f32⟩
  | 100 => ⟨S100000x64, .f32⟩
  | 101 => ⟨S1600000x1, .i32⟩
  | 102 => ⟨S100000x64, .f32⟩
  | 103 => ⟨S100000x64, .f32⟩
  | 104 => ⟨S1600000x1, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S1600000x64, .f32⟩
  | 115 => ⟨S1600000x64, .f32⟩
  | 116 => ⟨S_, .f32⟩
  | 117 => ⟨S100000x64, .f32⟩
  | 118 => ⟨S1600000x1, .i32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S1x32, .f32⟩
  | 126 => ⟨S100000x32, .f32⟩
  | 127 => ⟨S1600000x1, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x32, .f32⟩
  | 9 => ⟨S1600000x32, .f32⟩
  | 10 => ⟨S1600000x32, .f32⟩
  | 11 => ⟨S_, .f32⟩
  | 12 => ⟨S100000x32, .f32⟩
  | 13 => ⟨S1600000x1, .i32⟩
  | 14 => ⟨S100000x32, .f32⟩
  | 15 => ⟨S100000x32, .f32⟩
  | 16 => ⟨S1600000x1, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x32, .f32⟩
  | 26 => ⟨S1600000x32, .f32⟩
  | 27 => ⟨S1600000x32, .f32⟩
  | 28 => ⟨S_, .f32⟩
  | 29 => ⟨S100000x32, .f32⟩
  | 30 => ⟨S1600000x1, .i32⟩
  | 31 => ⟨S100000x32, .f32⟩
  | 32 => ⟨S100000x32, .f32⟩
  | 33 => ⟨S_, .f32⟩
  | 34 => ⟨S100000x32, .f32⟩
  | 35 => ⟨S100000x32, .f32⟩
  | 36 => ⟨S100000x32, .f32⟩
  | 37 => ⟨S1x16, .f32⟩
  | 38 => ⟨S100000x16, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x16, .f32⟩
  | 49 => ⟨S1600000x16, .f32⟩
  | 50 => ⟨S1600000x16, .f32⟩
  | 51 => ⟨S_, .f32⟩
  | 52 => ⟨S100000x16, .f32⟩
  | 53 => ⟨S1600000x1, .i32⟩
  | 54 => ⟨S100000x16, .f32⟩
  | 55 => ⟨S100000x16, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x16, .f32⟩
  | 66 => ⟨S1600000x16, .f32⟩
  | 67 => ⟨S1600000x16, .f32⟩
  | 68 => ⟨S_, .f32⟩
  | 69 => ⟨S100000x16, .f32⟩
  | 70 => ⟨S1600000x1, .i32⟩
  | 71 => ⟨S100000x16, .f32⟩
  | 72 => ⟨S100000x16, .f32⟩
  | 73 => ⟨S_, .f32⟩
  | 74 => ⟨S100000x16, .f32⟩
  | 75 => ⟨S100000x16, .f32⟩
  | 76 => ⟨S100000x16, .f32⟩
  | 77 => ⟨S1x4, .f32⟩
  | 78 => ⟨S100000x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S3x128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S3x64x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S3x32x16, .f32⟩
  | .local _ .vmem, ⟨27, _⟩ => ⟨S1x16, .f32⟩
  | .local _ .vmem, ⟨28, _⟩ => ⟨S5000x16, .f32⟩
  | .local _ .vmem, ⟨29, _⟩ => ⟨S5000x16, .f32⟩
  | .local _ .vmem, ⟨30, _⟩ => ⟨S5000x16, .f32⟩
  | .local _ .vmem, ⟨31, _⟩ => ⟨S5000x16, .f32⟩
  | .local _ .vmem, ⟨32, _⟩ => ⟨S5000x16, .f32⟩
  | .local _ .vmem, ⟨33, _⟩ => ⟨S5000x16, .f32⟩
  | .local _ .vmem, ⟨34, _⟩ => ⟨S5000x16, .f32⟩
  | .local _ .vmem, ⟨35, _⟩ => ⟨S5000x16, .f32⟩
  | .local _ .vmem, ⟨36, _⟩ => ⟨S3x16x4, .f32⟩
  | .local _ .vmem, ⟨37, _⟩ => ⟨S1x4, .f32⟩
  | .local _ .vmem, ⟨38, _⟩ => ⟨S5000x4, .f32⟩
  | .local _ .vmem, ⟨39, _⟩ => ⟨S5000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_19 : Ref sig .tc := ⟨.hbm, 128, rfl⟩
abbrev main_v94 : Ref sig .tc := ⟨.hbm, 129, rfl⟩
abbrev main_v95 : Ref sig .tc := ⟨.hbm, 130, rfl⟩
abbrev main_c_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_c_22 : Ref sig .tc := ⟨.hbm, 145, rfl⟩
abbrev main_v108 : Ref sig .tc := ⟨.hbm, 146, rfl⟩
abbrev main_v109 : Ref sig .tc := ⟨.hbm, 147, rfl⟩
abbrev main_c_23 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_24 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_25 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_c_26 : Ref sig .tc := ⟨.hbm, 168, rfl⟩
abbrev main_v127 : Ref sig .tc := ⟨.hbm, 169, rfl⟩
abbrev main_v128 : Ref sig .tc := ⟨.hbm, 170, rfl⟩
abbrev main_c_27 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_28 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_c_29 : Ref sig .tc := ⟨.hbm, 185, rfl⟩
abbrev main_v141 : Ref sig .tc := ⟨.hbm, 186, rfl⟩
abbrev main_v142 : Ref sig .tc := ⟨.hbm, 187, rfl⟩
abbrev main_c_30 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_31 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_32 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x16x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x4 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_1_0_0 : ∀ a, (![1, 0, 0] : Fin 3 → Nat) a + S1x128x64.size a ≤ S3x128x64.size a
  inb_S3x128x64_S1x128x64_2_0_0 : ∀ a, (![2, 0, 0] : Fin 3 → Nat) a + S1x128x64.size a ≤ S3x128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S32_S1x32 : S32.ShapeCasts S1x32
  shapeCasts_S5000x64_S5000x64 : S5000x64.ShapeCasts S5000x64
  inb_S3x64x32_S1x64x32_0_0_0 : ∀ a, (![0, 0, 0] : Fin 3 → Nat) a + S1x64x32.size a ≤ S3x64x32.size a
  h_S1x64x32 : 0 < S1x64x32.numel
  shapeCasts_S1x64x32_S64x32 : S1x64x32.ShapeCasts S64x32
  inb_S3x64x32_S1x64x32_1_0_0 : ∀ a, (![1, 0, 0] : Fin 3 → Nat) a + S1x64x32.size a ≤ S3x64x32.size a
  inb_S3x64x32_S1x64x32_2_0_0 : ∀ a, (![2, 0, 0] : Fin 3 → Nat) a + S1x64x32.size a ≤ S3x64x32.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S16_S1x16 : S16.ShapeCasts S1x16
  shapeCasts_S5000x32_S5000x32 : S5000x32.ShapeCasts S5000x32
  inb_S3x32x16_S1x32x16_0_0_0 : ∀ a, (![0, 0, 0] : Fin 3 → Nat) a + S1x32x16.size a ≤ S3x32x16.size a
  h_S1x32x16 : 0 < S1x32x16.numel
  shapeCasts_S1x32x16_S32x16 : S1x32x16.ShapeCasts S32x16
  inb_S3x32x16_S1x32x16_1_0_0 : ∀ a, (![1, 0, 0] : Fin 3 → Nat) a + S1x32x16.size a ≤ S3x32x16.size a
  inb_S3x32x16_S1x32x16_2_0_0 : ∀ a, (![2, 0, 0] : Fin 3 → Nat) a + S1x32x16.size a ≤ S3x32x16.size a
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S4_S1x4 : S4.ShapeCasts S1x4
  shapeCasts_S5000x16_S5000x16 : S5000x16.ShapeCasts S5000x16
  inb_S3x16x4_S1x16x4_0_0_0 : ∀ a, (![0, 0, 0] : Fin 3 → Nat) a + S1x16x4.size a ≤ S3x16x4.size a
  h_S1x16x4 : 0 < S1x16x4.numel
  shapeCasts_S1x16x4_S16x4 : S1x16x4.ShapeCasts S16x4
  inb_S3x16x4_S1x16x4_1_0_0 : ∀ a, (![1, 0, 0] : Fin 3 → Nat) a + S1x16x4.size a ≤ S3x16x4.size a
  inb_S3x16x4_S1x16x4_2_0_0 : ∀ a, (![2, 0, 0] : Fin 3 → Nat) a + S1x16x4.size a ≤ S3x16x4.size a
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  reduces_S5000x4_S5000 : S5000x4.Reduces [1] S5000
  shapeCasts_S5000_S5000x1 : S5000.ShapeCasts S5000x1
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x4_S5000x4_1_0_0_1_n_n_wf : DotDims.WF S5000x16 S16x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x64.size a ≤ S3x128x64.size a
  hwx0_3 : ∀ i : grid0.Coords, EltTy.bits .f32 = 32 ∨ (Rect.block (s := S3x128x64) S3x128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x32.size a ≤ S3x64x32.size a
  hwx1_3 : ∀ i : grid1.Coords, EltTy.bits .f32 = 32 ∨ (Rect.block (s := S3x64x32) S3x64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x32x16.size a ≤ S3x32x16.size a
  hwx2_3 : ∀ i : grid2.Coords, EltTy.bits .f32 = 32 ∨ (Rect.block (s := S3x32x16) S3x32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x16x4.size a ≤ S3x16x4.size a
  hwx3_3 : ∀ i : grid3.Coords, EltTy.bits .f32 = 32 ∨ (Rect.block (s := S3x16x4) S3x16x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x4.size a ≤ S1x4.size a
  hwx3_4 : ∀ i : grid3.Coords, EltTy.bits .f32 = 32 ∨ (Rect.block (s := S1x4) S1x4.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x4.size a ≤ S100000x4.size a
  hwx3_5 : ∀ i : grid3.Coords, EltTy.bits .f32 = 32 ∨ (Rect.block (s := S100000x4) S5000x4.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x4_S5000x4_1_0_0_1_n_n : DotDims S5000x16 S16x4 S5000x4 where
  lhsContracting := [1]
  rhsContracting := [0]
  lhsNonContracting := [0]
  rhsNonContracting := [1]
  lhsBatch := []
  rhsBatch := []
  wf := dot_S5000x16_S16x4_S5000x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v59) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v90) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v91) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v92) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v92) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v106) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v123) S5000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S3x32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v124) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v125) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v125) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v139) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v156) S5000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S3x16x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v157) S1x4.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v158) S5000x4.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S3x128x64 : Shape := ⟨3, ![3, 128, 64]⟩
abbrev S64 : Shape := ⟨1, ![64]⟩
abbrev S3x64x32 : Shape := ⟨3, ![3, 64, 32]⟩
abbrev S32 : Shape := ⟨1, ![32]⟩
abbrev S3x32x16 : Shape := ⟨3, ![3, 32, 16]⟩
abbrev S16 : Shape := ⟨1, ![16]⟩
abbrev S3x16x4 : Shape := ⟨3, ![3, 16, 4]⟩
abbrev S4 : Shape := ⟨1, ![4]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128x64 : Shape := ⟨3, ![1, 128, 64]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S1x64x32 : Shape := ⟨3, ![1, 64, 32]⟩
abbrev S64x32 : Shape := ⟨2, ![64, 32]⟩
abbrev S100000x32 : Shape := ⟨2, ![100000, 32]⟩
abbrev S1x32 : Shape := ⟨2, ![1, 32]⟩
abbrev S1600000x32 : Shape := ⟨2, ![1600000, 32]⟩
abbrev S1x32x16 : Shape := ⟨3, ![1, 32, 16]⟩
abbrev S32x16 : Shape := ⟨2, ![32, 16]⟩
abbrev S100000x16 : Shape := ⟨2, ![100000, 16]⟩
abbrev S1x16 : Shape := ⟨2, ![1, 16]⟩
abbrev S1600000x16 : Shape := ⟨2, ![1600000, 16]⟩
abbrev S1x16x4 : Shape := ⟨3, ![1, 16, 4]⟩
abbrev S16x4 : Shape := ⟨2, ![16, 4]⟩
abbrev S100000x4 : Shape := ⟨2, ![100000, 4]⟩
abbrev S1x4 : Shape := ⟨2, ![1, 4]⟩
abbrev S100000x1 : Shape := ⟨2, ![100000, 1]⟩

abbrev nBuf : Space → Nat
  | .hbm => 279
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x64, .f32⟩
  | 4 => ⟨S64, .f32⟩
  | 5 => ⟨S3x64x32, .f32⟩
  | 6 => ⟨S32, .f32⟩
  | 7 => ⟨S3x32x16, .f32⟩
  | 8 => ⟨S16, .f32⟩
  | 9 => ⟨S3x16x4, .f32⟩
  | 10 => ⟨S4, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x128, .f32⟩
  | 64 => ⟨S1600000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S1600000x128, .f32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S1x128x64, .f32⟩
  | 86 => ⟨S128x64, .f32⟩
  | 87 => ⟨S100000x64, .f32⟩
  | 88 => ⟨S1x128x64, .f32⟩
  | 89 => ⟨S128x64, .f32⟩
  | 90 => ⟨S100000x64, .f32⟩
  | 91 => ⟨S100000x64, .f32⟩
  | 92 => ⟨S1x128x64, .f32⟩
  | 93 => ⟨S128x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S1600000x1, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S100000x64, .f32⟩
  | 119 => ⟨S1600000x1, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x64, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x64, .f32⟩
  | 12 => ⟨S1x64x32, .f32⟩
  | 13 => ⟨S64x32, .f32⟩
  | 14 => ⟨S100000x32, .f32⟩
  | 15 => ⟨S1x64x32, .f32⟩
  | 16 => ⟨S64x32, .f32⟩
  | 17 => ⟨S100000x32, .f32⟩
  | 18 => ⟨S100000x32, .f32⟩
  | 19 => ⟨S1x64x32, .f32⟩
  | 20 => ⟨S64x32, .f32⟩
  | 21 => ⟨S100000x32, .f32⟩
  | 22 => ⟨S100000x32, .f32⟩
  | 23 => ⟨S1x32, .f32⟩
  | 24 => ⟨S100000x32, .f32⟩
  | 25 => ⟨S100000x32, .f32⟩
  | 26 => ⟨S_, .f32⟩
  | 27 => ⟨S100000x32, .f32⟩
  | 28 => ⟨S100000x32, .f32⟩
  | 29 => ⟨S1600000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x32, .f32⟩
  | 39 => ⟨S1600000x32, .f32⟩
  | 40 => ⟨S1600000x32, .f32⟩
  | 41 => ⟨S_, .f32⟩
  | 42 => ⟨S100000x32, .f32⟩
  | 43 => ⟨S1600000x1, .i32⟩
  | 44 => ⟨S100000x32, .f32⟩
  | 45 => ⟨S100000x32, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x32, .f32⟩
  | 56 => ⟨S1600000x32, .f32⟩
  | 57 => ⟨S1600000x32, .f32⟩
  | 58 => ⟨S_, .f32⟩
  | 59 => ⟨S100000x32, .f32⟩
  | 60 => ⟨S1600000x1, .i32⟩
  | 61 => ⟨S100000x32, .f32⟩
  | 62 => ⟨S100000x32, .f32⟩
  | 63 => ⟨S_, .f32⟩
  | 64 => ⟨S100000x32, .f32⟩
  | 65 => ⟨S100000x32, .f32⟩
  | 66 => ⟨S100000x32, .f32⟩
  | 67 => ⟨S1x32x16, .f32⟩
  | 68 => ⟨S32x16, .f32⟩
  | 69 => ⟨S100000x16, .f32⟩
  | 70 => ⟨S1x32x16, .f32⟩
  | 71 => ⟨S32x16, .f32⟩
  | 72 => ⟨S100000x16, .f32⟩
  | 73 => ⟨S100000x16, .f32⟩
  | 74 => ⟨S1x32x16, .f32⟩
  | 75 => ⟨S32x16, .f32⟩
  | 76 => ⟨S100000x16, .f32⟩
  | 77 => ⟨S100000x16, .f32⟩
  | 78 => ⟨S1x16, .f32⟩
  | 79 => ⟨S100000x16, .f32⟩
  | 80 => ⟨S100000x16, .f32⟩
  | 81 => ⟨S_, .f32⟩
  | 82 => ⟨S100000x16, .f32⟩
  | 83 => ⟨S100000x16, .f32⟩
  | 84 => ⟨S1600000x1, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x16, .f32⟩
  | 94 => ⟨S1600000x16, .f32⟩
  | 95 => ⟨S1600000x16, .f32⟩
  | 96 => ⟨S_, .f32⟩
  | 97 => ⟨S100000x16, .f32⟩
  | 98 => ⟨S1600000x1, .i32⟩
  | 99 => ⟨S100000x16, .f32⟩
  | 100 => ⟨S100000x16, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x16, .f32⟩
  | 111 => ⟨S1600000x16, .f32⟩
  | 112 => ⟨S1600000x16, .f32⟩
  | 113 => ⟨S_, .f32⟩
  | 114 => ⟨S100000x16, .f32⟩
  | 115 => ⟨S1600000x1, .i32⟩
  | 116 => ⟨S100000x16, .f32⟩
  | 117 => ⟨S100000x16, .f32⟩
  | 118 => ⟨S_, .f32⟩
  | 119 => ⟨S100000x16, .f32⟩
  | 120 => ⟨S100000x16, .f32⟩
  | 121 => ⟨S100000x16, .f32⟩
  | 122 => ⟨S1x16x4, .f32⟩
  | 123 => ⟨S16x4, .f32⟩
  | 124 => ⟨S100000x4, .f32⟩
  | 125 => ⟨S1x16x4, .f32⟩
  | 126 => ⟨S16x4, .f32⟩
  | 127 => ⟨S100000x4, .f32⟩
  | _ => ⟨S100000x128, .f32⟩

abbrev hbmTy0_2 (i : Nat) : BufTy := match i % 128 with
  | 0 => ⟨S100000x4, .f32⟩
  | 1 => ⟨S1x16x4, .f32⟩
  | 2 => ⟨S16x4, .f32⟩
  | 3 => ⟨S100000x4, .f32⟩
  | 4 => ⟨S100000x4, .f32⟩
  | 5 => ⟨S1x4, .f32⟩
  | 6 => ⟨S100000x4, .f32⟩
  | 7 => ⟨S100000x4, .f32⟩
  | 8 => ⟨S_, .f32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x4, .f32⟩
  | 15 => ⟨S100000x4, .f32⟩
  | 16 => ⟨S100000x4, .f32⟩
  | 17 => ⟨S_, .f32⟩
  | 18 => ⟨S100000, .f32⟩
  | 19 => ⟨S100000x1, .f32⟩
  | 20 => ⟨S100000x1, .f32⟩
  | 21 => ⟨S100000x4, .f32⟩
  | 22 => ⟨S100000x4, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call1_cst : Ref sig .tc := ⟨.hbm, 99, rfl⟩
abbrev main_call1_v0 : Ref sig .tc := ⟨.hbm, 100, rfl⟩
abbrev main_v72 : Ref sig .tc := ⟨.hbm, 101, rfl⟩
abbrev main_v73 : Ref sig .tc := ⟨.hbm, 102, rfl⟩
abbrev main_c_12 : Ref sig .tc := ⟨.hbm, 103, rfl⟩
abbrev main_v74 : Ref sig .tc := ⟨.hbm, 104, rfl⟩
abbrev main_v75 : Ref sig .tc := ⟨.hbm, 105, rfl⟩
abbrev main_c_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_17 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_call2_cst : Ref sig .tc := ⟨.hbm, 154, rfl⟩
abbrev main_call2_v0 : Ref sig .tc := ⟨.hbm, 155, rfl⟩
abbrev main_v118 : Ref sig .tc := ⟨.hbm, 156, rfl⟩
abbrev main_v119 : Ref sig .tc := ⟨.hbm, 157, rfl⟩
abbrev main_c_19 : Ref sig .tc := ⟨.hbm, 158, rfl⟩
abbrev main_v120 : Ref sig .tc := ⟨.hbm, 159, rfl⟩
abbrev main_v121 : Ref sig .tc := ⟨.hbm, 160, rfl⟩
abbrev main_c_20 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_21 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_c_22 : Ref sig .tc := ⟨.hbm, 175, rfl⟩
abbrev main_v134 : Ref sig .tc := ⟨.hbm, 176, rfl⟩
abbrev main_v135 : Ref sig .tc := ⟨.hbm, 177, rfl⟩
abbrev main_c_23 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_24 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_25 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_call3_cst : Ref sig .tc := ⟨.hbm, 209, rfl⟩
abbrev main_call3_v0 : Ref sig .tc := ⟨.hbm, 210, rfl⟩
abbrev main_v164 : Ref sig .tc := ⟨.hbm, 211, rfl⟩
abbrev main_v165 : Ref sig .tc := ⟨.hbm, 212, rfl⟩
abbrev main_c_26 : Ref sig .tc := ⟨.hbm, 213, rfl⟩
abbrev main_v166 : Ref sig .tc := ⟨.hbm, 214, rfl⟩
abbrev main_v167 : Ref sig .tc := ⟨.hbm, 215, rfl⟩
abbrev main_c_27 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_28 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_c_29 : Ref sig .tc := ⟨.hbm, 230, rfl⟩
abbrev main_v180 : Ref sig .tc := ⟨.hbm, 231, rfl⟩
abbrev main_v181 : Ref sig .tc := ⟨.hbm, 232, rfl⟩
abbrev main_c_30 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_31 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_32 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_call4_cst : Ref sig .tc := ⟨.hbm, 264, rfl⟩
abbrev main_call4_v0 : Ref sig .tc := ⟨.hbm, 265, rfl⟩
abbrev main_call4_cst_0 : Ref sig .tc := ⟨.hbm, 266, rfl⟩
abbrev main_call4_v1 : Ref sig .tc := ⟨.hbm, 267, rfl⟩
abbrev main_call4_v2 : Ref sig .tc := ⟨.hbm, 268, rfl⟩
abbrev main_call4_v3 : Ref sig .tc := ⟨.hbm, 269, rfl⟩
abbrev main_call4_v4 : Ref sig .tc := ⟨.hbm, 270, rfl⟩
abbrev main_call4_v5 : Ref sig .tc := ⟨.hbm, 271, rfl⟩
abbrev main_call4_v6 : Ref sig .tc := ⟨.hbm, 272, rfl⟩
abbrev main_call4_cst_1 : Ref sig .tc := ⟨.hbm, 273, rfl⟩
abbrev main_call4_v7 : Ref sig .tc := ⟨.hbm, 274, rfl⟩
abbrev main_call4_v8 : Ref sig .tc := ⟨.hbm, 275, rfl⟩
abbrev main_call4_v9 : Ref sig .tc := ⟨.hbm, 276, rfl⟩
abbrev main_call4_v10 : Ref sig .tc := ⟨.hbm, 277, rfl⟩
abbrev main_v210 : Ref sig .tc := ⟨.hbm, 278, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  slices_S3x64x32_S1x64x32_0_0_0 : S3x64x32.Slices ![0, 0, 0] S1x64x32
  shapeCasts_S1x64x32_S64x32 : S1x64x32.ShapeCasts S64x32
  slices_S3x64x32_S1x64x32_1_0_0 : S3x64x32.Slices ![1, 0, 0] S1x64x32
  slices_S3x64x32_S1x64x32_2_0_0 : S3x64x32.Slices ![2, 0, 0] S1x64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1600000x1_S1600000x32_0_1 : S1600000x1.BroadcastsInDim S1600000x32 (![0, 1] : Fin 2 → Fin S1600000x32.rank)
  slices_S3x32x16_S1x32x16_0_0_0 : S3x32x16.Slices ![0, 0, 0] S1x32x16
  shapeCasts_S1x32x16_S32x16 : S1x32x16.ShapeCasts S32x16
  slices_S3x32x16_S1x32x16_1_0_0 : S3x32x16.Slices ![1, 0, 0] S1x32x16
  slices_S3x32x16_S1x32x16_2_0_0 : S3x32x16.Slices ![2, 0, 0] S1x32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1600000x1_S1600000x16_0_1 : S1600000x1.BroadcastsInDim S1600000x16 (![0, 1] : Fin 2 → Fin S1600000x16.rank)
  slices_S3x16x4_S1x16x4_0_0_0 : S3x16x4.Slices ![0, 0, 0] S1x16x4
  shapeCasts_S1x16x4_S16x4 : S1x16x4.ShapeCasts S16x4
  slices_S3x16x4_S1x16x4_1_0_0 : S3x16x4.Slices ![1, 0, 0] S1x16x4
  slices_S3x16x4_S1x16x4_2_0_0 : S3x16x4.Slices ![2, 0, 0] S1x16x4
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x4_S100000x4_1_0_0_1_n_n_wf : DotDims.WF S100000x16 S16x4 S100000x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x4_S100000x4_1_0_0_1_n_n : DotDims S100000x16 S16x4 S100000x4 where
  lhsContracting := [1]
  rhsContracting := [0]
  lhsNonContracting := [0]
  rhsNonContracting := [1]
  lhsBatch := []
  rhsBatch := []
  wf := dot_S100000x16_S16x4_S100000x4_1_0_0_1_n_n_wf

class Facts : Prop extends Facts₀ where

variable [Facts]
-- ==== Proof.KRun.lean ====
/-
  The idealized kernel's run with its result array named.

  The program is four pipelined calls among stretches of host operations. Its frame certificate folds the buffer
  contents through those ten segments, from the launch memory to the contents `W10` at the return, and shows that every
  execution ends with each unscoped buffer holding what `W10` says. The frame claim keeps only the argument arrays of
  that; here the same run keeps the result array as well: it ends at `W10` read at the result's buffer.
-/
import proofs.«164740_j8744553414859_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result array at the fold's final
    contents and the argument arrays as launched. -/
theorem run_named : θ_run defs (onTc (τ := τ) (main (F := F))) ⟨m, fun _ => 0, ρ⟩ (fun r => ∀ c : Dev nD,
      r.2.mem ((c.tc : Thread nD τ).loc main_v158) = W10 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v158 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Net

end
-- ==== Proof.RefSeg.lean ====
/-
  The reference's program, cut where the kernel's program is cut.

  The reference is one straight line of 268 host operations. Four stretches of it are, operation for operation, the host
  stretches of the kernel's program (the edge normalisation and, per layer, the two applications of the scaled Laplacian);
  between them sit the four layer combinations, which the kernel's program does in its pipelined calls. Folding the
  operations' results over a list is folding over its pieces one after another, so the reference's final buffer contents
  are reached through eight named intermediate contents `U1 … U8`, one per piece.
-/
import proofs.«164740_j8744553414859_1_alg».proof.Proof.RefOps
import Idealize.ShloMosaic.Lib.StableHlo.Run
import Idealize.ShloMosaic.PureOps.Ideal

noncomputable section

namespace Cert.ReferenceIdeal.Seg

open Cert.ReferenceIdeal Cert.ReferenceIdeal.ValueP
open Idealize.ShloMosaic Idealize.ShloMosaic.TcCoe Idealize.SL.Sem Idealize.ShloMosaic.StableHlo

/-- Folding over an appended list is folding over the first part, then the second. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- So a list may be cut anywhere. -/
theorem after_take_drop {Val : EltTy → Type} (n : ℕ) (l : List (HloOp τ sig Val)) (V : Valuation τ sig Val) :
    after l V = after (l.drop n) (after (l.take n) V) := by
  rw [← after_append, List.take_append_drop]

variable (m' : (ℓ : Loc nD τ sig) → Buf (Elt Ideal) ℓ) (c : Dev nD)

/-- The reference's buffers at launch. -/
abbrev U0 : Valuation τ sig (Elt Ideal) := launchContents m' c

/-- The reference's buffers after its segment 1 (host operations shared with the kernel's program). -/
def U1 : Valuation τ sig (Elt Ideal) := after (List.take 74 (ops (F := Ideal))) (U0 m' c)
/-- The reference's buffers after its segment 2 (a layer's combination, in the host's own operations). -/
def U2 : Valuation τ sig (Elt Ideal) := after (List.take 17 (List.drop 74 (ops (F := Ideal)))) (U1 m' c)
/-- The reference's buffers after its segment 3 (host operations shared with the kernel's program). -/
def U3 : Valuation τ sig (Elt Ideal) := after (List.take 38 (List.drop 17 (List.drop 74 (ops (F := Ideal))))) (U2 m' c)
/-- The reference's buffers after its segment 4 (a layer's combination, in the host's own operations). -/
def U4 : Valuation τ sig (Elt Ideal) := after (List.take 17 (List.drop 38 (List.drop 17 (List.drop 74 (ops (F := Ideal)))))) (U3 m' c)
/-- The reference's buffers after its segment 5 (host operations shared with the kernel's program). -/
def U5 : Valuation τ sig (Elt Ideal) := after (List.take 38 (List.drop 17 (List.drop 38 (List.drop 17 (List.drop 74 (ops (F := Ideal))))))) (U4 m' c)
/-- The reference's buffers after its segment 6 (a layer's combination, in the host's own operations). -/
def U6 : Valuation τ sig (Elt Ideal) := after (List.take 17 (List.drop 38 (List.drop 17 (List.drop 38 (List.drop 17 (List.drop 74 (ops (F := Ideal)))))))) (U5 m' c)
/-- The reference's buffers after its segment 7 (host operations shared with the kernel's program). -/
def U7 : Valuation τ sig (Elt Ideal) := after (List.take 38 (List.drop 17 (List.drop 38 (List.drop 17 (List.drop 38 (List.drop 17 (List.drop 74 (ops (F := Ideal))))))))) (U6 m' c)
/-- The reference's buffers after its segment 8 (a layer's combination, in the host's own operations). -/
def U8 : Valuation τ sig (Elt Ideal) := after (List.drop 38 (List.drop 17 (List.drop 38 (List.drop 17 (List.drop 38 (List.drop 17 (List.drop 74 (ops (F := Ideal))))))))) (U7 m' c)

/-- The whole fold is the eighth boundary's contents. -/
theorem after_ops_eq : after (ops (F := Ideal)) (launchContents m' c) = U8 m' c := by
  unfold U8 U7 U6 U5 U4 U3 U2 U1
  simp only [← after_append, List.append_assoc, List.take_append_drop]

/-- The reference's run: every weakly fair execution terminates, nothing faulting, with every buffer at the eighth
    boundary's contents. -/
theorem run (ρ' : Dev nD → PrngReg) :
    θ_run defs (onTc (τ := τ) (main (F := Ideal))) ⟨m', fun _ => 0, ρ'⟩ fun r =>
      ∀ (d : Dev nD) (b : Ref sig .tc), r.2.mem ((d.tc : Thread nD τ).loc b) = U8 m' d (Proc.devRef .tc b) :=
  (θ_run defs _ _).mono (fun r h d b => (h d b).trans (congrFun (after_ops_eq m' d) _))
    (run_seq scopedRefs_eq scopedSems_eq defs main (fun _ => ops) main_eq (fun _ => ops_sub) m' ρ')

end Cert.ReferenceIdeal.Seg

end
-- ==== Proof.RArgs.lean ====
/-
  The reference's arguments at the end of its run: never written, so as launched.
-/
import proofs.«164740_j8744553414859_1_alg».proof.Proof.RefSeg

set_option maxRecDepth 16384

noncomputable section

namespace Cert.ReferenceIdeal.Seg

open Cert.ReferenceIdeal Cert.ReferenceIdeal.ValueP
open Idealize.ShloMosaic Idealize.ShloMosaic.TcCoe Idealize.SL.Sem Idealize.ShloMosaic.StableHlo

variable (m' : (ℓ : Loc nD τ sig) → Buf (Elt Ideal) ℓ) (c : Dev nD)

set_option maxHeartbeats 2000000 in
theorem ra8_arg0 : U8 m' c (Proc.devRef .tc Cert.ReferenceIdeal.main_arg0) = U0 m' c (Proc.devRef .tc Cert.ReferenceIdeal.main_arg0) := by
  unfold U8 U7 U6 U5 U4 U3 U2 U1
  simp only [ops, List.take_succ_cons, List.take_zero, List.drop_succ_cons, List.drop_zero]
  after_results_simp

set_option maxHeartbeats 2000000 in
theorem ra8_arg1 : U8 m' c (Proc.devRef .tc Cert.ReferenceIdeal.main_arg1) = U0 m' c (Proc.devRef .tc Cert.ReferenceIdeal.main_arg1) := by
  unfold U8 U7 U6 U5 U4 U3 U2 U1
  simp only [ops, List.take_succ_cons, List.take_zero, List.drop_succ_cons, List.drop_zero]
  after_results_simp

set_option maxHeartbeats 2000000 in
theorem ra8_arg2 : U8 m' c (Proc.devRef .tc Cert.ReferenceIdeal.main_arg2) = U0 m' c (Proc.devRef .tc Cert.ReferenceIdeal.main_arg2) := by
  unfold U8 U7 U6 U5 U4 U3 U2 U1
  simp only [ops, List.take_succ_cons, List.take_zero, List.drop_succ_cons, List.drop_zero]
  after_results_simp

set_option maxHeartbeats 2000000 in
theorem ra8_arg3 : U8 m' c (Proc.devRef .tc Cert.ReferenceIdeal.main_arg3) = U0 m' c (Proc.devRef .tc Cert.ReferenceIdeal.main_arg3) := by
  unfold U8 U7 U6 U5 U4 U3 U2 U1
  simp only [ops, List.take_succ_cons, List.take_zero, List.drop_succ_cons, List.drop_zero]
  after_results_simp

set_option maxHeartbeats 2000000 in
theorem ra8_arg4 : U8 m' c (Proc.devRef .tc Cert.ReferenceIdeal.main_arg4) = U0 m' c (Proc.devRef .tc Cert.ReferenceIdeal.main_arg4) := by
  unfold U8 U7 U6 U5 U4 U3 U2 U1
  simp only [ops, List.take_succ_cons, List.take_zero, List.drop_succ_cons, List.drop_zero]
  after_results_simp

set_option maxHeartbeats 2000000 in
theorem ra8_arg5 : U8 m' c (Proc.devRef .tc Cert.ReferenceIdeal.main_arg5) = U0 m' c (Proc.devRef .tc Cert.ReferenceIdeal.main_arg5) := by
  unfold U8 U7 U6 U5 U4 U3 U2 U1
  simp only [ops, List.take_succ_cons, List.take_zero, List.drop_succ_cons, List.drop_zero]
  after_results_simp

set_option maxHeartbeats 2000000 in
theorem ra8_arg6 : U8 m' c (Proc.devRef .tc Cert.ReferenceIdeal.main_arg6) = U0 m' c (Proc.devRef .tc Cert.ReferenceIdeal.main_arg6) := by
  unfold U8 U7 U6 U5 U4 U3 U2 U1
  simp only [ops, List.take_succ_cons, List.take_zero, List.drop_succ_cons, List.drop_zero]
  after_results_simp

set_option maxHeartbeats 2000000 in
theorem ra8_arg7 : U8 m' c (Proc.devRef .tc Cert.ReferenceIdeal.main_arg7) = U0 m' c (Proc.devRef .tc Cert.ReferenceIdeal.main_arg7) := by
  unfold U8 U7 U6 U5 U4 U3 U2 U1
  simp only [ops, List.take_succ_cons, List.take_zero, List.drop_succ_cons, List.drop_zero]
  after_results_simp

set_option maxHeartbeats 2000000 in
theorem ra8_arg8 : U8 m' c (Proc.devRef .tc Cert.ReferenceIdeal.main_arg8) = U0 m' c (Proc.devRef .tc Cert.ReferenceIdeal.main_arg8) := by
  unfold U8 U7 U6 U5 U4 U3 U2 U1
  simp only [ops, List.take_succ_cons, List.take_zero, List.drop_succ_cons, List.drop_zero]
  after_results_simp

set_option maxHeartbeats 2000000 in
theorem ra8_arg9 : U8 m' c (Proc.devRef .tc Cert.ReferenceIdeal.main_arg9) = U0 m' c (Proc.devRef .tc Cert.ReferenceIdeal.main_arg9) := by
  unfold U8 U7 U6 U5 U4 U3 U2 U1
  simp only [ops, List.take_succ_cons, List.take_zero, List.drop_succ_cons, List.drop_zero]
  after_results_simp

set_option maxHeartbeats 2000000 in
theorem ra8_arg10 : U8 m' c (Proc.devRef .tc Cert.ReferenceIdeal.main_arg10) = U0 m' c (Proc.devRef .tc Cert.ReferenceIdeal.main_arg10) := by
  unfold U8 U7 U6 U5 U4 U3 U2 U1
  simp only [ops, List.take_succ_cons, List.take_zero, List.drop_succ_cons, List.drop_zero]
  after_results_simp

end Cert.ReferenceIdeal.Seg

end
-- ==== Proof.BridgeBase.lean ====
/-
  The two programs side by side: the setting.

  The kernel's program and the reference are run from two memories that agree on the eleven arguments. The kernel's
  buffer contents at its segment boundaries are the fold `W0 … W10` of its frame certificate; the reference's are
  `U0 … U8`. The modules that follow walk the two folds in step and show, boundary by boundary, that the buffers a later
  step reads hold the same arrays on both sides.
-/
import proofs.«164740_j8744553414859_1_alg».proof.Proof.RefSeg
import proofs.«164740_j8744553414859_1_alg».proof.Proof.Gen.KernelIdeal.Frame

set_option maxRecDepth 16384

noncomputable section

namespace Cert.Bridge

open Idealize.ShloMosaic Idealize.ShloMosaic.TcCoe Idealize.SL.Sem Idealize.ShloMosaic.StableHlo
open Cert.ReferenceIdeal.Seg
open Cert.KernelIdeal.Gen (W0 W1 W2 W3 W4 W5 W6 W7 W8 W9 W10 V3 V5 V7 V9)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The two launch memories agree on the arguments. -/
structure Agree : Prop where
  a0 : U0 m' c (Proc.devRef .tc Cert.ReferenceIdeal.main_arg0) = W0 m ρ c (Proc.devRef .tc Cert.KernelIdeal.main_arg0)
  a1 : U0 m' c (Proc.devRef .tc Cert.ReferenceIdeal.main_arg1) = W0 m ρ c (Proc.devRef .tc Cert.KernelIdeal.main_arg1)
  a2 : U0 m' c (Proc.devRef .tc Cert.ReferenceIdeal.main_arg2) = W0 m ρ c (Proc.devRef .tc Cert.KernelIdeal.main_arg2)
  a3 : U0 m' c (Proc.devRef .tc Cert.ReferenceIdeal.main_arg3) = W0 m ρ c (Proc.devRef .tc Cert.KernelIdeal.main_arg3)
  a4 : U0 m' c (Proc.devRef .tc Cert.ReferenceIdeal.main_arg4) = W0 m ρ c (Proc.devRef .tc Cert.KernelIdeal.main_arg4)
  a5 : U0 m' c (Proc.devRef .tc Cert.ReferenceIdeal.main_arg5) = W0 m ρ c (Proc.devRef .tc Cert.KernelIdeal.main_arg5)
  a6 : U0 m' c (Proc.devRef .tc Cert.ReferenceIdeal.main_arg6) = W0 m ρ c (Proc.devRef .tc Cert.KernelIdeal.main_arg6)
  a7 : U0 m' c (Proc.devRef .tc Cert.ReferenceIdeal.main_arg7) = W0 m ρ c (Proc.devRef .tc Cert.KernelIdeal.main_arg7)
  a8 : U0 m' c (Proc.devRef .tc Cert.ReferenceIdeal.main_arg8) = W0 m ρ c (Proc.devRef .tc Cert.KernelIdeal.main_arg8)
  a9 : U0 m' c (Proc.devRef .tc Cert.ReferenceIdeal.main_arg9) = W0 m ρ c (Proc.devRef .tc Cert.KernelIdeal.main_arg9)
  a10 : U0 m' c (Proc.devRef .tc Cert.ReferenceIdeal.main_arg10) = W0 m ρ c (Proc.devRef .tc Cert.KernelIdeal.main_arg10)

end Cert.Bridge

end
-- ==== Proof.Stage1.lean ====
/-
  The first boundary: after the edge normalisation and the first layer's two Laplacian applications.

  Up to here the two programs run the same host operations on agreeing arguments, so every buffer they both name holds
  the same array: the arguments themselves, the source and destination index vectors, the normalised edge weights, and
  the first layer's two transformed signals.
-/
import proofs.«164740_j8744553414859_1_alg».proof.Proof.BridgeBase

set_option maxRecDepth 16384

noncomputable section

namespace Cert.Bridge

open Idealize.ShloMosaic Idealize.ShloMosaic.TcCoe Idealize.SL.Sem Idealize.ShloMosaic.StableHlo
open Cert.ReferenceIdeal.Seg
open Cert.KernelIdeal.Gen (W0 W1 W2 W3 W4 W5 W6 W7 W8 W9 W10 V3 V5 V7 V9)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

set_option maxHeartbeats 2000000 in
theorem s1_arg0 (h : Agree m ρ m' c) : U1 m' c (Proc.devRef .tc Cert.ReferenceIdeal.main_arg0) = W3 m ρ c (Proc.devRef .tc Cert.KernelIdeal.main_arg0) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg1 (h : Agree m ρ m' c) : U1 m' c (Proc.devRef .tc Cert.ReferenceIdeal.main_arg1) = W3 m ρ c (Proc.devRef .tc Cert.KernelIdeal.main_arg1) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg2 (h : Agree m ρ m' c) : U1 m' c (Proc.devRef .tc Cert.ReferenceIdeal.main_arg2) = W3 m ρ c (Proc.devRef .tc Cert.KernelIdeal.main_arg2) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg3 (h : Agree m ρ m' c) : U1 m' c (Proc.devRef .tc Cert.ReferenceIdeal.main_arg3) = W3 m ρ c (Proc.devRef .tc Cert.KernelIdeal.main_arg3) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg4 (h : Agree m ρ m' c) : U1 m' c (Proc.devRef .tc Cert.ReferenceIdeal.main_arg4) = W3 m ρ c (Proc.devRef .tc Cert.KernelIdeal.main_arg4) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg5 (h : Agree m ρ m' c) : U1 m' c (Proc.devRef .tc Cert.ReferenceIdeal.main_arg5) = W3 m ρ c (Proc.devRef .tc Cert.KernelIdeal.main_arg5) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg6 (h : Agree m ρ m' c) : U1 m' c (Proc.devRef .tc Cert.ReferenceIdeal.main_arg6) = W3 m ρ c (Proc.devRef .tc Cert.KernelIdeal.main_arg6) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg7 (h : Agree m ρ m' c) : U1 m' c (Proc.devRef .tc Cert.ReferenceIdeal.main_arg7) = W3 m ρ c (Proc.devRef .tc Cert.KernelIdeal.main_arg7) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg8 (h : Agree m ρ m' c) : U1 m' c (Proc.devRef .tc Cert.ReferenceIdeal.main_arg8) = W3 m ρ c (Proc.devRef .tc Cert.KernelIdeal.main_arg8) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg9 (h : Agree m ρ m' c) : U1 m' c (Proc.devRef .tc Cert.ReferenceIdeal.main_arg9) = W3 m ρ c (Proc.devRef .tc Cert.KernelIdeal.main_arg9) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_arg10 (h : Agree m ρ m' c) : U1 m' c (Proc.devRef .tc Cert.ReferenceIdeal.main_arg10) = W3 m ρ c (Proc.devRef .tc Cert.KernelIdeal.main_arg10) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_v1 (h : Agree m ρ m' c) : U1 m' c (Proc.devRef .tc Cert.ReferenceIdeal.main_v1) = W3 m ρ c (Proc.devRef .tc Cert.KernelIdeal.main_v1) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_v3 (h : Agree m ρ m' c) : U1 m' c (Proc.devRef .tc Cert.ReferenceIdeal.main_v3) = W3 m ρ c (Proc.devRef .tc Cert.KernelIdeal.main_v3) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_v26 (h : Agree m ρ m' c) : U1 m' c (Proc.devRef .tc Cert.ReferenceIdeal.main_v26) = W3 m ρ c (Proc.devRef .tc Cert.KernelIdeal.main_v26) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_v40 (h : Agree m ρ m' c) : U1 m' c (Proc.devRef .tc Cert.ReferenceIdeal.main_v40) = W3 m ρ c (Proc.devRef .tc Cert.KernelIdeal.main_v40) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

set_option maxHeartbeats 2000000 in
theorem s1_v57 (h : Agree m ρ m' c) : U1 m' c (Proc.devRef .tc Cert.ReferenceIdeal.main_v57) = W3 m ρ c (Proc.devRef .tc Cert.KernelIdeal.main_v57) := by
  unfold U1
  simp only [Cert.ReferenceIdeal.ValueP.ops, List.take_succ_cons, List.take_zero, List.drop_succ_cons, List.drop_zero]
  after_results_simp
  simp only [h.a0, h.a1, h.a2, h.a3, h.a4, h.a5, h.a6, h.a7, h.a8, h.a9, h.a10]
  try rfl

end Cert.Bridge

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.Spec.lean ====
/-
  What one layer computes, index by index, on the extended reals.

  A layer takes three row-indexed arrays `x0 x1 x2` of `K` features (a node signal and its first two Chebyshev
  transforms by the scaled graph Laplacian), a stack `w` of three `K × N` weight matrices and a bias `b` of `N`
  entries. At row `a` and output feature `q` it forms

      comb a q = ((Σ_k x0(a,k)·w(0,k,q) + Σ_k x1(a,k)·w(1,k,q)) + Σ_k x2(a,k)·w(2,k,q)) + b(q),

  the sums and products being those of the extended reals, grouped as written. A hidden layer then takes the
  maximum with zero. The last layer instead normalises each row of `N` scores `z`: with `μ` the row's maximum it
  returns `(z(a,q) - μ) - log Σ_q' exp (z(a,q') - μ)`.

  Nothing here is specific to a program: the extents are parameters and every index is built from coordinates.
-/
import Idealize.ShloMosaic.PureOps.Ideal.Laws
import Idealize.ShloMosaic.Lib.ValueIdx

noncomputable section

open scoped BigOperators

namespace Cert.Cheb

open Idealize.ShloMosaic Idealize.ShloMosaic.ValueIdx

variable {M K N : ℕ}

/-- The three-term combination with its bias, at row `a` and output feature `q`. -/
def comb (x0 x1 x2 : (⟨2, ![M, K]⟩ : Shape).Idx → EReal) (w : (⟨3, ![3, K, N]⟩ : Shape).Idx → EReal)
    (b : (⟨1, ![N]⟩ : Shape).Idx → EReal) (a : Fin M) (q : Fin N) : EReal :=
  (∑ k : Fin K, x0 (ix2 a k) * w (ix3 (0 : Fin 3) k q)) + (∑ k : Fin K, x1 (ix2 a k) * w (ix3 (1 : Fin 3) k q))
    + (∑ k : Fin K, x2 (ix2 a k) * w (ix3 (2 : Fin 3) k q)) + b (ix1 q)

/-- The scores of a layer, as an array. -/
def scores (x0 x1 x2 : (⟨2, ![M, K]⟩ : Shape).Idx → EReal) (w : (⟨3, ![3, K, N]⟩ : Shape).Idx → EReal)
    (b : (⟨1, ![N]⟩ : Shape).Idx → EReal) : (⟨2, ![M, N]⟩ : Shape).Idx → EReal :=
  fun j => comb x0 x1 x2 w b (j 0) (j 1)

/-- A hidden layer: the scores cut off below at zero (the zero being the value of the all-zero float word). -/
def hidden (x0 x1 x2 : (⟨2, ![M, K]⟩ : Shape).Idx → EReal) (w : (⟨3, ![3, K, N]⟩ : Shape).Idx → EReal)
    (b : (⟨1, ![N]⟩ : Shape).Idx → EReal) : (⟨2, ![M, N]⟩ : Shape).Idx → EReal :=
  fun j => max (comb x0 x1 x2 w b (j 0) (j 1)) (Ideal.ofBits .f32 0x00000000#32)

/-- The maximum of a row of `N` values, folded from the value of the word that denotes `-∞`. -/
def rowMax (f : Fin N → EReal) : EReal :=
  (Finset.univ : Finset (Fin N)).fold max (Ideal.ofBits .f32 0xFF800000#32) f

/-- One entry of a row's logarithmic softmax: the entry less the row's maximum, less the logarithm of the row's sum of
    exponentials of such differences. -/
def logSoftmaxAt (f : Fin N → EReal) (q : Fin N) : EReal :=
  (f q - rowMax f) - Ideal.log (∑ q' : Fin N, Ideal.exp (f q' - rowMax f))

/-- The last layer: every row of scores normalised. -/
def normalised (z : (⟨2, ![M, N]⟩ : Shape).Idx → EReal) : (⟨2, ![M, N]⟩ : Shape).Idx → EReal :=
  fun j => logSoftmaxAt (fun q => z (ix2 (j 0) q)) (j 1)

/-- The bias as the kernel is handed it: a one-row matrix. Its row is the bias. -/
def rowOf (b2 : (⟨2, ![1, N]⟩ : Shape).Idx → EReal) : (⟨1, ![N]⟩ : Shape).Idx → EReal :=
  fun q => b2 (ix2 (0 : Fin 1) (q 0))

/-- The value of the word for `-∞` is below everything, so taking the maximum with it changes nothing. -/
theorem max_negInf_left (y : EReal) : max (Ideal.ofBits .f32 0xFF800000#32) y = y := by
  simp [Ideal.ofBits, Ideal.ieee]

end Cert.Cheb

end
-- ==== Proof.LayerOps.lean ====
/-
  One layer's printed operations, read at an index.

  Both programs spell a layer with the same ingredients in two dialects. The kernel multiplies row blocks by the three
  weight slabs on its matrix unit, each product accumulated into zeros, adds them and the bias row spread over the block.
  The host contracts whole arrays with `dot_general`, cutting the three slabs out of the weight stack by slices and
  reshapes, and spreads the bias in two steps. On the extended reals each product, in either dialect, is the plain sum
  Σ_k l(a,k)·r(k,q); a slab read at (k,q) is the stack at (s,k,q); a spread bias at (a,q) is the bias at q. So each
  side's layer is the combination `Cheb.comb` of the specification, grouped the same way, and no law of arithmetic is
  needed beyond reading the layouts.
-/
import Idealize.ShloMosaic.PureOps.Ideal.Laws
import Idealize.ShloMosaic.Lib.ValueIdx
import Idealize.ShloMosaic.Lib.ValueLayout
import Idealize.ShloMosaic.Lib.Pipeline.Value
import proofs.«164740_j8744553414859_1_alg».proof.Proof.LibDot
import proofs.«164740_j8744553414859_1_alg».proof.Proof.LibColumn
import proofs.«164740_j8744553414859_1_alg».proof.Proof.Spec

noncomputable section

open scoped BigOperators

namespace Cert.Cheb

open Idealize.ShloMosaic Idealize.ShloMosaic.ValueIdx

variable {M K N : ℕ}

/-! ## Products -/

/-- The matrix unit's product into a zero accumulator, at (a, q). -/
theorem matmul_zero_at {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ φ₁) (r : FVec Ideal ⟨2, ![K, N]⟩ φ₂) (a : Fin M) (q : Fin N) :
    matmul D prec l r (constant ⟨2, ![M, N]⟩ .f32 0x00000000#32) (ix2 a q) = ∑ k : Fin K, l (ix2 a k) * r (ix2 k q) :=
  (Ideal.matmul_constant_zero_apply D prec l r (ix2 a q)).trans (PlainDot.sum_eq D h1 h2 h3 h4 h5 h6 l r a q)

/-- The host's contraction, at (a, q). -/
theorem dotGeneral_at {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ φ₁) (r : FVec Ideal ⟨2, ![K, N]⟩ φ₂) (a : Fin M) (q : Fin N) :
    Host.dotGeneral D prec l r (ix2 a q) = ∑ k : Fin K, l (ix2 a k) * r (ix2 k q) :=
  (Ideal.dotGeneral_apply D prec .single l r (ix2 a q)).trans (PlainDot.sum_eq D h1 h2 h3 h4 h5 h6 l r a q)

/-! ## Weight slabs -/

variable {α : Type}

/-- A one-slab stack `[1, K, N]` viewed as a matrix `[K, N]` reads, at (k, q), the slab at (0, k, q). -/
theorem slab_cast_at (v : (⟨3, ![1, K, N]⟩ : Shape).Idx → α) (h : (⟨3, ![1, K, N]⟩ : Shape).ShapeCasts ⟨2, ![K, N]⟩)
    (k : Fin K) (q : Fin N) : shapeCast ⟨2, ![K, N]⟩ v h (ix2 k q) = v (ix3 (0 : Fin 1) k q) := by
  refine shapeCast_apply v h _ _ ?_
  rw [Shape.rowMajor_val_three, Shape.rowMajor_val_two]
  show (0 * K + k.val) * N + q.val = k.val * N + q.val
  rw [Nat.zero_mul, Nat.zero_add]

/-- The host's slice of slab `o` out of the stack reads, at (0, k, q), the stack at (o, k, q). -/
theorem slice_slab_at (o : ℕ) (ho : o < 3) (w : (⟨3, ![3, K, N]⟩ : Shape).Idx → α)
    (h : (⟨3, ![3, K, N]⟩ : Shape).Slices ![o, 0, 0] ⟨3, ![1, K, N]⟩) (k : Fin K) (q : Fin N) :
    extractStridedSlice ⟨3, ![1, K, N]⟩ ![o, 0, 0] w h (ix3 (0 : Fin 1) k q) = w (ix3 (⟨o, ho⟩ : Fin 3) k q) := by
  refine extractStridedSlice_apply _ w h _ _ fun a => ?_
  match a with
  | ⟨0, _⟩ => show o = o + 0; rfl
  | ⟨1, _⟩ => show k.val = 0 + k.val; omega
  | ⟨2, _⟩ => show q.val = 0 + q.val; omega

/-- The rectangle of slab `o` inside the stack places its index (0, k, q) at (o, k, q): what a load of that slab reads. -/
theorem slab_idx (o : ℕ) (ho : o < 3)
    (inb : ∀ a, (![o, 0, 0] : Fin 3 → ℕ) a + (⟨3, ![1, K, N]⟩ : Shape).size a ≤ (⟨3, ![3, K, N]⟩ : Shape).size a)
    (k : Fin K) (q : Fin N) :
    (Rect.unit (s := ⟨3, ![3, K, N]⟩) ![o, 0, 0] (⟨3, ![1, K, N]⟩ : Shape).size inb).idx (ix3 (0 : Fin 1) k q)
      = ix3 (⟨o, ho⟩ : Fin 3) k q := by
  funext a; apply Fin.ext
  match a with
  | ⟨0, _⟩ => show o + 1 * 0 = o; omega
  | ⟨1, _⟩ => show 0 + 1 * k.val = k.val; omega
  | ⟨2, _⟩ => show 0 + 1 * q.val = q.val; omega

/-! ## The bias -/

/-- A one-row matrix spread over `M` rows reads, at (a, q), its row at q. -/
theorem broadcastTo_1b_ab_apply (v : (⟨2, ![1, N]⟩ : Shape).Idx → α) (h : (⟨2, ![1, N]⟩ : Shape).Broadcasts ⟨2, ![M, N]⟩)
    (a : Fin M) (q : Fin N) : broadcastTo ⟨2, ![M, N]⟩ v h (ix2 a q) = v (ix2 (0 : Fin 1) q) := by
  refine broadcastTo_apply v h (ix2 a q) (ix2 (0 : Fin 1) q) fun ax => ?_
  match ax with
  | ⟨0, _⟩ => rfl
  | ⟨1, _⟩ =>
    show q.val = if N = 1 then 0 else q.val
    split
    · have := q.isLt; omega
    · rfl

/-- A vector of `N` entries given a unit row axis reads, at (0, q), its entry q. -/
theorem shapeCast_b_1b_apply (x : (⟨1, ![N]⟩ : Shape).Idx → α) (h : (⟨1, ![N]⟩ : Shape).ShapeCasts ⟨2, ![1, N]⟩)
    (u : Fin 1) (q : Fin N) : shapeCast ⟨2, ![1, N]⟩ x h (ix2 u q) = x (ix1 q) :=
  shapeCast_apply x h _ _ (by
    have hu : u.val = 0 := by omega
    rw [Shape.rowMajor_val_two, Shape.rowMajor_val_one]
    show q.val = u.val * N + q.val
    rw [hu, Nat.zero_mul, Nat.zero_add])

/-! ## The combination depends only on the entries it reads -/

/-- Two sets of operands that agree on row `a` (respectively `a'`) of the signals, on column `q` of the slabs and at
    entry `q` of the bias give the same combination there: how a row block's result is the whole array's. -/
theorem comb_congr {M' : ℕ} (x0 x1 x2 : (⟨2, ![M, K]⟩ : Shape).Idx → EReal) (y0 y1 y2 : (⟨2, ![M', K]⟩ : Shape).Idx → EReal)
    (w w' : (⟨3, ![3, K, N]⟩ : Shape).Idx → EReal) (b b' : (⟨1, ![N]⟩ : Shape).Idx → EReal) (a : Fin M) (a' : Fin M') (q : Fin N)
    (h0 : ∀ k : Fin K, x0 (ix2 a k) = y0 (ix2 a' k)) (h1 : ∀ k : Fin K, x1 (ix2 a k) = y1 (ix2 a' k))
    (h2 : ∀ k : Fin K, x2 (ix2 a k) = y2 (ix2 a' k)) (hw : ∀ (s : Fin 3) (k : Fin K), w (ix3 s k q) = w' (ix3 s k q))
    (hb : b (ix1 q) = b' (ix1 q)) : comb x0 x1 x2 w b a q = comb y0 y1 y2 w' b' a' q := by
  unfold comb
  simp only [h0, h1, h2, hw, hb]

/-! ## The host's layer -/

/-- The host's three contractions of sliced and reshaped slabs, added left to right, plus the bias spread in two steps,
    are the specification's scores. -/
theorem host_scores_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x0 x1 x2 : FVec Ideal ⟨2, ![M, K]⟩ .f32) (w : FVec Ideal ⟨3, ![3, K, N]⟩ .f32) (b : FVec Ideal ⟨1, ![N]⟩ .f32)
    (s0 : (⟨3, ![3, K, N]⟩ : Shape).Slices ![0, 0, 0] ⟨3, ![1, K, N]⟩)
    (s1 : (⟨3, ![3, K, N]⟩ : Shape).Slices ![1, 0, 0] ⟨3, ![1, K, N]⟩)
    (s2 : (⟨3, ![3, K, N]⟩ : Shape).Slices ![2, 0, 0] ⟨3, ![1, K, N]⟩)
    (hc : (⟨3, ![1, K, N]⟩ : Shape).ShapeCasts ⟨2, ![K, N]⟩)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (addf (addf
        (Host.dotGeneral D none x0 (shapeCast ⟨2, ![K, N]⟩ (extractStridedSlice ⟨3, ![1, K, N]⟩ ![0, 0, 0] w s0) hc))
        (Host.dotGeneral D none x1 (shapeCast ⟨2, ![K, N]⟩ (extractStridedSlice ⟨3, ![1, K, N]⟩ ![1, 0, 0] w s1) hc)))
        (Host.dotGeneral D none x2 (shapeCast ⟨2, ![K, N]⟩ (extractStridedSlice ⟨3, ![1, K, N]⟩ ![2, 0, 0] w s2) hc)))
      (broadcastInDim ⟨2, ![M, N]⟩ ![0, 1] hb2 (broadcastInDim ⟨2, ![1, N]⟩ ![1] hb1 b))
    = scores x0 x1 x2 w b := by
  funext j
  obtain ⟨a, q, rfl⟩ : ∃ (a : Fin M) (q : Fin N), j = ix2 a q := ⟨j 0, j 1, eq_ix2 j⟩
  show (Host.dotGeneral D none x0 _ (ix2 a q) + Host.dotGeneral D none x1 _ (ix2 a q)) + Host.dotGeneral D none x2 _ (ix2 a q)
      + broadcastInDim ⟨2, ![M, N]⟩ ![0, 1] hb2 (broadcastInDim ⟨2, ![1, N]⟩ ![1] hb1 b) (ix2 a q) = comb x0 x1 x2 w b a q
  rw [dotGeneral_at D h1 h2 h3 h4 h5 h6, dotGeneral_at D h1 h2 h3 h4 h5 h6, dotGeneral_at D h1 h2 h3 h4 h5 h6,
    LibColumn.broadcastInDim_1b_ab_apply, LibColumn.broadcastInDim_b_1b_apply]
  unfold comb
  simp only [slab_cast_at, slice_slab_at 0 (by omega), slice_slab_at 1 (by omega), slice_slab_at 2 (by omega)]
  rfl

end Cert.Cheb

end
-- ==== Proof.Region0.lean ====
/-
  The first pipelined call: what its result array holds.

  The call walks twenty blocks of 5000 rows. At block `t` its body is handed rows 5000·t … 5000·t + 4999 of the three
  signal arrays, the whole weight stack and the one-row bias, and writes back the hidden layer of those rows. A row's
  hidden layer reads only that row of the signals, so the blocks written back are the restrictions of ONE array — the
  hidden layer of the whole signals — and, as the twenty blocks tile the result, that array is what it ends holding.
-/
import proofs.«164740_j8744553414859_1_alg».proof.Proof.Gen.KernelIdeal.Frame
import proofs.«164740_j8744553414859_1_alg».proof.Proof.LayerOps
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-! ## The body's result at an index -/

/-- The body's stored value at row `a`, feature `q` of its block: the hidden layer of the block's rows. -/
theorem pay0_at (x0 x1 x2 : Vec Ideal S5000x128 .f32) (w : Vec Ideal S3x128x64 .f32) (b : Vec Ideal S1x64 .f32)
    (a : Fin 5000) (q : Fin 64) :
    k0_pay1 x0 x1 x2 (View.ld w r0_1) (View.ld w r0_2) (View.ld w r0_3) b (ix2 a q)
      = max (Cheb.comb x0 x1 x2 w (Cheb.rowOf b) a q) (Ideal.ofBits .f32 0x00000000#32) := by
  unfold k0_pay1
  simp only [shapeCast_self]
  rw [maximumf_apply, addf_apply, addf_apply, addf_apply,
    Cheb.matmul_zero_at _ rfl rfl rfl rfl rfl rfl, Cheb.matmul_zero_at _ rfl rfl rfl rfl rfl rfl,
    Cheb.matmul_zero_at _ rfl rfl rfl rfl rfl rfl, Cheb.broadcastTo_1b_ab_apply, broadcast_apply]
  unfold Cheb.comb Cheb.rowOf
  have e0 : ∀ k : Fin 128, View.ld w r0_1 (ix3 (0 : Fin 1) k q) = w (ix3 (0 : Fin 3) k q) :=
    fun k => congrArg w (Cheb.slab_idx 0 (by omega) _ k q)
  have e1 : ∀ k : Fin 128, View.ld w r0_2 (ix3 (0 : Fin 1) k q) = w (ix3 (1 : Fin 3) k q) :=
    fun k => congrArg w (Cheb.slab_idx 1 (by omega) _ k q)
  have e2 : ∀ k : Fin 128, View.ld w r0_3 (ix3 (0 : Fin 1) k q) = w (ix3 (2 : Fin 3) k q) :=
    fun k => congrArg w (Cheb.slab_idx 2 (by omega) _ k q)
  simp only [truncf_apply, Cheb.slab_cast_at, e0, e1, e2]
  rfl

/-! ## The windows' blocks as parts of their arrays -/

variable (V : (c : Dev nD) → (b : Ref sig .tc) → Buf (Elt Ideal) ((c : Thread nD τ).loc b))

/-- The printed index maps, decided over the twenty points: the signals and the result move one row block per point, the
    weight stack and the bias stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `a` of signal window 0's block at point `t` is row `5000·t + a` of its array. -/
theorem iblk0_0_at (c : Dev nD) (t : Fin cfg0.N) (a : Fin 5000) (k : Fin 128) (r : Fin 100000) (hr : r.val = t.val * 5000 + a.val) :
    (iblk0 V c 0 t : Vec Ideal S5000x128 .f32) (ix2 a k) = (V c main_arg0 : S100000x128.Idx → EReal) (ix2 r k) := by
  have e := idx_facts0 t
  unfold iblk0
  rw [View.read_apply]
  show V c main_arg0 _ = V c main_arg0 _
  congr 1
  funext d; apply Fin.ext
  match d with
  | ⟨0, _⟩ => show win0_0.index t 0 * 5000 + 1 * a.val = r.val; rw [hr]; omega
  | ⟨1, _⟩ => show win0_0.index t 1 * 128 + 1 * k.val = k.val; omega

/-- Row `a` of signal window 1's block at point `t` is row `5000·t + a` of its array. -/
theorem iblk0_1_at (c : Dev nD) (t : Fin cfg0.N) (a : Fin 5000) (k : Fin 128) (r : Fin 100000) (hr : r.val = t.val * 5000 + a.val) :
    (iblk0 V c 1 t : Vec Ideal S5000x128 .f32) (ix2 a k) = (V c main_v40 : S100000x128.Idx → EReal) (ix2 r k) := by
  have e := idx_facts0 t
  unfold iblk0
  rw [View.read_apply]
  show V c main_v40 _ = V c main_v40 _
  congr 1
  funext d; apply Fin.ext
  match d with
  | ⟨0, _⟩ => show win0_1.index t 0 * 5000 + 1 * a.val = r.val; rw [hr]; omega
  | ⟨1, _⟩ => show win0_1.index t 1 * 128 + 1 * k.val = k.val; omega

/-- Row `a` of signal window 2's block at point `t` is row `5000·t + a` of its array. -/
theorem iblk0_2_at (c : Dev nD) (t : Fin cfg0.N) (a : Fin 5000) (k : Fin 128) (r : Fin 100000) (hr : r.val = t.val * 5000 + a.val) :
    (iblk0 V c 2 t : Vec Ideal S5000x128 .f32) (ix2 a k) = (V c main_v57 : S100000x128.Idx → EReal) (ix2 r k) := by
  have e := idx_facts0 t
  unfold iblk0
  rw [View.read_apply]
  show V c main_v57 _ = V c main_v57 _
  congr 1
  funext d; apply Fin.ext
  match d with
  | ⟨0, _⟩ => show win0_2.index t 0 * 5000 + 1 * a.val = r.val; rw [hr]; omega
  | ⟨1, _⟩ => show win0_2.index t 1 * 128 + 1 * k.val = k.val; omega

/-- The weight window's block is the whole stack at every point. -/
theorem iblk0_3_at (c : Dev nD) (t : Fin cfg0.N) (s : Fin 3) (k : Fin 128) (q : Fin 64) :
    (iblk0 V c 3 t : Vec Ideal S3x128x64 .f32) (ix3 s k q) = (V c main_arg3 : S3x128x64.Idx → EReal) (ix3 s k q) := by
  have e := idx_facts0 t
  unfold iblk0
  rw [View.read_apply]
  show V c main_arg3 _ = V c main_arg3 _
  congr 1
  funext d; apply Fin.ext
  match d with
  | ⟨0, _⟩ => show win0_3.index t 0 * 3 + 1 * s.val = s.val; omega
  | ⟨1, _⟩ => show win0_3.index t 1 * 128 + 1 * k.val = k.val; omega
  | ⟨2, _⟩ => show win0_3.index t 2 * 64 + 1 * q.val = q.val; omega

/-- The bias window's block is the whole one-row bias at every point. -/
theorem iblk0_4_at (c : Dev nD) (t : Fin cfg0.N) (u : Fin 1) (q : Fin 64) :
    (iblk0 V c 4 t : Vec Ideal S1x64 .f32) (ix2 u q) = (V c main_v58 : S1x64.Idx → EReal) (ix2 u q) := by
  have e := idx_facts0 t
  unfold iblk0
  rw [View.read_apply]
  show V c main_v58 _ = V c main_v58 _
  congr 1
  funext d; apply Fin.ext
  match d with
  | ⟨0, _⟩ => show win0_4.index t 0 * 1 + 1 * u.val = u.val; omega
  | ⟨1, _⟩ => show win0_4.index t 1 * 64 + 1 * q.val = q.val; omega

/-! ## What a point writes back, and the array at the end -/

/-- The array the call's result ends holding: the hidden layer of the whole signals as the call finds them. -/
abbrev layer0 (c : Dev nD) : S100000x64.Idx → EReal :=
  Cheb.hidden (V c main_arg0 : S100000x128.Idx → EReal) (V c main_v40) (V c main_v57) (V c main_arg3 : S3x128x64.Idx → EReal)
    (Cheb.rowOf (V c main_v58 : S1x64.Idx → EReal))

/-- What point `t` writes back is block `t` of that array. -/
theorem flushed0_eq (c : Dev nD) (t : Fin cfg0.N) :
    (dat0 (F := Ideal) V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S1x64) hz2]
  funext j
  obtain ⟨a, q, rfl⟩ : ∃ (a : Fin 5000) (q : Fin 64), j = ix2 a q := ⟨j 0, j 1, eq_ix2 j⟩
  have e := idx_facts0 t
  have hN : cfg0.N = 20 := N_0
  have hrow : t.val * 5000 + a.val < 100000 := by have := t.isLt; have := a.isLt; omega
  refine (pay0_at (iblk0 V c 0 t) (iblk0 V c 1 t) (iblk0 V c 2 t) (iblk0 V c 3 t) (iblk0 V c 4 t) a q).trans ?_
  have hemb : ((cfg0.win 5).blk t).view.emb (ix2 a q) = ix2 (⟨t.val * 5000 + a.val, hrow⟩ : Fin 100000) q := by
    funext d; apply Fin.ext
    match d with
    | ⟨0, _⟩ => show win0_5.index t 0 * 5000 + 1 * a.val = t.val * 5000 + a.val; omega
    | ⟨1, _⟩ => show win0_5.index t 1 * 64 + 1 * q.val = q.val; omega
  show _ = layer0 V c (((cfg0.win 5).blk t).view.emb (ix2 a q))
  rw [hemb]
  refine congrArg (fun z => max z (Ideal.ofBits .f32 0x00000000#32)) ?_
  exact Cheb.comb_congr _ _ _ _ _ _ _ _ _ _ a (⟨t.val * 5000 + a.val, hrow⟩ : Fin 100000) q
    (fun k => iblk0_0_at V c t a k _ rfl) (fun k => iblk0_1_at V c t a k _ rfl) (fun k => iblk0_2_at V c t a k _ rfl)
    (fun s k => iblk0_3_at V c t s k q) (iblk0_4_at V c t 0 q)

/-- An index of the result is in point `t`'s block iff each coordinate is in the block's range. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v59).slice (win0_5.rect t)).set ↔ _
  rw [View.set_slice_whole, Rect.mem_set_unit]
  exact Iff.rfl

/-- Every row of the result is in the block of the point `row / 5000`. -/
theorem cover0 (i : S100000x64.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 64 := (i 1).isLt
  have e := idx_facts0 (⟨(i 0).val / 5000, by omega⟩ : Fin cfg0.N)
  refine ⟨⟨(i 0).val / 5000, by omega⟩, flush0_5 _, ?_⟩
  rw [mem_blk0]
  intro a
  match a with
  | ⟨0, _⟩ =>
    show win0_5.index ⟨(i 0).val / 5000, _⟩ 0 * 5000 ≤ (i 0).val ∧ (i 0).val < win0_5.index ⟨(i 0).val / 5000, _⟩ 0 * 5000 + 5000
    obtain ⟨-, -, -, -, -, -, -, -, -, -, -, e50, -⟩ := e
    rw [e50]; show (i 0).val / 5000 * 5000 ≤ (i 0).val ∧ (i 0).val < (i 0).val / 5000 * 5000 + 5000; omega
  | ⟨1, _⟩ =>
    show win0_5.index ⟨(i 0).val / 5000, _⟩ 1 * 64 ≤ (i 1).val ∧ (i 1).val < win0_5.index ⟨(i 0).val / 5000, _⟩ 1 * 64 + 64
    obtain ⟨-, -, -, -, -, -, -, -, -, -, -, -, e51⟩ := e
    rw [e51]; omega

/-- The call's result array ends holding the hidden layer of the signals the call was entered with. -/
theorem final0 (c : Dev nD) : (dat0 (F := Ideal) V c).arrAt 5 cfg0.N = layer0 V c :=
  (dat0 V c).arrAt_eq_of_cover 5 (layer0 V c) (fun t _ => flushed0_eq V c t) (cover0)

end Cert.KernelIdeal.Net

end
-- ==== Proof.KCarry.lean ====
/-
  The kernel's program: buffers that later segments read unchanged.

  The source and destination index vectors and the normalised edge weights are computed once, before the first call, and
  read again by every later host stretch; a call's result is read by the stretch after it and, as the next call's first
  signal, once more; the weight stacks are arguments, and each bias reaches its call as a one-row matrix made from an
  argument. None of these is written in between, so at every later boundary they hold what they held when made.
-/
import proofs.«164740_j8744553414859_1_alg».proof.Proof.Gen.KernelIdeal.Frame
import proofs.«164740_j8744553414859_1_alg».proof.Proof.LayerOps

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem kc4_v1 : W4 m ρ c (Proc.devRef .tc Cert.KernelIdeal.main_v1) = W3 m ρ c (Proc.devRef .tc Cert.KernelIdeal.main_v1) := W4_of_ne m ρ c main_v1 (by decide)
theorem ks5_v1 : W5 m ρ c (Proc.devRef .tc Cert.KernelIdeal.main_v1) = W4 m ρ c (Proc.devRef .tc Cert.KernelIdeal.main_v1) := by
  show StableHlo.after hostOps1 (W4 m ρ c) (Proc.devRef .tc Cert.KernelIdeal.main_v1) = W4 m ρ c (Proc.devRef .tc Cert.KernelIdeal.main_v1)
  after_results_simp
theorem kc5_v1 : W5 m ρ c (Proc.devRef .tc Cert.KernelIdeal.main_v1) = W3 m ρ c (Proc.devRef .tc Cert.KernelIdeal.main_v1) := (ks5_v1 m ρ c).trans (kc4_v1 m ρ c)
theorem kc6_v1 : W6 m ρ c (Proc.devRef .tc Cert.KernelIdeal.main_v1) = W3 m ρ c (Proc.devRef .tc Cert.KernelIdeal.main_v1) := (W6_of_ne m ρ c main_v1 (by decide)).trans (kc5_v1 m ρ c)
theorem ks7_v1 : W7 m ρ c (Proc.devRef .tc Cert.KernelIdeal.main_v1) = W6 m ρ c (Proc.devRef .tc Cert.KernelIdeal.main_v1) := by
  show StableHlo.after hostOps2 (W6 m ρ c) (Proc.devRef .tc Cert.KernelIdeal.main_v1) = W6 m ρ c (Proc.devRef .tc Cert.KernelIdeal.main_v1)
  after_results_simp
theorem kc7_v1 : W7 m ρ c (Proc.devRef .tc Cert.KernelIdeal.main_v1) = W3 m ρ c (Proc.devRef .tc Cert.KernelIdeal.main_v1) := (ks7_v1 m ρ c).trans (kc6_v1 m ρ c)
theorem kc8_v1 : W8 m ρ c (Proc.devRef .tc Cert.KernelIdeal.main_v1) = W3 m ρ c (Proc.devRef .tc Cert.KernelIdeal.main_v1) := (W8_of_ne m ρ c main_v1 (by decide)).trans (kc7_v1 m ρ c)

theorem kc4_v3 : W4 m ρ c (Proc.devRef .tc Cert.KernelIdeal.main_v3) = W3 m ρ c (Proc.devRef .tc Cert.KernelIdeal.main_v3) := W4_of_ne m ρ c main_v3 (by decide)
theorem ks5_v3 : W5 m ρ c (Proc.devRef .tc Cert.KernelIdeal.main_v3) = W4 m ρ c (Proc.devRef .tc Cert.KernelIdeal.main_v3) := by
  show StableHlo.after hostOps1 (W4 m ρ c) (Proc.devRef .tc Cert.KernelIdeal.main_v3) = W4 m ρ c (Proc.devRef .tc Cert.KernelIdeal.main_v3)
  after_results_simp
theorem kc5_v3 : W5 m ρ c (Proc.devRef .tc Cert.KernelIdeal.main_v3) = W3 m ρ c (Proc.devRef .tc Cert.KernelIdeal.main_v3) := (ks5_v3 m ρ c).trans (kc4_v3 m ρ c)
theorem kc6_v3 : W6 m ρ c (Proc.devRef .tc Cert.KernelIdeal.main_v3) = W3 m ρ c (Proc.devRef .tc Cert.KernelIdeal.main_v3) := (W6_of_ne m ρ c main_v3 (by decide)).trans (kc5_v3 m ρ c)
theorem ks7_v3 : W7 m ρ c (Proc.devRef .tc Cert.KernelIdeal.main_v3) = W6 m ρ c (Proc.devRef .tc Cert.KernelIdeal.main_v3) := by
  show StableHlo.after hostOps2 (W6 m ρ c) (Proc.devRef .tc Cert.KernelIdeal.main_v3) = W6 m ρ c (Proc.devRef .tc Cert.KernelIdeal.main_v3)
  after_results_simp
theorem kc7_v3 : W7 m ρ c (Proc.devRef .tc Cert.KernelIdeal.main_v3) = W3 m ρ c (Proc.devRef .tc Cert.KernelIdeal.main_v3) := (ks7_v3 m ρ c).trans (kc6_v3 m ρ c)
theorem kc8_v3 : W8 m ρ c (Proc.devRef .tc Cert.KernelIdeal.main_v3) = W3 m ρ c (Proc.devRef .tc Cert.KernelIdeal.main_v3) := (W8_of_ne m ρ c main_v3 (by decide)).trans (kc7_v3 m ρ c)

theorem kc4_v26 : W4 m ρ c (Proc.devRef .tc Cert.KernelIdeal.main_v26) = W3 m ρ c (Proc.devRef .tc Cert.KernelIdeal.main_v26) := W4_of_ne m ρ c main_v26 (by decide)
theorem ks5_v26 : W5 m ρ c (Proc.devRef .tc Cert.KernelIdeal.main_v26) = W4 m ρ c (Proc.devRef .tc Cert.KernelIdeal.main_v26) := by
  show StableHlo.after hostOps1 (W4 m ρ c) (Proc.devRef .tc Cert.KernelIdeal.main_v26) = W4 m ρ c (Proc.devRef .tc Cert.KernelIdeal.main_v26)
  after_results_simp
theorem kc5_v26 : W5 m ρ c (Proc.devRef .tc Cert.KernelIdeal.main_v26) = W3 m ρ c (Proc.devRef .tc Cert.KernelIdeal.main_v26) := (ks5_v26 m ρ c).trans (kc4_v26 m ρ c)
theorem kc6_v26 : W6 m ρ c (Proc.devRef .tc Cert.KernelIdeal.main_v26) = W3 m ρ c (Proc.devRef .tc Cert.KernelIdeal.main_v26) := (W6_of_ne m ρ c main_v26 (by decide)).trans (kc5_v26 m ρ c)
theorem ks7_v26 : W7 m ρ c (Proc.devRef .tc Cert.KernelIdeal.main_v26) = W6 m ρ c (Proc.devRef .tc Cert.KernelIdeal.main_v26) := by
  show StableHlo.after hostOps2 (W6 m ρ c) (Proc.devRef .tc Cert.KernelIdeal.main_v26) = W6 m ρ c (Proc.devRef .tc Cert.KernelIdeal.main_v26)
  after_results_simp
theorem kc7_v26 : W7 m ρ c (Proc.devRef .tc Cert.KernelIdeal.main_v26) = W3 m ρ c (Proc.devRef .tc Cert.KernelIdeal.main_v26) := (ks7_v26 m ρ c).trans (kc6_v26 m ρ c)
theorem kc8_v26 : W8 m ρ c (Proc.devRef .tc Cert.KernelIdeal.main_v26) = W3 m ρ c (Proc.devRef .tc Cert.KernelIdeal.main_v26) := (W8_of_ne m ρ c main_v26 (by decide)).trans (kc7_v26 m ρ c)

theorem kh5 : W5 m ρ c (Proc.devRef .tc Cert.KernelIdeal.main_v59) = W4 m ρ c (Proc.devRef .tc Cert.KernelIdeal.main_v59) := by
  show StableHlo.after hostOps1 (W4 m ρ c) (Proc.devRef .tc Cert.KernelIdeal.main_v59) = _
  after_results_simp

theorem kh7 : W7 m ρ c (Proc.devRef .tc Cert.KernelIdeal.main_v92) = W6 m ρ c (Proc.devRef .tc Cert.KernelIdeal.main_v92) := by
  show StableHlo.after hostOps2 (W6 m ρ c) (Proc.devRef .tc Cert.KernelIdeal.main_v92) = _
  after_results_simp

theorem kh9 : W9 m ρ c (Proc.devRef .tc Cert.KernelIdeal.main_v125) = W8 m ρ c (Proc.devRef .tc Cert.KernelIdeal.main_v125) := by
  show StableHlo.after hostOps3 (W8 m ρ c) (Proc.devRef .tc Cert.KernelIdeal.main_v125) = _
  after_results_simp

theorem ka3_arg0 : W3 m ρ c (Proc.devRef .tc Cert.KernelIdeal.main_arg0) = W0 m ρ c (Proc.devRef .tc Cert.KernelIdeal.main_arg0) := by
  show StableHlo.after hostOps0_2 (StableHlo.after hostOps0_1 (StableHlo.after hostOps0 (W0 m ρ c))) (Proc.devRef .tc Cert.KernelIdeal.main_arg0) = _
  after_results_simp

theorem ka3_arg3 : W3 m ρ c (Proc.devRef .tc Cert.KernelIdeal.main_arg3) = W0 m ρ c (Proc.devRef .tc Cert.KernelIdeal.main_arg3) := by
  show StableHlo.after hostOps0_2 (StableHlo.after hostOps0_1 (StableHlo.after hostOps0 (W0 m ρ c))) (Proc.devRef .tc Cert.KernelIdeal.main_arg3) = _
  after_results_simp

theorem ka3_arg4 : W3 m ρ c (Proc.devRef .tc Cert.KernelIdeal.main_arg4) = W0 m ρ c (Proc.devRef .tc Cert.KernelIdeal.main_arg4) := by
  show StableHlo.after hostOps0_2 (StableHlo.after hostOps0_1 (StableHlo.after hostOps0 (W0 m ρ c))) (Proc.devRef .tc Cert.KernelIdeal.main_arg4) = _
  after_results_simp

theorem ka3_arg5 : W3 m ρ c (Proc.devRef .tc Cert.KernelIdeal.main_arg5) = W0 m ρ c (Proc.devRef .tc Cert.KernelIdeal.main_arg5) := by
  show StableHlo.after hostOps0_2 (StableHlo.after hostOps0_1 (StableHlo.after hostOps0 (W0 m ρ c))) (Proc.devRef .tc Cert.KernelIdeal.main_arg5) = _
  after_results_simp

theorem ka3_arg6 : W3 m ρ c (Proc.devRef .tc Cert.KernelIdeal.main_arg6) = W0 m ρ c (Proc.devRef .tc Cert.KernelIdeal.main_arg6) := by
  show StableHlo.after hostOps0_2 (StableHlo.after hostOps0_1 (StableHlo.after hostOps0 (W0 m ρ c))) (Proc.devRef .tc Cert.KernelIdeal.main_arg6) = _
  after_results_simp

theorem ka3_arg7 : W3 m ρ c (Proc.devRef .tc Cert.KernelIdeal.main_arg7) = W0 m ρ c (Proc.devRef .tc Cert.KernelIdeal.main_arg7) := by
  show StableHlo.after hostOps0_2 (StableHlo.after hostOps0_1 (StableHlo.after hostOps0 (W0 m ρ c))) (Proc.devRef .tc Cert.KernelIdeal.main_arg7) = _
  after_results_simp

theorem ka3_arg8 : W3 m ρ c (Proc.devRef .tc Cert.KernelIdeal.main_arg8) = W0 m ρ c (Proc.devRef .tc Cert.KernelIdeal.main_arg8) := by
  show StableHlo.after hostOps0_2 (StableHlo.after hostOps0_1 (StableHlo.after hostOps0 (W0 m ρ c))) (Proc.devRef .tc Cert.KernelIdeal.main_arg8) = _
  after_results_simp

theorem ka3_arg9 : W3 m ρ c (Proc.devRef .tc Cert.KernelIdeal.main_arg9) = W0 m ρ c (Proc.devRef .tc Cert.KernelIdeal.main_arg9) := by
  show StableHlo.after hostOps0_2 (StableHlo.after hostOps0_1 (StableHlo.after hostOps0 (W0 m ρ c))) (Proc.devRef .tc Cert.KernelIdeal.main_arg9) = _
  after_results_simp

theorem ka3_arg10 : W3 m ρ c (Proc.devRef .tc Cert.KernelIdeal.main_arg10) = W0 m ρ c (Proc.devRef .tc Cert.KernelIdeal.main_arg10) := by
  show StableHlo.after hostOps0_2 (StableHlo.after hostOps0_1 (StableHlo.after hostOps0 (W0 m ρ c))) (Proc.devRef .tc Cert.KernelIdeal.main_arg10) = _
  after_results_simp

theorem ka4_arg5 : W4 m ρ c (Proc.devRef .tc Cert.KernelIdeal.main_arg5) = W0 m ρ c (Proc.devRef .tc Cert.KernelIdeal.main_arg5) := (W4_of_ne m ρ c main_arg5 (by decide)).trans (ka3_arg5 m ρ c)

theorem ka4_arg6 : W4 m ρ c (Proc.devRef .tc Cert.KernelIdeal.main_arg6) = W0 m ρ c (Proc.devRef .tc Cert.KernelIdeal.main_arg6) := (W4_of_ne m ρ c main_arg6 (by decide)).trans (ka3_arg6 m ρ c)

theorem ka4_arg7 : W4 m ρ c (Proc.devRef .tc Cert.KernelIdeal.main_arg7) = W0 m ρ c (Proc.devRef .tc Cert.KernelIdeal.main_arg7) := (W4_of_ne m ρ c main_arg7 (by decide)).trans (ka3_arg7 m ρ c)

theorem ka4_arg8 : W4 m ρ c (Proc.devRef .tc Cert.KernelIdeal.main_arg8) = W0 m ρ c (Proc.devRef .tc Cert.KernelIdeal.main_arg8) := (W4_of_ne m ρ c main_arg8 (by decide)).trans (ka3_arg8 m ρ c)

theorem ka4_arg9 : W4 m ρ c (Proc.devRef .tc Cert.KernelIdeal.main_arg9) = W0 m ρ c (Proc.devRef .tc Cert.KernelIdeal.main_arg9) := (W4_of_ne m ρ c main_arg9 (by decide)).trans (ka3_arg9 m ρ c)

theorem ka4_arg10 : W4 m ρ c (Proc.devRef .tc Cert.KernelIdeal.main_arg10) = W0 m ρ c (Proc.devRef .tc Cert.KernelIdeal.main_arg10) := (W4_of_ne m ρ c main_arg10 (by decide)).trans (ka3_arg10 m ρ c)

theorem ka5_arg5 : W5 m ρ c (Proc.devRef .tc Cert.KernelIdeal.main_arg5) = W0 m ρ c (Proc.devRef .tc Cert.KernelIdeal.main_arg5) := by
  show StableHlo.after hostOps1 (W4 m ρ c) (Proc.devRef .tc Cert.KernelIdeal.main_arg5) = _
  after_results_simp
  exact ka4_arg5 m ρ c

theorem ka5_arg6 : W5 m ρ c (Proc.devRef .tc Cert.KernelIdeal.main_arg6) = W0 m ρ c (Proc.devRef .tc Cert.KernelIdeal.main_arg6) := by
  show StableHlo.after hostOps1 (W4 m ρ c) (Proc.devRef .tc Cert.KernelIdeal.main_arg6) = _
  after_results_simp
  exact ka4_arg6 m ρ c

theorem ka5_arg7 : W5 m ρ c (Proc.devRef .tc Cert.KernelIdeal.main_arg7) = W0 m ρ c (Proc.devRef .tc Cert.KernelIdeal.main_arg7) := by
  show StableHlo.after hostOps1 (W4 m ρ c) (Proc.devRef .tc Cert.KernelIdeal.main_arg7) = _
  after_results_simp
  exact ka4_arg7 m ρ c

theorem ka5_arg8 : W5 m ρ c (Proc.devRef .tc Cert.KernelIdeal.main_arg8) = W0 m ρ c (Proc.devRef .tc Cert.KernelIdeal.main_arg8) := by
  show StableHlo.after hostOps1 (W4 m ρ c) (Proc.devRef .tc Cert.KernelIdeal.main_arg8) = _
  after_results_simp
  exact ka4_arg8 m ρ c

theorem ka5_arg9 : W5 m ρ c (Proc.devRef .tc Cert.KernelIdeal.main_arg9) = W0 m ρ c (Proc.devRef .tc Cert.KernelIdeal.main_arg9) := by
  show StableHlo.after hostOps1 (W4 m ρ c) (Proc.devRef .tc Cert.KernelIdeal.main_arg9) = _
  after_results_simp
  exact ka4_arg9 m ρ c

theorem ka5_arg10 : W5 m ρ c (Proc.devRef .tc Cert.KernelIdeal.main_arg10) = W0 m ρ c (Proc.devRef .tc Cert.KernelIdeal.main_arg10) := by
  show StableHlo.after hostOps1 (W4 m ρ c) (Proc.devRef .tc Cert.KernelIdeal.main_arg10) = _
  after_results_simp
  exact ka4_arg10 m ρ c

theorem ka6_arg7 : W6 m ρ c (Proc.devRef .tc Cert.KernelIdeal.main_arg7) = W0 m ρ c (Proc.devRef .tc Cert.KernelIdeal.main_arg7) := (W6_of_ne m ρ c main_arg7 (by decide)).trans (ka5_arg7 m ρ c)

theorem ka6_arg8 : W6 m ρ c (Proc.devRef .tc Cert.KernelIdeal.main_arg8) = W0 m ρ c (Proc.devRef .tc Cert.KernelIdeal.main_arg8) := (W6_of_ne m ρ c main_arg8 (by decide)).trans (ka5_arg8 m ρ c)

theorem ka6_arg9 : W6 m ρ c (Proc.devRef .tc Cert.KernelIdeal.main_arg9) = W0 m ρ c (Proc.devRef .tc Cert.KernelIdeal.main_arg9) := (W6_of_ne m ρ c main_arg9 (by decide)).trans (ka5_arg9 m ρ c)

theorem ka6_arg10 : W6 m ρ c (Proc.devRef .tc Cert.KernelIdeal.main_arg10) = W0 m ρ c (Proc.devRef .tc Cert.KernelIdeal.main_arg10) := (W6_of_ne m ρ c main_arg10 (by decide)).trans (ka5_arg10 m ρ c)

theorem ka7_arg7 : W7 m ρ c (Proc.devRef .tc Cert.KernelIdeal.main_arg7) = W0 m ρ c (Proc.devRef .tc Cert.KernelIdeal.main_arg7) := by
  show StableHlo.after hostOps2 (W6 m ρ c) (Proc.devRef .tc Cert.KernelIdeal.main_arg7) = _
  after_results_simp
  exact ka6_arg7 m ρ c

theorem ka7_arg8 : W7 m ρ c (Proc.devRef .tc Cert.KernelIdeal.main_arg8) = W0 m ρ c (Proc.devRef .tc Cert.KernelIdeal.main_arg8) := by
  show StableHlo.after hostOps2 (W6 m ρ c) (Proc.devRef .tc Cert.KernelIdeal.main_arg8) = _
  after_results_simp
  exact ka6_arg8 m ρ c

theorem ka7_arg9 : W7 m ρ c (Proc.devRef .tc Cert.KernelIdeal.main_arg9) = W0 m ρ c (Proc.devRef .tc Cert.KernelIdeal.main_arg9) := by
  show StableHlo.after hostOps2 (W6 m ρ c) (Proc.devRef .tc Cert.KernelIdeal.main_arg9) = _
  after_results_simp
  exact ka6_arg9 m ρ c

theorem ka7_arg10 : W7 m ρ c (Proc.devRef .tc Cert.KernelIdeal.main_arg10) = W0 m ρ c (Proc.devRef .tc Cert.KernelIdeal.main_arg10) := by
  show StableHlo.after hostOps2 (W6 m ρ c) (Proc.devRef .tc Cert.KernelIdeal.main_arg10) = _
  after_results_simp
  exact ka6_arg10 m ρ c

theorem ka8_arg9 : W8 m ρ c (Proc.devRef .tc Cert.KernelIdeal.main_arg9) = W0 m ρ c (Proc.devRef .tc Cert.KernelIdeal.main_arg9) := (W8_of_ne m ρ c main_arg9 (by decide)).trans (ka7_arg9 m ρ c)

theorem ka8_arg10 : W8 m ρ c (Proc.devRef .tc Cert.KernelIdeal.main_arg10) = W0 m ρ c (Proc.devRef .tc Cert.KernelIdeal.main_arg10) := (W8_of_ne m ρ c main_arg10 (by decide)).trans (ka7_arg10 m ρ c)

theorem ka9_arg9 : W9 m ρ c (Proc.devRef .tc Cert.KernelIdeal.main_arg9) = W0 m ρ c (Proc.devRef .tc Cert.KernelIdeal.main_arg9) := by
  show StableHlo.after hostOps3 (W8 m ρ c) (Proc.devRef .tc Cert.KernelIdeal.main_arg9) = _
  after_results_simp
  exact ka8_arg9 m ρ c

theorem ka9_arg10 : W9 m ρ c (Proc.devRef .tc Cert.KernelIdeal.main_arg10) = W0 m ρ c (Proc.devRef .tc Cert.KernelIdeal.main_arg10) := by
  show StableHlo.after hostOps3 (W8 m ρ c) (Proc.devRef .tc Cert.KernelIdeal.main_arg10) = _
  after_results_simp
  exact ka8_arg10 m ρ c

/-- The bias of the call entered at boundary 3: the one-row matrix it is handed is the argument, given a unit row axis. -/
theorem bias3 : Cheb.rowOf (W3 m ρ c (Proc.devRef .tc Cert.KernelIdeal.main_v58) : S1x64.Idx → EReal) = (W0 m ρ c (Proc.devRef .tc Cert.KernelIdeal.main_arg4) : S64.Idx → EReal) := by
  funext q
  obtain ⟨q0, rfl⟩ : ∃ q0 : Fin 64, q = ix1 q0 := ⟨q 0, eq_ix1 q⟩
  unfold Cheb.rowOf
  show StableHlo.after hostOps0_2 (StableHlo.after hostOps0_1 (StableHlo.after hostOps0 (W0 m ρ c))) (Proc.devRef .tc Cert.KernelIdeal.main_v58) (ix2 (0 : Fin 1) q0) = _
  after_results_simp
  exact Cheb.shapeCast_b_1b_apply _ _ 0 q0

/-- The bias of the call entered at boundary 5: the one-row matrix it is handed is the argument, given a unit row axis. -/
theorem bias5 : Cheb.rowOf (W5 m ρ c (Proc.devRef .tc Cert.KernelIdeal.main_v91) : S1x32.Idx → EReal) = (W0 m ρ c (Proc.devRef .tc Cert.KernelIdeal.main_arg6) : S32.Idx → EReal) := by
  funext q
  obtain ⟨q0, rfl⟩ : ∃ q0 : Fin 32, q = ix1 q0 := ⟨q 0, eq_ix1 q⟩
  unfold Cheb.rowOf
  show StableHlo.after hostOps1 (W4 m ρ c) (Proc.devRef .tc Cert.KernelIdeal.main_v91) (ix2 (0 : Fin 1) q0) = _
  after_results_simp
  rw [ka4_arg6 m ρ c]
  exact Cheb.shapeCast_b_1b_apply _ _ 0 q0

/-- The bias of the call entered at boundary 7: the one-row matrix it is handed is the argument, given a unit row axis. -/
theorem bias7 : Cheb.rowOf (W7 m ρ c (Proc.devRef .tc Cert.KernelIdeal.main_v124) : S1x16.Idx → EReal) = (W0 m ρ c (Proc.devRef .tc Cert.KernelIdeal.main_arg8) : S16.Idx → EReal) := by
  funext q
  obtain ⟨q0, rfl⟩ : ∃ q0 : Fin 16, q = ix1 q0 := ⟨q 0, eq_ix1 q⟩
  unfold Cheb.rowOf
  show StableHlo.after hostOps2 (W6 m ρ c) (Proc.devRef .tc Cert.KernelIdeal.main_v124) (ix2 (0 : Fin 1) q0) = _
  after_results_simp
  rw [ka6_arg8 m ρ c]
  exact Cheb.shapeCast_b_1b_apply _ _ 0 q0

/-- The bias of the call entered at boundary 9: the one-row matrix it is handed is the argument, given a unit row axis. -/
theorem bias9 : Cheb.rowOf (W9 m ρ c (Proc.devRef .tc Cert.KernelIdeal.main_v157) : S1x4.Idx → EReal) = (W0 m ρ c (Proc.devRef .tc Cert.KernelIdeal.main_arg10) : S4.Idx → EReal) := by
  funext q
  obtain ⟨q0, rfl⟩ : ∃ q0 : Fin 4, q = ix1 q0 := ⟨q 0, eq_ix1 q⟩
  unfold Cheb.rowOf
  show StableHlo.after hostOps3 (W8 m ρ c) (Proc.devRef .tc Cert.KernelIdeal.main_v157) (ix2 (0 : Fin 1) q0) = _
  after_results_simp
  rw [ka8_arg10 m ρ c]
  exact Cheb.shapeCast_b_1b_apply _ _ 0 q0

end Cert.KernelIdeal.Net

end
-- ==== Proof.RCarry.lean ====
/-
  The reference: buffers that later segments read unchanged.

  As in the kernel's program, the index vectors and the normalised edge weights are made once and read by every later
  stretch, a layer's result is read again as the next layer's first signal, and the arguments are never written.
-/
import proofs.«164740_j8744553414859_1_alg».proof.Proof.RefSeg

set_option maxRecDepth 16384

noncomputable section

namespace Cert.ReferenceIdeal.Seg

open Cert.ReferenceIdeal Cert.ReferenceIdeal.ValueP
open Idealize.ShloMosaic Idealize.ShloMosaic.TcCoe Idealize.SL.Sem Idealize.ShloMosaic.StableHlo

variable (m' : (ℓ : Loc nD τ sig) → Buf (Elt Ideal) ℓ) (c : Dev nD)

theorem rc2_v1 : U2 m' c (Proc.devRef .tc Cert.ReferenceIdeal.main_v1) = U1 m' c (Proc.devRef .tc Cert.ReferenceIdeal.main_v1) := by
  unfold U2
  simp only [ops, List.take_succ_cons, List.take_zero, List.drop_succ_cons, List.drop_zero]
  after_results_simp
theorem rc4_v1 : U4 m' c (Proc.devRef .tc Cert.ReferenceIdeal.main_v1) = U1 m' c (Proc.devRef .tc Cert.ReferenceIdeal.main_v1) := by
  unfold U4 U3
  simp only [ops, List.take_succ_cons, List.take_zero, List.drop_succ_cons, List.drop_zero]
  after_results_simp
  exact rc2_v1 m' c
theorem rc6_v1 : U6 m' c (Proc.devRef .tc Cert.ReferenceIdeal.main_v1) = U1 m' c (Proc.devRef .tc Cert.ReferenceIdeal.main_v1) := by
  unfold U6 U5
  simp only [ops, List.take_succ_cons, List.take_zero, List.drop_succ_cons, List.drop_zero]
  after_results_simp
  exact rc4_v1 m' c

theorem rc2_v3 : U2 m' c (Proc.devRef .tc Cert.ReferenceIdeal.main_v3) = U1 m' c (Proc.devRef .tc Cert.ReferenceIdeal.main_v3) := by
  unfold U2
  simp only [ops, List.take_succ_cons, List.take_zero, List.drop_succ_cons, List.drop_zero]
  after_results_simp
theorem rc4_v3 : U4 m' c (Proc.devRef .tc Cert.ReferenceIdeal.main_v3) = U1 m' c (Proc.devRef .tc Cert.ReferenceIdeal.main_v3) := by
  unfold U4 U3
  simp only [ops, List.take_succ_cons, List.take_zero, List.drop_succ_cons, List.drop_zero]
  after_results_simp
  exact rc2_v3 m' c
theorem rc6_v3 : U6 m' c (Proc.devRef .tc Cert.ReferenceIdeal.main_v3) = U1 m' c (Proc.devRef .tc Cert.ReferenceIdeal.main_v3) := by
  unfold U6 U5
  simp only [ops, List.take_succ_cons, List.take_zero, List.drop_succ_cons, List.drop_zero]
  after_results_simp
  exact rc4_v3 m' c

theorem rc2_v26 : U2 m' c (Proc.devRef .tc Cert.ReferenceIdeal.main_v26) = U1 m' c (Proc.devRef .tc Cert.ReferenceIdeal.main_v26) := by
  unfold U2
  simp only [ops, List.take_succ_cons, List.take_zero, List.drop_succ_cons, List.drop_zero]
  after_results_simp
theorem rc4_v26 : U4 m' c (Proc.devRef .tc Cert.ReferenceIdeal.main_v26) = U1 m' c (Proc.devRef .tc Cert.ReferenceIdeal.main_v26) := by
  unfold U4 U3
  simp only [ops, List.take_succ_cons, List.take_zero, List.drop_succ_cons, List.drop_zero]
  after_results_simp
  exact rc2_v26 m' c
theorem rc6_v26 : U6 m' c (Proc.devRef .tc Cert.ReferenceIdeal.main_v26) = U1 m' c (Proc.devRef .tc Cert.ReferenceIdeal.main_v26) := by
  unfold U6 U5
  simp only [ops, List.take_succ_cons, List.take_zero, List.drop_succ_cons, List.drop_zero]
  after_results_simp
  exact rc4_v26 m' c

theorem rh3 : U3 m' c (Proc.devRef .tc Cert.ReferenceIdeal.main_v72) = U2 m' c (Proc.devRef .tc Cert.ReferenceIdeal.main_v72) := by
  unfold U3
  simp only [ops, List.take_succ_cons, List.take_zero, List.drop_succ_cons, List.drop_zero]
  after_results_simp

theorem rh5 : U5 m' c (Proc.devRef .tc Cert.ReferenceIdeal.main_v118) = U4 m' c (Proc.devRef .tc Cert.ReferenceIdeal.main_v118) := by
  unfold U5
  simp only [ops, List.take_succ_cons, List.take_zero, List.drop_succ_cons, List.drop_zero]
  after_results_simp

theorem rh7 : U7 m' c (Proc.devRef .tc Cert.ReferenceIdeal.main_v164) = U6 m' c (Proc.devRef .tc Cert.ReferenceIdeal.main_v164) := by
  unfold U7
  simp only [ops, List.take_succ_cons, List.take_zero, List.drop_succ_cons, List.drop_zero]
  after_results_simp

theorem ra1_arg0 : U1 m' c (Proc.devRef .tc Cert.ReferenceIdeal.main_arg0) = U0 m' c (Proc.devRef .tc Cert.ReferenceIdeal.main_arg0) := by
  unfold U1
  simp only [ops, List.take_succ_cons, List.take_zero, List.drop_succ_cons, List.drop_zero]
  after_results_simp

theorem ra1_arg3 : U1 m' c (Proc.devRef .tc Cert.ReferenceIdeal.main_arg3) = U0 m' c (Proc.devRef .tc Cert.ReferenceIdeal.main_arg3) := by
  unfold U1
  simp only [ops, List.take_succ_cons, List.take_zero, List.drop_succ_cons, List.drop_zero]
  after_results_simp

theorem ra1_arg4 : U1 m' c (Proc.devRef .tc Cert.ReferenceIdeal.main_arg4) = U0 m' c (Proc.devRef .tc Cert.ReferenceIdeal.main_arg4) := by
  unfold U1
  simp only [ops, List.take_succ_cons, List.take_zero, List.drop_succ_cons, List.drop_zero]
  after_results_simp

theorem ra3_arg5 : U3 m' c (Proc.devRef .tc Cert.ReferenceIdeal.main_arg5) = U0 m' c (Proc.devRef .tc Cert.ReferenceIdeal.main_arg5) := by
  unfold U3 U2 U1
  simp only [ops, List.take_succ_cons, List.take_zero, List.drop_succ_cons, List.drop_zero]
  after_results_simp

theorem ra3_arg6 : U3 m' c (Proc.devRef .tc Cert.ReferenceIdeal.main_arg6) = U0 m' c (Proc.devRef .tc Cert.ReferenceIdeal.main_arg6) := by
  unfold U3 U2 U1
  simp only [ops, List.take_succ_cons, List.take_zero, List.drop_succ_cons, List.drop_zero]
  after_results_simp

theorem ra5_arg7 : U5 m' c (Proc.devRef .tc Cert.ReferenceIdeal.main_arg7) = U0 m' c (Proc.devRef .tc Cert.ReferenceIdeal.main_arg7) := by
  unfold U5 U4 U3 U2 U1
  simp only [ops, List.take_succ_cons, List.take_zero, List.drop_succ_cons, List.drop_zero]
  after_results_simp

theorem ra5_arg8 : U5 m' c (Proc.devRef .tc Cert.ReferenceIdeal.main_arg8) = U0 m' c (Proc.devRef .tc Cert.ReferenceIdeal.main_arg8) := by
  unfold U5 U4 U3 U2 U1
  simp only [ops, List.take_succ_cons, List.take_zero, List.drop_succ_cons, List.drop_zero]
  after_results_simp

theorem ra7_arg9 : U7 m' c (Proc.devRef .tc Cert.ReferenceIdeal.main_arg9) = U0 m' c (Proc.devRef .tc Cert.ReferenceIdeal.main_arg9) := by
  unfold U7 U6 U5 U4 U3 U2 U1
  simp only [ops, List.take_succ_cons, List.take_zero, List.drop_succ_cons, List.drop_zero]
  after_results_simp

theorem ra7_arg10 : U7 m' c (Proc.devRef .tc Cert.ReferenceIdeal.main_arg10) = U0 m' c (Proc.devRef .tc Cert.ReferenceIdeal.main_arg10) := by
  unfold U7 U6 U5 U4 U3 U2 U1
  simp only [ops, List.take_succ_cons, List.take_zero, List.drop_succ_cons, List.drop_zero]
  after_results_simp

end Cert.ReferenceIdeal.Seg

end
-- ==== Proof.SoftmaxOps.lean ====
/-
  A row's maximum, its sum of exponentials, and the logarithmic softmax, read at an index in both dialects.

  The kernel reduces a block `[a, b]` along its second axis with `multi_reduction`, keeps the result as a column `[a, 1]`
  and spreads it back over the row; the host does the same with `reduce`, a two-step spread, and — because its maximum
  is taken with an explicit starting value — one more maximum with `-∞`, which changes nothing. Either way the maximum at
  row `p` is the fold of `max` over the row from `-∞`, and the sum is the row's sum, so both sides are the
  specification's `logSoftmaxAt` of the row.
-/
import Idealize.ShloMosaic.PureOps.Ideal.Laws
import Idealize.ShloMosaic.PureOps.Reduce
import Idealize.ShloMosaic.Lib.ValueIdx
import Idealize.ShloMosaic.Lib.IdealHost
import proofs.«164740_j8744553414859_1_alg».proof.Proof.LibColumn
import proofs.«164740_j8744553414859_1_alg».proof.Proof.Spec

noncomputable section

open scoped BigOperators

namespace Cert.Cheb

open Idealize.ShloMosaic Idealize.ShloMosaic.ValueIdx

variable {a b : ℕ}

/-- Row `p` of a reduced `[a]` result with column `k` put back is the index (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

/-- The kernel's maximum along a row, from the word for `-∞`. -/
theorem kernel_rowMax_at (v : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun q : Fin b => v (ix2 p q)) := by
  rw [Ideal.multiReduction_maximumf_single]
  unfold rowMax
  refine congrArg (fun f => Finset.fold max (Ideal.ofBits .f32 0xFF800000#32) f (Finset.univ : Finset (Fin b))) ?_
  exact funext fun k => congrArg v (lift_row h p k)

/-- The kernel's sum along a row. -/
theorem kernel_rowSum_at (v : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] ⟨1, ![a]⟩ v 0x00000000#32 h hφ hacc (ix1 p) = ∑ q : Fin b, v (ix2 p q) := by
  rw [Ideal.multiReduction_add_single]
  exact Finset.sum_congr rfl fun k _ => congrArg v (lift_row h p k)

/-- The host's maximum along a row, from the word for `-∞`. -/
theorem host_rowMax_at (x : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x (constant (⟨0, ![]⟩ : Shape) .f32 0xFF800000#32) h' hu (ix1 p)
      = rowMax (fun q : Fin b => x (ix2 p q)) := by
  rw [Host.reduce_eq_fold_single FloatOps.maximumf x _ h' h hu]
  unfold rowMax
  refine congrArg (fun f => Finset.fold max (Ideal.ofBits .f32 0xFF800000#32) f (Finset.univ : Finset (Fin b))) ?_
  exact funext fun k => congrArg x (lift_row h p k)

/-- The host's sum along a row, from the zero word. -/
theorem host_rowSum_at (x : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x (constant (⟨0, ![]⟩ : Shape) .f32 0x00000000#32) h' hu (ix1 p) = ∑ q : Fin b, x (ix2 p q) := by
  rw [hostReduceAdd_apply, Ideal.hostReduceAdd_single h' h]
  show Ideal.ofBits .f32 0x00000000#32 + _ = _
  rw [Ideal.ofBits_zero_f32, zero_add]
  exact Finset.sum_congr rfl fun k _ => congrArg x (lift_row h p k)

end Cert.Cheb

end
-- ==== Proof.HostLayer.lean ====
/-
  A whole layer in each dialect against the specification.

  The host's hidden layer is its scores cut off at zero by a maximum with a spread zero. Its last layer normalises the
  scores row by row exactly as the specification says, except that the row maximum is taken once more against `-∞`. The
  kernel's last layer, on a block, subtracts the row maximum, and subtracts the logarithm of the row's sum of exponentials
  of those differences, each row statistic kept as a column and spread back over the row.
-/
import proofs.«164740_j8744553414859_1_alg».proof.Proof.LayerOps
import proofs.«164740_j8744553414859_1_alg».proof.Proof.SoftmaxOps

noncomputable section

open scoped BigOperators

namespace Cert.Cheb

open Idealize.ShloMosaic Idealize.ShloMosaic.ValueIdx

variable {M K N : ℕ}

/-- The host's hidden layer. -/
theorem host_hidden_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x0 x1 x2 : FVec Ideal ⟨2, ![M, K]⟩ .f32) (w : FVec Ideal ⟨3, ![3, K, N]⟩ .f32) (b : FVec Ideal ⟨1, ![N]⟩ .f32)
    (s0 : (⟨3, ![3, K, N]⟩ : Shape).Slices ![0, 0, 0] ⟨3, ![1, K, N]⟩)
    (s1 : (⟨3, ![3, K, N]⟩ : Shape).Slices ![1, 0, 0] ⟨3, ![1, K, N]⟩)
    (s2 : (⟨3, ![3, K, N]⟩ : Shape).Slices ![2, 0, 0] ⟨3, ![1, K, N]⟩)
    (hc : (⟨3, ![1, K, N]⟩ : Shape).ShapeCasts ⟨2, ![K, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (hb3 : (⟨0, ![]⟩ : Shape).BroadcastsInDim ⟨2, ![M, N]⟩ ![]) :
    maximumf (addf (addf (addf
        (Host.dotGeneral D none x0 (shapeCast ⟨2, ![K, N]⟩ (extractStridedSlice ⟨3, ![1, K, N]⟩ ![0, 0, 0] w s0) hc))
        (Host.dotGeneral D none x1 (shapeCast ⟨2, ![K, N]⟩ (extractStridedSlice ⟨3, ![1, K, N]⟩ ![1, 0, 0] w s1) hc)))
        (Host.dotGeneral D none x2 (shapeCast ⟨2, ![K, N]⟩ (extractStridedSlice ⟨3, ![1, K, N]⟩ ![2, 0, 0] w s2) hc)))
      (broadcastInDim ⟨2, ![M, N]⟩ ![0, 1] hb2 (broadcastInDim ⟨2, ![1, N]⟩ ![1] hb1 b)))
      (broadcastInDim ⟨2, ![M, N]⟩ ![] hb3 (constant (⟨0, ![]⟩ : Shape) .f32 0x00000000#32))
    = hidden x0 x1 x2 w b := by
  rw [host_scores_eq D h1 h2 h3 h4 h5 h6 x0 x1 x2 w b s0 s1 s2 hc hb1 hb2]
  funext j
  show max (scores x0 x1 x2 w b j) (broadcastInDim ⟨2, ![M, N]⟩ ![] hb3 (constant (F := Ideal) (⟨0, ![]⟩ : Shape) .f32 0x00000000#32) j) = _
  rw [LibColumn.broadcastInDim_scalar_apply]
  rfl

/-- The host's scores less their row maximum, as printed: the maximum reduced from `-∞`, taken once more against a spread
    `-∞`, made a column and spread over the row. -/
abbrev hostShift (z : FVec Ideal ⟨2, ![M, N]⟩ .f32)
    (h' : (⟨2, ![M, N]⟩ : Shape).ReducesTo [1] (⟨1, ![M]⟩ : Shape)) (hu : 0 < (⟨0, ![]⟩ : Shape).numel)
    (bs : (⟨0, ![]⟩ : Shape).BroadcastsInDim ⟨1, ![M]⟩ (![] : Fin 0 → Fin 1))
    (b1 : (⟨1, ![M]⟩ : Shape).BroadcastsInDim ⟨2, ![M, 1]⟩ (![0] : Fin 1 → Fin 2))
    (b2 : (⟨2, ![M, 1]⟩ : Shape).BroadcastsInDim ⟨2, ![M, N]⟩ (![0, 1] : Fin 2 → Fin 2)) : FVec Ideal ⟨2, ![M, N]⟩ .f32 :=
  subf z (broadcastInDim (s := ⟨2, ![M, 1]⟩) ⟨2, ![M, N]⟩ (![0, 1] : Fin 2 → Fin 2) b2 (broadcastInDim (s := ⟨1, ![M]⟩) ⟨2, ![M, 1]⟩ (![0] : Fin 1 → Fin 2) b1
    (maximumf (broadcastInDim (s := ⟨0, ![]⟩) ⟨1, ![M]⟩ (![] : Fin 0 → Fin 1) bs (constant (F := Ideal) (⟨0, ![]⟩ : Shape) .f32 0xFF800000#32))
      (Host.reduce (FloatOps.maximumf (F := Ideal) (φ := .f32)) z (constant (F := Ideal) (⟨0, ![]⟩ : Shape) .f32 0xFF800000#32) h' hu))))

theorem hostShift_at (z : FVec Ideal ⟨2, ![M, N]⟩ .f32)
    (h' : (⟨2, ![M, N]⟩ : Shape).ReducesTo [1] (⟨1, ![M]⟩ : Shape)) (h : (⟨2, ![M, N]⟩ : Shape).Reduces [1] (⟨1, ![M]⟩ : Shape))
    (hu : 0 < (⟨0, ![]⟩ : Shape).numel)
    (bs : (⟨0, ![]⟩ : Shape).BroadcastsInDim ⟨1, ![M]⟩ (![] : Fin 0 → Fin 1))
    (b1 : (⟨1, ![M]⟩ : Shape).BroadcastsInDim ⟨2, ![M, 1]⟩ (![0] : Fin 1 → Fin 2))
    (b2 : (⟨2, ![M, 1]⟩ : Shape).BroadcastsInDim ⟨2, ![M, N]⟩ (![0, 1] : Fin 2 → Fin 2)) (p : Fin M) (q : Fin N) :
    hostShift z h' hu bs b1 b2 (ix2 p q) = z (ix2 p q) - rowMax (fun q' : Fin N => z (ix2 p q')) := by
  unfold hostShift
  rw [subf_apply, LibColumn.broadcastInDim_a1_ab_apply, LibColumn.broadcastInDim_a_a1_apply, maximumf_apply,
    LibColumn.broadcastInDim_scalar_apply, host_rowMax_at z h' h hu p]
  show z (ix2 p q) - max (Ideal.ofBits .f32 0xFF800000#32) _ = _
  rw [max_negInf_left]

/-- The host's logarithmic softmax of an array of scores, as it is printed. -/
theorem host_normalised_eq (z : FVec Ideal ⟨2, ![M, N]⟩ .f32)
    (h' : (⟨2, ![M, N]⟩ : Shape).ReducesTo [1] (⟨1, ![M]⟩ : Shape)) (h : (⟨2, ![M, N]⟩ : Shape).Reduces [1] (⟨1, ![M]⟩ : Shape))
    (hu : 0 < (⟨0, ![]⟩ : Shape).numel)
    (bs : (⟨0, ![]⟩ : Shape).BroadcastsInDim ⟨1, ![M]⟩ (![] : Fin 0 → Fin 1))
    (b1 : (⟨1, ![M]⟩ : Shape).BroadcastsInDim ⟨2, ![M, 1]⟩ (![0] : Fin 1 → Fin 2))
    (b2 : (⟨2, ![M, 1]⟩ : Shape).BroadcastsInDim ⟨2, ![M, N]⟩ (![0, 1] : Fin 2 → Fin 2)) :
    subf (hostShift z h' hu bs b1 b2)
      (broadcastInDim (s := ⟨2, ![M, 1]⟩) ⟨2, ![M, N]⟩ (![0, 1] : Fin 2 → Fin 2) b2 (Host.log (broadcastInDim (s := ⟨1, ![M]⟩) ⟨2, ![M, 1]⟩ (![0] : Fin 1 → Fin 2) b1
        (Host.reduceAdd (Host.exp (hostShift z h' hu bs b1 b2))
          (constant (F := Ideal) (⟨0, ![]⟩ : Shape) .f32 0x00000000#32) h' hu))))
    = normalised z := by
  funext j
  obtain ⟨p, q, rfl⟩ : ∃ (p : Fin M) (q : Fin N), j = ix2 p q := ⟨j 0, j 1, eq_ix2 j⟩
  rw [subf_apply, hostShift_at z h' h hu bs b1 b2 p q, LibColumn.broadcastInDim_a1_ab_apply]
  show _ - FloatOps.hostUnary .log (broadcastInDim (s := ⟨1, ![M]⟩) ⟨2, ![M, 1]⟩ (![0] : Fin 1 → Fin 2) b1 _ (ix2 p (0 : Fin 1))) = _
  rw [LibColumn.broadcastInDim_a_a1_apply, host_rowSum_at _ h' h hu p]
  show _ - Ideal.log (∑ q' : Fin N, Ideal.exp (hostShift z h' hu bs b1 b2 (ix2 p q'))) = _
  simp only [hostShift_at z h' h hu bs b1 b2 p]
  rfl

/-- The same, with the scores given by an equation: the printed form over `z` is the normalisation of whatever `z` is. -/
theorem host_normalised_of {z s : FVec Ideal ⟨2, ![M, N]⟩ .f32} (hz : z = s)
    (h' : (⟨2, ![M, N]⟩ : Shape).ReducesTo [1] (⟨1, ![M]⟩ : Shape)) (h : (⟨2, ![M, N]⟩ : Shape).Reduces [1] (⟨1, ![M]⟩ : Shape))
    (hu : 0 < (⟨0, ![]⟩ : Shape).numel)
    (bs : (⟨0, ![]⟩ : Shape).BroadcastsInDim ⟨1, ![M]⟩ (![] : Fin 0 → Fin 1))
    (b1 : (⟨1, ![M]⟩ : Shape).BroadcastsInDim ⟨2, ![M, 1]⟩ (![0] : Fin 1 → Fin 2))
    (b2 : (⟨2, ![M, 1]⟩ : Shape).BroadcastsInDim ⟨2, ![M, N]⟩ (![0, 1] : Fin 2 → Fin 2)) :
    subf (hostShift z h' hu bs b1 b2)
      (broadcastInDim (s := ⟨2, ![M, 1]⟩) ⟨2, ![M, N]⟩ (![0, 1] : Fin 2 → Fin 2) b2 (Host.log (broadcastInDim (s := ⟨1, ![M]⟩) ⟨2, ![M, 1]⟩ (![0] : Fin 1 → Fin 2) b1
        (Host.reduceAdd (Host.exp (hostShift z h' hu bs b1 b2))
          (constant (F := Ideal) (⟨0, ![]⟩ : Shape) .f32 0x00000000#32) h' hu))))
    = normalised s :=
  hz ▸ host_normalised_eq z h' h hu bs b1 b2

/-- The kernel's last steps on a block of scores `v`: at (p, q), the logarithmic softmax of row `p`. -/
theorem kernel_normalised_at {a b : ℕ} (v : FVec Ideal ⟨2, ![a, b]⟩ .f32)
    (h : (⟨2, ![a, b]⟩ : Shape).Reduces [1] (⟨1, ![a]⟩ : Shape)) (hφ : FKind.Formats .f32)
    (hmax : (0xFF800000#32 : BitVec 32) = FKind.maximumf.neutral .f32 hφ) (hadd : (0x00000000#32 : BitVec 32) = FKind.add.neutral .f32 hφ)
    (c1 : (⟨1, ![a]⟩ : Shape).ShapeCasts ⟨2, ![a, 1]⟩) (bc : (⟨2, ![a, 1]⟩ : Shape).Broadcasts ⟨2, ![a, b]⟩) (p : Fin a) (q : Fin b) :
    subf
      (subf v (broadcastTo ⟨2, ![a, b]⟩ (shapeCast ⟨2, ![a, 1]⟩ (multiReduction .maximumf [1] ⟨1, ![a]⟩ v 0xFF800000#32 h hφ hmax) c1) bc))
      (broadcastTo ⟨2, ![a, b]⟩ (log (shapeCast ⟨2, ![a, 1]⟩ (multiReduction .add [1] ⟨1, ![a]⟩
        (exp (subf v (broadcastTo ⟨2, ![a, b]⟩ (shapeCast ⟨2, ![a, 1]⟩ (multiReduction .maximumf [1] ⟨1, ![a]⟩ v 0xFF800000#32 h hφ hmax) c1) bc)))
        0x00000000#32 h hφ hadd) c1)) bc) (ix2 p q)
    = logSoftmaxAt (fun q' : Fin b => v (ix2 p q')) q := by
  have hshift : ∀ q' : Fin b,
      subf v (broadcastTo ⟨2, ![a, b]⟩ (shapeCast ⟨2, ![a, 1]⟩ (multiReduction .maximumf [1] ⟨1, ![a]⟩ v 0xFF800000#32 h hφ hmax) c1) bc) (ix2 p q')
        = v (ix2 p q') - rowMax (fun q'' : Fin b => v (ix2 p q'')) := by
    intro q'
    rw [subf_apply, LibColumn.broadcastTo_a1_ab_apply, LibColumn.shapeCast_a_a1_apply, kernel_rowMax_at v h hφ hmax p]
  rw [subf_apply, hshift q, LibColumn.broadcastTo_a1_ab_apply]
  show _ - FloatOps.log (shapeCast ⟨2, ![a, 1]⟩ _ c1 (ix2 p (0 : Fin 1))) = _
  rw [LibColumn.shapeCast_a_a1_apply, kernel_rowSum_at _ h hφ hadd p]
  show _ - Ideal.log (∑ q' : Fin b, Ideal.exp (subf v _ (ix2 p q'))) = _
  simp only [hshift]
  rfl

end Cert.Cheb

end
-- ==== Proof.Stage2.lean ====
/-
  Boundary 2 of the reference against boundary 4 of the kernel's program: layer 1's combination.

  The reference combines the layer's three signals with three contractions, the bias and a cut-off at zero; the kernel's
  call number 1 does the same on row blocks. Both are the specification's hidden layer of the same signals, weight stack
  and bias, so the layer's result is the same array in both programs.
-/
import proofs.«164740_j8744553414859_1_alg».proof.Proof.Stage1
import proofs.«164740_j8744553414859_1_alg».proof.Proof.Region0
import proofs.«164740_j8744553414859_1_alg».proof.Proof.KCarry
import proofs.«164740_j8744553414859_1_alg».proof.Proof.RCarry
import proofs.«164740_j8744553414859_1_alg».proof.Proof.HostLayer

set_option maxRecDepth 16384

noncomputable section

namespace Cert.Bridge

open Idealize.ShloMosaic Idealize.ShloMosaic.TcCoe Idealize.SL.Sem Idealize.ShloMosaic.StableHlo
open Cert.ReferenceIdeal.Seg
open Cert.KernelIdeal.Gen (W0 W1 W2 W3 W4 W5 W6 W7 W8 W9 W10 V3 V5 V7 V9)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

set_option maxHeartbeats 4000000 in
theorem x2_h (h : Agree m ρ m' c) : U2 m' c (Proc.devRef .tc Cert.ReferenceIdeal.main_v72) = W4 m ρ c (Proc.devRef .tc Cert.KernelIdeal.main_v59) := by
  have hk : W4 m ρ c (Proc.devRef .tc Cert.KernelIdeal.main_v59) = Cert.KernelIdeal.Net.layer0 (V3 m ρ) c :=
    (Cert.KernelIdeal.Gen.W4_arr m ρ c 5).trans (Cert.KernelIdeal.Net.final0 (V3 m ρ) c)
  rw [hk]
  unfold U2
  simp only [Cert.ReferenceIdeal.ValueP.ops, List.take_succ_cons, List.take_zero, List.drop_succ_cons, List.drop_zero]
  after_results_simp
  refine (Cheb.host_hidden_eq (M := 100000) (K := 128) (N := 64) Cert.ReferenceIdeal.dot_S100000x128_S128x64_S100000x64_1_0_0_1_n_n rfl rfl rfl rfl rfl rfl
      (U1 m' c (Proc.devRef .tc Cert.ReferenceIdeal.main_arg0)) (U1 m' c (Proc.devRef .tc Cert.ReferenceIdeal.main_v40)) (U1 m' c (Proc.devRef .tc Cert.ReferenceIdeal.main_v57)) (U1 m' c (Proc.devRef .tc Cert.ReferenceIdeal.main_arg3)) (U1 m' c (Proc.devRef .tc Cert.ReferenceIdeal.main_arg4))
      Cert.ReferenceIdeal.Gen.slices_S3x128x64_S1x128x64_0_0_0 Cert.ReferenceIdeal.Gen.slices_S3x128x64_S1x128x64_1_0_0 Cert.ReferenceIdeal.Gen.slices_S3x128x64_S1x128x64_2_0_0
      Cert.ReferenceIdeal.Gen.shapeCasts_S1x128x64_S128x64 Cert.ReferenceIdeal.Gen.bcast_S64_S1x64_1 Cert.ReferenceIdeal.Gen.bcast_S1x64_S100000x64_0_1 Cert.ReferenceIdeal.Gen.bcast_S_S100000x64).trans ?_
  have e0 : U1 m' c (Proc.devRef .tc Cert.ReferenceIdeal.main_arg0) = W3 m ρ c (Proc.devRef .tc Cert.KernelIdeal.main_arg0) :=
    s1_arg0 m ρ m' c h
  have e1 : U1 m' c (Proc.devRef .tc Cert.ReferenceIdeal.main_v40) = W3 m ρ c (Proc.devRef .tc Cert.KernelIdeal.main_v40) :=
    s1_v40 m ρ m' c h
  have e2 : U1 m' c (Proc.devRef .tc Cert.ReferenceIdeal.main_v57) = W3 m ρ c (Proc.devRef .tc Cert.KernelIdeal.main_v57) :=
    s1_v57 m ρ m' c h
  have e3 : U1 m' c (Proc.devRef .tc Cert.ReferenceIdeal.main_arg3) = W3 m ρ c (Proc.devRef .tc Cert.KernelIdeal.main_arg3) :=
    s1_arg3 m ρ m' c h
  have e4 : U1 m' c (Proc.devRef .tc Cert.ReferenceIdeal.main_arg4) = Cheb.rowOf (W3 m ρ c (Proc.devRef .tc Cert.KernelIdeal.main_v58)) :=
    (s1_arg4 m ρ m' c h).trans ((Cert.KernelIdeal.Net.ka3_arg4 m ρ c).trans (Cert.KernelIdeal.Net.bias3 m ρ c).symm)
  rw [e0, e1, e2, e3, e4]

end Cert.Bridge

end
-- ==== Proof.Stage3.lean ====
/-
  Boundary 3 of the reference against boundary 5 of the kernel's program: layer 2's two Laplacian applications.

  Both programs apply the scaled Laplacian to the previous layer's result, and once more, by the same gather, scale,
  scatter-add and negation over the same index vectors and normalised edge weights. Those inputs agree, so do the two
  transformed signals.
-/
import proofs.«164740_j8744553414859_1_alg».proof.Proof.Stage2

set_option maxRecDepth 16384

noncomputable section

namespace Cert.Bridge

open Idealize.ShloMosaic Idealize.ShloMosaic.TcCoe Idealize.SL.Sem Idealize.ShloMosaic.StableHlo
open Cert.ReferenceIdeal.Seg
open Cert.KernelIdeal.Gen (W0 W1 W2 W3 W4 W5 W6 W7 W8 W9 W10 V3 V5 V7 V9)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

set_option maxHeartbeats 4000000 in
theorem x3_t1 (h : Agree m ρ m' c) : U3 m' c (Proc.devRef .tc Cert.ReferenceIdeal.main_v86) = W5 m ρ c (Proc.devRef .tc Cert.KernelIdeal.main_v73) := by
  unfold U3
  simp only [Cert.ReferenceIdeal.ValueP.ops, List.take_succ_cons, List.take_zero, List.drop_succ_cons, List.drop_zero]
  after_results_simp
  simp only [x2_h m ρ m' c h, Cert.ReferenceIdeal.Seg.rc2_v1 m' c, s1_v1 m ρ m' c h, Cert.KernelIdeal.Net.kc4_v1 m ρ c, Cert.ReferenceIdeal.Seg.rc2_v3 m' c, s1_v3 m ρ m' c h, Cert.KernelIdeal.Net.kc4_v3 m ρ c, Cert.ReferenceIdeal.Seg.rc2_v26 m' c, s1_v26 m ρ m' c h, Cert.KernelIdeal.Net.kc4_v26 m ρ c]
  try rfl

set_option maxHeartbeats 4000000 in
theorem x3_t2 (h : Agree m ρ m' c) : U3 m' c (Proc.devRef .tc Cert.ReferenceIdeal.main_v103) = W5 m ρ c (Proc.devRef .tc Cert.KernelIdeal.main_v90) := by
  unfold U3
  simp only [Cert.ReferenceIdeal.ValueP.ops, List.take_succ_cons, List.take_zero, List.drop_succ_cons, List.drop_zero]
  after_results_simp
  simp only [x2_h m ρ m' c h, Cert.ReferenceIdeal.Seg.rc2_v1 m' c, s1_v1 m ρ m' c h, Cert.KernelIdeal.Net.kc4_v1 m ρ c, Cert.ReferenceIdeal.Seg.rc2_v3 m' c, s1_v3 m ρ m' c h, Cert.KernelIdeal.Net.kc4_v3 m ρ c, Cert.ReferenceIdeal.Seg.rc2_v26 m' c, s1_v26 m ρ m' c h, Cert.KernelIdeal.Net.kc4_v26 m ρ c]
  try rfl

end Cert.Bridge

end
-- ==== Proof.Region1.lean ====
/-
  The second pipelined call: what its result array holds.

  The call walks twenty blocks of 5000 rows. At block `t` its body is handed rows 5000·t … 5000·t + 4999 of the three
  signal arrays, the whole weight stack and the one-row bias, and writes back the hidden layer of those rows. A row's
  hidden layer reads only that row of the signals, so the blocks written back are the restrictions of ONE array — the
  hidden layer of the whole signals — and, as the twenty blocks tile the result, that array is what it ends holding.
-/
import proofs.«164740_j8744553414859_1_alg».proof.Proof.Gen.KernelIdeal.Frame
import proofs.«164740_j8744553414859_1_alg».proof.Proof.LayerOps
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

theorem hz2_1 : (![0, 0] : Fin 2 → Nat) = fun _ => 0 := funext fun a => by fin_cases a <;> rfl

/-! ## The body's result at an index -/

/-- The body's stored value at row `a`, feature `q` of its block: the hidden layer of the block's rows. -/
theorem pay1_at (x0 x1 x2 : Vec Ideal S5000x64 .f32) (w : Vec Ideal S3x64x32 .f32) (b : Vec Ideal S1x32 .f32)
    (a : Fin 5000) (q : Fin 32) :
    k1_pay1 x0 x1 x2 (View.ld w r1_1) (View.ld w r1_2) (View.ld w r1_3) b (ix2 a q)
      = max (Cheb.comb x0 x1 x2 w (Cheb.rowOf b) a q) (Ideal.ofBits .f32 0x00000000#32) := by
  unfold k1_pay1
  simp only [shapeCast_self]
  rw [maximumf_apply, addf_apply, addf_apply, addf_apply,
    Cheb.matmul_zero_at _ rfl rfl rfl rfl rfl rfl, Cheb.matmul_zero_at _ rfl rfl rfl rfl rfl rfl,
    Cheb.matmul_zero_at _ rfl rfl rfl rfl rfl rfl, Cheb.broadcastTo_1b_ab_apply, broadcast_apply]
  unfold Cheb.comb Cheb.rowOf
  have e0 : ∀ k : Fin 64, View.ld w r1_1 (ix3 (0 : Fin 1) k q) = w (ix3 (0 : Fin 3) k q) :=
    fun k => congrArg w (Cheb.slab_idx 0 (by omega) _ k q)
  have e1 : ∀ k : Fin 64, View.ld w r1_2 (ix3 (0 : Fin 1) k q) = w (ix3 (1 : Fin 3) k q) :=
    fun k => congrArg w (Cheb.slab_idx 1 (by omega) _ k q)
  have e2 : ∀ k : Fin 64, View.ld w r1_3 (ix3 (0 : Fin 1) k q) = w (ix3 (2 : Fin 3) k q) :=
    fun k => congrArg w (Cheb.slab_idx 2 (by omega) _ k q)
  simp only [truncf_apply, Cheb.slab_cast_at, e0, e1, e2]
  rfl

/-! ## The windows' blocks as parts of their arrays -/

variable (V : (c : Dev nD) → (b : Ref sig .tc) → Buf (Elt Ideal) ((c : Thread nD τ).loc b))

/-- The printed index maps, decided over the twenty points: the signals and the result move one row block per point, the
    weight stack and the bias stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `a` of signal window 0's block at point `t` is row `5000·t + a` of its array. -/
theorem iblk1_0_at (c : Dev nD) (t : Fin cfg1.N) (a : Fin 5000) (k : Fin 64) (r : Fin 100000) (hr : r.val = t.val * 5000 + a.val) :
    (iblk1 V c 0 t : Vec Ideal S5000x64 .f32) (ix2 a k) = (V c main_v59 : S100000x64.Idx → EReal) (ix2 r k) := by
  have e := idx_facts1 t
  unfold iblk1
  rw [View.read_apply]
  show V c main_v59 _ = V c main_v59 _
  congr 1
  funext d; apply Fin.ext
  match d with
  | ⟨0, _⟩ => show win1_0.index t 0 * 5000 + 1 * a.val = r.val; rw [hr]; omega
  | ⟨1, _⟩ => show win1_0.index t 1 * 64 + 1 * k.val = k.val; omega

/-- Row `a` of signal window 1's block at point `t` is row `5000·t + a` of its array. -/
theorem iblk1_1_at (c : Dev nD) (t : Fin cfg1.N) (a : Fin 5000) (k : Fin 64) (r : Fin 100000) (hr : r.val = t.val * 5000 + a.val) :
    (iblk1 V c 1 t : Vec Ideal S5000x64 .f32) (ix2 a k) = (V c main_v73 : S100000x64.Idx → EReal) (ix2 r k) := by
  have e := idx_facts1 t
  unfold iblk1
  rw [View.read_apply]
  show V c main_v73 _ = V c main_v73 _
  congr 1
  funext d; apply Fin.ext
  match d with
  | ⟨0, _⟩ => show win1_1.index t 0 * 5000 + 1 * a.val = r.val; rw [hr]; omega
  | ⟨1, _⟩ => show win1_1.index t 1 * 64 + 1 * k.val = k.val; omega

/-- Row `a` of signal window 2's block at point `t` is row `5000·t + a` of its array. -/
theorem iblk1_2_at (c : Dev nD) (t : Fin cfg1.N) (a : Fin 5000) (k : Fin 64) (r : Fin 100000) (hr : r.val = t.val * 5000 + a.val) :
    (iblk1 V c 2 t : Vec Ideal S5000x64 .f32) (ix2 a k) = (V c main_v90 : S100000x64.Idx → EReal) (ix2 r k) := by
  have e := idx_facts1 t
  unfold iblk1
  rw [View.read_apply]
  show V c main_v90 _ = V c main_v90 _
  congr 1
  funext d; apply Fin.ext
  match d with
  | ⟨0, _⟩ => show win1_2.index t 0 * 5000 + 1 * a.val = r.val; rw [hr]; omega
  | ⟨1, _⟩ => show win1_2.index t 1 * 64 + 1 * k.val = k.val; omega

/-- The weight window's block is the whole stack at every point. -/
theorem iblk1_3_at (c : Dev nD) (t : Fin cfg1.N) (s : Fin 3) (k : Fin 64) (q : Fin 32) :
    (iblk1 V c 3 t : Vec Ideal S3x64x32 .f32) (ix3 s k q) = (V c main_arg5 : S3x64x32.Idx → EReal) (ix3 s k q) := by
  have e := idx_facts1 t
  unfold iblk1
  rw [View.read_apply]
  show V c main_arg5 _ = V c main_arg5 _
  congr 1
  funext d; apply Fin.ext
  match d with
  | ⟨0, _⟩ => show win1_3.index t 0 * 3 + 1 * s.val = s.val; omega
  | ⟨1, _⟩ => show win1_3.index t 1 * 64 + 1 * k.val = k.val; omega
  | ⟨2, _⟩ => show win1_3.index t 2 * 32 + 1 * q.val = q.val; omega

/-- The bias window's block is the whole one-row bias at every point. -/
theorem iblk1_4_at (c : Dev nD) (t : Fin cfg1.N) (u : Fin 1) (q : Fin 32) :
    (iblk1 V c 4 t : Vec Ideal S1x32 .f32) (ix2 u q) = (V c main_v91 : S1x32.Idx → EReal) (ix2 u q) := by
  have e := idx_facts1 t
  unfold iblk1
  rw [View.read_apply]
  show V c main_v91 _ = V c main_v91 _
  congr 1
  funext d; apply Fin.ext
  match d with
  | ⟨0, _⟩ => show win1_4.index t 0 * 1 + 1 * u.val = u.val; omega
  | ⟨1, _⟩ => show win1_4.index t 1 * 32 + 1 * q.val = q.val; omega

/-! ## What a point writes back, and the array at the end -/

/-- The array the call's result ends holding: the hidden layer of the whole signals as the call finds them. -/
abbrev layer1 (c : Dev nD) : S100000x32.Idx → EReal :=
  Cheb.hidden (V c main_v59 : S100000x64.Idx → EReal) (V c main_v73) (V c main_v90) (V c main_arg5 : S3x64x32.Idx → EReal)
    (Cheb.rowOf (V c main_v91 : S1x32.Idx → EReal))

/-- What point `t` writes back is block `t` of that array. -/
theorem flushed1_eq (c : Dev nD) (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz2_1]
  simp only [View.ld_unit_zero (S := S5000x64) hz2_1, View.ld_unit_zero (S := S1x32) hz2_1]
  funext j
  obtain ⟨a, q, rfl⟩ : ∃ (a : Fin 5000) (q : Fin 32), j = ix2 a q := ⟨j 0, j 1, eq_ix2 j⟩
  have e := idx_facts1 t
  have hN : cfg1.N = 20 := N_1
  have hrow : t.val * 5000 + a.val < 100000 := by have := t.isLt; have := a.isLt; omega
  refine (pay1_at (iblk1 V c 0 t) (iblk1 V c 1 t) (iblk1 V c 2 t) (iblk1 V c 3 t) (iblk1 V c 4 t) a q).trans ?_
  have hemb : ((cfg1.win 5).blk t).view.emb (ix2 a q) = ix2 (⟨t.val * 5000 + a.val, hrow⟩ : Fin 100000) q := by
    funext d; apply Fin.ext
    match d with
    | ⟨0, _⟩ => show win1_5.index t 0 * 5000 + 1 * a.val = t.val * 5000 + a.val; omega
    | ⟨1, _⟩ => show win1_5.index t 1 * 32 + 1 * q.val = q.val; omega
  show _ = layer1 V c (((cfg1.win 5).blk t).view.emb (ix2 a q))
  rw [hemb]
  refine congrArg (fun z => max z (Ideal.ofBits .f32 0x00000000#32)) ?_
  exact Cheb.comb_congr _ _ _ _ _ _ _ _ _ _ a (⟨t.val * 5000 + a.val, hrow⟩ : Fin 100000) q
    (fun k => iblk1_0_at V c t a k _ rfl) (fun k => iblk1_1_at V c t a k _ rfl) (fun k => iblk1_2_at V c t a k _ rfl)
    (fun s k => iblk1_3_at V c t s k q) (iblk1_4_at V c t 0 q)

/-- An index of the result is in point `t`'s block iff each coordinate is in the block's range. -/
theorem mem_blk1 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v92).slice (win1_5.rect t)).set ↔ _
  rw [View.set_slice_whole, Rect.mem_set_unit]
  exact Iff.rfl

/-- Every row of the result is in the block of the point `row / 5000`. -/
theorem cover1 (i : S100000x32.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 32 := (i 1).isLt
  have e := idx_facts1 (⟨(i 0).val / 5000, by omega⟩ : Fin cfg1.N)
  refine ⟨⟨(i 0).val / 5000, by omega⟩, flush1_5 _, ?_⟩
  rw [mem_blk1]
  intro a
  match a with
  | ⟨0, _⟩ =>
    show win1_5.index ⟨(i 0).val / 5000, _⟩ 0 * 5000 ≤ (i 0).val ∧ (i 0).val < win1_5.index ⟨(i 0).val / 5000, _⟩ 0 * 5000 + 5000
    obtain ⟨-, -, -, -, -, -, -, -, -, -, -, e50, -⟩ := e
    rw [e50]; show (i 0).val / 5000 * 5000 ≤ (i 0).val ∧ (i 0).val < (i 0).val / 5000 * 5000 + 5000; omega
  | ⟨1, _⟩ =>
    show win1_5.index ⟨(i 0).val / 5000, _⟩ 1 * 32 ≤ (i 1).val ∧ (i 1).val < win1_5.index ⟨(i 0).val / 5000, _⟩ 1 * 32 + 32
    obtain ⟨-, -, -, -, -, -, -, -, -, -, -, -, e51⟩ := e
    rw [e51]; omega

/-- The call's result array ends holding the hidden layer of the signals the call was entered with. -/
theorem final1 (c : Dev nD) : (dat1 (F := Ideal) V c).arrAt 5 cfg1.N = layer1 V c :=
  (dat1 V c).arrAt_eq_of_cover 5 (layer1 V c) (fun t _ => flushed1_eq V c t) (cover1)

end Cert.KernelIdeal.Net

end
-- ==== Proof.Stage4.lean ====
/-
  Boundary 4 of the reference against boundary 6 of the kernel's program: layer 2's combination.

  The reference combines the layer's three signals with three contractions, the bias and a cut-off at zero; the kernel's
  call number 2 does the same on row blocks. Both are the specification's hidden layer of the same signals, weight stack
  and bias, so the layer's result is the same array in both programs.
-/
import proofs.«164740_j8744553414859_1_alg».proof.Proof.Stage3
import proofs.«164740_j8744553414859_1_alg».proof.Proof.Region1

set_option maxRecDepth 16384

noncomputable section

namespace Cert.Bridge

open Idealize.ShloMosaic Idealize.ShloMosaic.TcCoe Idealize.SL.Sem Idealize.ShloMosaic.StableHlo
open Cert.ReferenceIdeal.Seg
open Cert.KernelIdeal.Gen (W0 W1 W2 W3 W4 W5 W6 W7 W8 W9 W10 V3 V5 V7 V9)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

set_option maxHeartbeats 4000000 in
theorem x4_h (h : Agree m ρ m' c) : U4 m' c (Proc.devRef .tc Cert.ReferenceIdeal.main_v118) = W6 m ρ c (Proc.devRef .tc Cert.KernelIdeal.main_v92) := by
  have hk : W6 m ρ c (Proc.devRef .tc Cert.KernelIdeal.main_v92) = Cert.KernelIdeal.Net.layer1 (V5 m ρ) c :=
    (Cert.KernelIdeal.Gen.W6_arr m ρ c 5).trans (Cert.KernelIdeal.Net.final1 (V5 m ρ) c)
  rw [hk]
  unfold U4
  simp only [Cert.ReferenceIdeal.ValueP.ops, List.take_succ_cons, List.take_zero, List.drop_succ_cons, List.drop_zero]
  after_results_simp
  refine (Cheb.host_hidden_eq (M := 100000) (K := 64) (N := 32) Cert.ReferenceIdeal.dot_S100000x64_S64x32_S100000x32_1_0_0_1_n_n rfl rfl rfl rfl rfl rfl
      (U3 m' c (Proc.devRef .tc Cert.ReferenceIdeal.main_v72)) (U3 m' c (Proc.devRef .tc Cert.ReferenceIdeal.main_v86)) (U3 m' c (Proc.devRef .tc Cert.ReferenceIdeal.main_v103)) (U3 m' c (Proc.devRef .tc Cert.ReferenceIdeal.main_arg5)) (U3 m' c (Proc.devRef .tc Cert.ReferenceIdeal.main_arg6))
      Cert.ReferenceIdeal.Gen.slices_S3x64x32_S1x64x32_0_0_0 Cert.ReferenceIdeal.Gen.slices_S3x64x32_S1x64x32_1_0_0 Cert.ReferenceIdeal.Gen.slices_S3x64x32_S1x64x32_2_0_0
      Cert.ReferenceIdeal.Gen.shapeCasts_S1x64x32_S64x32 Cert.ReferenceIdeal.Gen.bcast_S32_S1x32_1 Cert.ReferenceIdeal.Gen.bcast_S1x32_S100000x32_0_1 Cert.ReferenceIdeal.Gen.bcast_S_S100000x32).trans ?_
  have e0 : U3 m' c (Proc.devRef .tc Cert.ReferenceIdeal.main_v72) = W5 m ρ c (Proc.devRef .tc Cert.KernelIdeal.main_v59) :=
    (Cert.ReferenceIdeal.Seg.rh3 m' c).trans ((x2_h m ρ m' c h).trans (Cert.KernelIdeal.Net.kh5 m ρ c).symm)
  have e1 : U3 m' c (Proc.devRef .tc Cert.ReferenceIdeal.main_v86) = W5 m ρ c (Proc.devRef .tc Cert.KernelIdeal.main_v73) :=
    x3_t1 m ρ m' c h
  have e2 : U3 m' c (Proc.devRef .tc Cert.ReferenceIdeal.main_v103) = W5 m ρ c (Proc.devRef .tc Cert.KernelIdeal.main_v90) :=
    x3_t2 m ρ m' c h
  have e3 : U3 m' c (Proc.devRef .tc Cert.ReferenceIdeal.main_arg5) = W5 m ρ c (Proc.devRef .tc Cert.KernelIdeal.main_arg5) :=
    (Cert.ReferenceIdeal.Seg.ra3_arg5 m' c).trans (h.a5.trans (Cert.KernelIdeal.Net.ka5_arg5 m ρ c).symm)
  have e4 : U3 m' c (Proc.devRef .tc Cert.ReferenceIdeal.main_arg6) = Cheb.rowOf (W5 m ρ c (Proc.devRef .tc Cert.KernelIdeal.main_v91)) :=
    (Cert.ReferenceIdeal.Seg.ra3_arg6 m' c).trans (h.a6.trans (Cert.KernelIdeal.Net.bias5 m ρ c).symm)
  rw [e0, e1, e2, e3, e4]

end Cert.Bridge

end
-- ==== Proof.Stage5.lean ====
/-
  Boundary 5 of the reference against boundary 7 of the kernel's program: layer 3's two Laplacian applications.

  Both programs apply the scaled Laplacian to the previous layer's result, and once more, by the same gather, scale,
  scatter-add and negation over the same index vectors and normalised edge weights. Those inputs agree, so do the two
  transformed signals.
-/
import proofs.«164740_j8744553414859_1_alg».proof.Proof.Stage4

set_option maxRecDepth 16384

noncomputable section

namespace Cert.Bridge

open Idealize.ShloMosaic Idealize.ShloMosaic.TcCoe Idealize.SL.Sem Idealize.ShloMosaic.StableHlo
open Cert.ReferenceIdeal.Seg
open Cert.KernelIdeal.Gen (W0 W1 W2 W3 W4 W5 W6 W7 W8 W9 W10 V3 V5 V7 V9)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

set_option maxHeartbeats 4000000 in
theorem x5_t1 (h : Agree m ρ m' c) : U5 m' c (Proc.devRef .tc Cert.ReferenceIdeal.main_v132) = W7 m ρ c (Proc.devRef .tc Cert.KernelIdeal.main_v106) := by
  unfold U5
  simp only [Cert.ReferenceIdeal.ValueP.ops, List.take_succ_cons, List.take_zero, List.drop_succ_cons, List.drop_zero]
  after_results_simp
  simp only [x4_h m ρ m' c h, Cert.ReferenceIdeal.Seg.rc4_v1 m' c, s1_v1 m ρ m' c h, Cert.KernelIdeal.Net.kc6_v1 m ρ c, Cert.ReferenceIdeal.Seg.rc4_v3 m' c, s1_v3 m ρ m' c h, Cert.KernelIdeal.Net.kc6_v3 m ρ c, Cert.ReferenceIdeal.Seg.rc4_v26 m' c, s1_v26 m ρ m' c h, Cert.KernelIdeal.Net.kc6_v26 m ρ c]
  try rfl

set_option maxHeartbeats 4000000 in
theorem x5_t2 (h : Agree m ρ m' c) : U5 m' c (Proc.devRef .tc Cert.ReferenceIdeal.main_v149) = W7 m ρ c (Proc.devRef .tc Cert.KernelIdeal.main_v123) := by
  unfold U5
  simp only [Cert.ReferenceIdeal.ValueP.ops, List.take_succ_cons, List.take_zero, List.drop_succ_cons, List.drop_zero]
  after_results_simp
  simp only [x4_h m ρ m' c h, Cert.ReferenceIdeal.Seg.rc4_v1 m' c, s1_v1 m ρ m' c h, Cert.KernelIdeal.Net.kc6_v1 m ρ c, Cert.ReferenceIdeal.Seg.rc4_v3 m' c, s1_v3 m ρ m' c h, Cert.KernelIdeal.Net.kc6_v3 m ρ c, Cert.ReferenceIdeal.Seg.rc4_v26 m' c, s1_v26 m ρ m' c h, Cert.KernelIdeal.Net.kc6_v26 m ρ c]
  try rfl

end Cert.Bridge

end
-- ==== Proof.Region2.lean ====
/-
  The third pipelined call: what its result array holds.

  The call walks twenty blocks of 5000 rows. At block `t` its body is handed rows 5000·t … 5000·t + 4999 of the three
  signal arrays, the whole weight stack and the one-row bias, and writes back the hidden layer of those rows. A row's
  hidden layer reads only that row of the signals, so the blocks written back are the restrictions of ONE array — the
  hidden layer of the whole signals — and, as the twenty blocks tile the result, that array is what it ends holding.
-/
import proofs.«164740_j8744553414859_1_alg».proof.Proof.Gen.KernelIdeal.Frame
import proofs.«164740_j8744553414859_1_alg».proof.Proof.LayerOps
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

theorem hz2_2 : (![0, 0] : Fin 2 → Nat) = fun _ => 0 := funext fun a => by fin_cases a <;> rfl

/-! ## The body's result at an index -/

/-- The body's stored value at row `a`, feature `q` of its block: the hidden layer of the block's rows. -/
theorem pay2_at (x0 x1 x2 : Vec Ideal S5000x32 .f32) (w : Vec Ideal S3x32x16 .f32) (b : Vec Ideal S1x16 .f32)
    (a : Fin 5000) (q : Fin 16) :
    k2_pay1 x0 x1 x2 (View.ld w r2_1) (View.ld w r2_2) (View.ld w r2_3) b (ix2 a q)
      = max (Cheb.comb x0 x1 x2 w (Cheb.rowOf b) a q) (Ideal.ofBits .f32 0x00000000#32) := by
  unfold k2_pay1
  simp only [shapeCast_self]
  rw [maximumf_apply, addf_apply, addf_apply, addf_apply,
    Cheb.matmul_zero_at _ rfl rfl rfl rfl rfl rfl, Cheb.matmul_zero_at _ rfl rfl rfl rfl rfl rfl,
    Cheb.matmul_zero_at _ rfl rfl rfl rfl rfl rfl, Cheb.broadcastTo_1b_ab_apply, broadcast_apply]
  unfold Cheb.comb Cheb.rowOf
  have e0 : ∀ k : Fin 32, View.ld w r2_1 (ix3 (0 : Fin 1) k q) = w (ix3 (0 : Fin 3) k q) :=
    fun k => congrArg w (Cheb.slab_idx 0 (by omega) _ k q)
  have e1 : ∀ k : Fin 32, View.ld w r2_2 (ix3 (0 : Fin 1) k q) = w (ix3 (1 : Fin 3) k q) :=
    fun k => congrArg w (Cheb.slab_idx 1 (by omega) _ k q)
  have e2 : ∀ k : Fin 32, View.ld w r2_3 (ix3 (0 : Fin 1) k q) = w (ix3 (2 : Fin 3) k q) :=
    fun k => congrArg w (Cheb.slab_idx 2 (by omega) _ k q)
  simp only [truncf_apply, Cheb.slab_cast_at, e0, e1, e2]
  rfl

/-! ## The windows' blocks as parts of their arrays -/

variable (V : (c : Dev nD) → (b : Ref sig .tc) → Buf (Elt Ideal) ((c : Thread nD τ).loc b))

/-- The printed index maps, decided over the twenty points: the signals and the result move one row block per point, the
    weight stack and the bias stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `a` of signal window 0's block at point `t` is row `5000·t + a` of its array. -/
theorem iblk2_0_at (c : Dev nD) (t : Fin cfg2.N) (a : Fin 5000) (k : Fin 32) (r : Fin 100000) (hr : r.val = t.val * 5000 + a.val) :
    (iblk2 V c 0 t : Vec Ideal S5000x32 .f32) (ix2 a k) = (V c main_v92 : S100000x32.Idx → EReal) (ix2 r k) := by
  have e := idx_facts2 t
  unfold iblk2
  rw [View.read_apply]
  show V c main_v92 _ = V c main_v92 _
  congr 1
  funext d; apply Fin.ext
  match d with
  | ⟨0, _⟩ => show win2_0.index t 0 * 5000 + 1 * a.val = r.val; rw [hr]; omega
  | ⟨1, _⟩ => show win2_0.index t 1 * 32 + 1 * k.val = k.val; omega

/-- Row `a` of signal window 1's block at point `t` is row `5000·t + a` of its array. -/
theorem iblk2_1_at (c : Dev nD) (t : Fin cfg2.N) (a : Fin 5000) (k : Fin 32) (r : Fin 100000) (hr : r.val = t.val * 5000 + a.val) :
    (iblk2 V c 1 t : Vec Ideal S5000x32 .f32) (ix2 a k) = (V c main_v106 : S100000x32.Idx → EReal) (ix2 r k) := by
  have e := idx_facts2 t
  unfold iblk2
  rw [View.read_apply]
  show V c main_v106 _ = V c main_v106 _
  congr 1
  funext d; apply Fin.ext
  match d with
  | ⟨0, _⟩ => show win2_1.index t 0 * 5000 + 1 * a.val = r.val; rw [hr]; omega
  | ⟨1, _⟩ => show win2_1.index t 1 * 32 + 1 * k.val = k.val; omega

/-- Row `a` of signal window 2's block at point `t` is row `5000·t + a` of its array. -/
theorem iblk2_2_at (c : Dev nD) (t : Fin cfg2.N) (a : Fin 5000) (k : Fin 32) (r : Fin 100000) (hr : r.val = t.val * 5000 + a.val) :
    (iblk2 V c 2 t : Vec Ideal S5000x32 .f32) (ix2 a k) = (V c main_v123 : S100000x32.Idx → EReal) (ix2 r k) := by
  have e := idx_facts2 t
  unfold iblk2
  rw [View.read_apply]
  show V c main_v123 _ = V c main_v123 _
  congr 1
  funext d; apply Fin.ext
  match d with
  | ⟨0, _⟩ => show win2_2.index t 0 * 5000 + 1 * a.val = r.val; rw [hr]; omega
  | ⟨1, _⟩ => show win2_2.index t 1 * 32 + 1 * k.val = k.val; omega

/-- The weight window's block is the whole stack at every point. -/
theorem iblk2_3_at (c : Dev nD) (t : Fin cfg2.N) (s : Fin 3) (k : Fin 32) (q : Fin 16) :
    (iblk2 V c 3 t : Vec Ideal S3x32x16 .f32) (ix3 s k q) = (V c main_arg7 : S3x32x16.Idx → EReal) (ix3 s k q) := by
  have e := idx_facts2 t
  unfold iblk2
  rw [View.read_apply]
  show V c main_arg7 _ = V c main_arg7 _
  congr 1
  funext d; apply Fin.ext
  match d with
  | ⟨0, _⟩ => show win2_3.index t 0 * 3 + 1 * s.val = s.val; omega
  | ⟨1, _⟩ => show win2_3.index t 1 * 32 + 1 * k.val = k.val; omega
  | ⟨2, _⟩ => show win2_3.index t 2 * 16 + 1 * q.val = q.val; omega

/-- The bias window's block is the whole one-row bias at every point. -/
theorem iblk2_4_at (c : Dev nD) (t : Fin cfg2.N) (u : Fin 1) (q : Fin 16) :
    (iblk2 V c 4 t : Vec Ideal S1x16 .f32) (ix2 u q) = (V c main_v124 : S1x16.Idx → EReal) (ix2 u q) := by
  have e := idx_facts2 t
  unfold iblk2
  rw [View.read_apply]
  show V c main_v124 _ = V c main_v124 _
  congr 1
  funext d; apply Fin.ext
  match d with
  | ⟨0, _⟩ => show win2_4.index t 0 * 1 + 1 * u.val = u.val; omega
  | ⟨1, _⟩ => show win2_4.index t 1 * 16 + 1 * q.val = q.val; omega

/-! ## What a point writes back, and the array at the end -/

/-- The array the call's result ends holding: the hidden layer of the whole signals as the call finds them. -/
abbrev layer2 (c : Dev nD) : S100000x16.Idx → EReal :=
  Cheb.hidden (V c main_v92 : S100000x32.Idx → EReal) (V c main_v106) (V c main_v123) (V c main_arg7 : S3x32x16.Idx → EReal)
    (Cheb.rowOf (V c main_v124 : S1x16.Idx → EReal))

/-- What point `t` writes back is block `t` of that array. -/
theorem flushed2_eq (c : Dev nD) (t : Fin cfg2.N) :
    (dat2 (F := Ideal) V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz2_2]
  simp only [View.ld_unit_zero (S := S5000x32) hz2_2, View.ld_unit_zero (S := S1x16) hz2_2]
  funext j
  obtain ⟨a, q, rfl⟩ : ∃ (a : Fin 5000) (q : Fin 16), j = ix2 a q := ⟨j 0, j 1, eq_ix2 j⟩
  have e := idx_facts2 t
  have hN : cfg2.N = 20 := N_2
  have hrow : t.val * 5000 + a.val < 100000 := by have := t.isLt; have := a.isLt; omega
  refine (pay2_at (iblk2 V c 0 t) (iblk2 V c 1 t) (iblk2 V c 2 t) (iblk2 V c 3 t) (iblk2 V c 4 t) a q).trans ?_
  have hemb : ((cfg2.win 5).blk t).view.emb (ix2 a q) = ix2 (⟨t.val * 5000 + a.val, hrow⟩ : Fin 100000) q := by
    funext d; apply Fin.ext
    match d with
    | ⟨0, _⟩ => show win2_5.index t 0 * 5000 + 1 * a.val = t.val * 5000 + a.val; omega
    | ⟨1, _⟩ => show win2_5.index t 1 * 16 + 1 * q.val = q.val; omega
  show _ = layer2 V c (((cfg2.win 5).blk t).view.emb (ix2 a q))
  rw [hemb]
  refine congrArg (fun z => max z (Ideal.ofBits .f32 0x00000000#32)) ?_
  exact Cheb.comb_congr _ _ _ _ _ _ _ _ _ _ a (⟨t.val * 5000 + a.val, hrow⟩ : Fin 100000) q
    (fun k => iblk2_0_at V c t a k _ rfl) (fun k => iblk2_1_at V c t a k _ rfl) (fun k => iblk2_2_at V c t a k _ rfl)
    (fun s k => iblk2_3_at V c t s k q) (iblk2_4_at V c t 0 q)

/-- An index of the result is in point `t`'s block iff each coordinate is in the block's range. -/
theorem mem_blk2 (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v125).slice (win2_5.rect t)).set ↔ _
  rw [View.set_slice_whole, Rect.mem_set_unit]
  exact Iff.rfl

/-- Every row of the result is in the block of the point `row / 5000`. -/
theorem cover2 (i : S100000x16.Idx) : ∃ t : Fin cfg2.N, (cfg2.win 5).flush t = true ∧ i ∈ ((cfg2.win 5).blk t).view.set := by
  have hN : cfg2.N = 20 := N_2
  have hi0 : (i 0).val < 100000 := (i 0).isLt
  have hi1 : (i 1).val < 16 := (i 1).isLt
  have e := idx_facts2 (⟨(i 0).val / 5000, by omega⟩ : Fin cfg2.N)
  refine ⟨⟨(i 0).val / 5000, by omega⟩, flush2_5 _, ?_⟩
  rw [mem_blk2]
  intro a
  match a with
  | ⟨0, _⟩ =>
    show win2_5.index ⟨(i 0).val / 5000, _⟩ 0 * 5000 ≤ (i 0).val ∧ (i 0).val < win2_5.index ⟨(i 0).val / 5000, _⟩ 0 * 5000 + 5000
    obtain ⟨-, -, -, -, -, -, -, -, -, -, -, e50, -⟩ := e
    rw [e50]; show (i 0).val / 5000 * 5000 ≤ (i 0).val ∧ (i 0).val < (i 0).val / 5000 * 5000 + 5000; omega
  | ⟨1, _⟩ =>
    show win2_5.index ⟨(i 0).val / 5000, _⟩ 1 * 16 ≤ (i 1).val ∧ (i 1).val < win2_5.index ⟨(i 0).val / 5000, _⟩ 1 * 16 + 16
    obtain ⟨-, -, -, -, -, -, -, -, -, -, -, -, e51⟩ := e
    rw [e51]; omega

/-- The call's result array ends holding the hidden layer of the signals the call was entered with. -/
theorem final2 (c : Dev nD) : (dat2 (F := Ideal) V c).arrAt 5 cfg2.N = layer2 V c :=
  (dat2 V c).arrAt_eq_of_cover 5 (layer2 V c) (fun t _ => flushed2_eq V c t) (cover2)

end Cert.KernelIdeal.Net

end
-- ==== Proof.Stage6.lean ====
/-
  Boundary 6 of the reference against boundary 8 of the kernel's program: layer 3's combination.

  The reference combines the layer's three signals with three contractions, the bias and a cut-off at zero; the kernel's
  call number 3 does the same on row blocks. Both are the specification's hidden layer of the same signals, weight stack
  and bias, so the layer's result is the same array in both programs.
-/
import proofs.«164740_j8744553414859_1_alg».proof.Proof.Stage5
import proofs.«164740_j8744553414859_1_alg».proof.Proof.Region2

set_option maxRecDepth 16384

noncomputable section

namespace Cert.Bridge

open Idealize.ShloMosaic Idealize.ShloMosaic.TcCoe Idealize.SL.Sem Idealize.ShloMosaic.StableHlo
open Cert.ReferenceIdeal.Seg
open Cert.KernelIdeal.Gen (W0 W1 W2 W3 W4 W5 W6 W7 W8 W9 W10 V3 V5 V7 V9)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

set_option maxHeartbeats 4000000 in
theorem x6_h (h : Agree m ρ m' c) : U6 m' c (Proc.devRef .tc Cert.ReferenceIdeal.main_v164) = W8 m ρ c (Proc.devRef .tc Cert.KernelIdeal.main_v125) := by
  have hk : W8 m ρ c (Proc.devRef .tc Cert.KernelIdeal.main_v125) = Cert.KernelIdeal.Net.layer2 (V7 m ρ) c :=
    (Cert.KernelIdeal.Gen.W8_arr m ρ c 5).trans (Cert.KernelIdeal.Net.final2 (V7 m ρ) c)
  rw [hk]
  unfold U6
  simp only [Cert.ReferenceIdeal.ValueP.ops, List.take_succ_cons, List.take_zero, List.drop_succ_cons, List.drop_zero]
  after_results_simp
  refine (Cheb.host_hidden_eq (M := 100000) (K := 32) (N := 16) Cert.ReferenceIdeal.dot_S100000x32_S32x16_S100000x16_1_0_0_1_n_n rfl rfl rfl rfl rfl rfl
      (U5 m' c (Proc.devRef .tc Cert.ReferenceIdeal.main_v118)) (U5 m' c (Proc.devRef .tc Cert.ReferenceIdeal.main_v132)) (U5 m' c (Proc.devRef .tc Cert.ReferenceIdeal.main_v149)) (U5 m' c (Proc.devRef .tc Cert.ReferenceIdeal.main_arg7)) (U5 m' c (Proc.devRef .tc Cert.ReferenceIdeal.main_arg8))
      Cert.ReferenceIdeal.Gen.slices_S3x32x16_S1x32x16_0_0_0 Cert.ReferenceIdeal.Gen.slices_S3x32x16_S1x32x16_1_0_0 Cert.ReferenceIdeal.Gen.slices_S3x32x16_S1x32x16_2_0_0
      Cert.ReferenceIdeal.Gen.shapeCasts_S1x32x16_S32x16 Cert.ReferenceIdeal.Gen.bcast_S16_S1x16_1 Cert.ReferenceIdeal.Gen.bcast_S1x16_S100000x16_0_1 Cert.ReferenceIdeal.Gen.bcast_S_S100000x16).trans ?_
  have e0 : U5 m' c (Proc.devRef .tc Cert.ReferenceIdeal.main_v118) = W7 m ρ c (Proc.devRef .tc Cert.KernelIdeal.main_v92) :=
    (Cert.ReferenceIdeal.Seg.rh5 m' c).trans ((x4_h m ρ m' c h).trans (Cert.KernelIdeal.Net.kh7 m ρ c).symm)
  have e1 : U5 m' c (Proc.devRef .tc Cert.ReferenceIdeal.main_v132) = W7 m ρ c (Proc.devRef .tc Cert.KernelIdeal.main_v106) :=
    x5_t1 m ρ m' c h
  have e2 : U5 m' c (Proc.devRef .tc Cert.ReferenceIdeal.main_v149) = W7 m ρ c (Proc.devRef .tc Cert.KernelIdeal.main_v123) :=
    x5_t2 m ρ m' c h
  have e3 : U5 m' c (Proc.devRef .tc Cert.ReferenceIdeal.main_arg7) = W7 m ρ c (Proc.devRef .tc Cert.KernelIdeal.main_arg7) :=
    (Cert.ReferenceIdeal.Seg.ra5_arg7 m' c).trans (h.a7.trans (Cert.KernelIdeal.Net.ka7_arg7 m ρ c).symm)
  have e4 : U5 m' c (Proc.devRef .tc Cert.ReferenceIdeal.main_arg8) = Cheb.rowOf (W7 m ρ c (Proc.devRef .tc Cert.KernelIdeal.main_v124)) :=
    (Cert.ReferenceIdeal.Seg.ra5_arg8 m' c).trans (h.a8.trans (Cert.KernelIdeal.Net.bias7 m ρ c).symm)
  rw [e0, e1, e2, e3, e4]

end Cert.Bridge

end
-- ==== Proof.Stage7.lean ====
/-
  Boundary 7 of the reference against boundary 9 of the kernel's program: layer 4's two Laplacian applications.

  Both programs apply the scaled Laplacian to the previous layer's result, and once more, by the same gather, scale,
  scatter-add and negation over the same index vectors and normalised edge weights. Those inputs agree, so do the two
  transformed signals.
-/
import proofs.«164740_j8744553414859_1_alg».proof.Proof.Stage6

set_option maxRecDepth 16384

noncomputable section

namespace Cert.Bridge

open Idealize.ShloMosaic Idealize.ShloMosaic.TcCoe Idealize.SL.Sem Idealize.ShloMosaic.StableHlo
open Cert.ReferenceIdeal.Seg
open Cert.KernelIdeal.Gen (W0 W1 W2 W3 W4 W5 W6 W7 W8 W9 W10 V3 V5 V7 V9)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

set_option maxHeartbeats 4000000 in
theorem x7_t1 (h : Agree m ρ m' c) : U7 m' c (Proc.devRef .tc Cert.ReferenceIdeal.main_v178) = W9 m ρ c (Proc.devRef .tc Cert.KernelIdeal.main_v139) := by
  unfold U7
  simp only [Cert.ReferenceIdeal.ValueP.ops, List.take_succ_cons, List.take_zero, List.drop_succ_cons, List.drop_zero]
  after_results_simp
  simp only [x6_h m ρ m' c h, Cert.ReferenceIdeal.Seg.rc6_v1 m' c, s1_v1 m ρ m' c h, Cert.KernelIdeal.Net.kc8_v1 m ρ c, Cert.ReferenceIdeal.Seg.rc6_v3 m' c, s1_v3 m ρ m' c h, Cert.KernelIdeal.Net.kc8_v3 m ρ c, Cert.ReferenceIdeal.Seg.rc6_v26 m' c, s1_v26 m ρ m' c h, Cert.KernelIdeal.Net.kc8_v26 m ρ c]
  try rfl

set_option maxHeartbeats 4000000 in
theorem x7_t2 (h : Agree m ρ m' c) : U7 m' c (Proc.devRef .tc Cert.ReferenceIdeal.main_v195) = W9 m ρ c (Proc.devRef .tc Cert.KernelIdeal.main_v156) := by
  unfold U7
  simp only [Cert.ReferenceIdeal.ValueP.ops, List.take_succ_cons, List.take_zero, List.drop_succ_cons, List.drop_zero]
  after_results_simp
  simp only [x6_h m ρ m' c h, Cert.ReferenceIdeal.Seg.rc6_v1 m' c, s1_v1 m ρ m' c h, Cert.KernelIdeal.Net.kc8_v1 m ρ c, Cert.ReferenceIdeal.Seg.rc6_v3 m' c, s1_v3 m ρ m' c h, Cert.KernelIdeal.Net.kc8_v3 m ρ c, Cert.ReferenceIdeal.Seg.rc6_v26 m' c, s1_v26 m ρ m' c h, Cert.KernelIdeal.Net.kc8_v26 m ρ c]
  try rfl

end Cert.Bridge

end
-- ==== Proof.Region3.lean ====
/-
  The fourth pipelined call: what its result array holds.

  The call walks twenty blocks of 5000 rows. At block `t` its body is handed rows 5000·t … 5000·t + 4999 of the three
  signal arrays, the whole weight stack and the one-row bias, and writes back those rows' scores normalised row by row (the
  logarithmic softmax). A row's result reads only that row of the signals, so the blocks written back are the restrictions
  of ONE array — the normalised scores of the whole signals — and, as the twenty blocks tile the result, that array is what
  it ends holding.
-/
import proofs.«164740_j8744553414859_1_alg».proof.Proof.Gen.KernelIdeal.Frame
import proofs.«164740_j8744553414859_1_alg».proof.Proof.HostLayer
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

theorem hz2_3 : (![0, 0] : Fin 2 → Nat) = fun _ => 0 := funext fun a => by fin_cases a <;> rfl

/-! ## The body's result at an index -/

/-- The body's stored value at row `a`, class `q` of its block: the logarithmic softmax of that row's scores. -/
theorem pay3_at (x0 x1 x2 : Vec Ideal S5000x16 .f32) (w : Vec Ideal S3x16x4 .f32) (b : Vec Ideal S1x4 .f32)
    (a : Fin 5000) (q : Fin 4) :
    k3_pay1 (k3_pay2 x0 x1 x2 (View.ld w r3_1) (View.ld w r3_2) (View.ld w r3_3) b)
        (k3_pay3 x0 x1 x2 (View.ld w r3_1) (View.ld w r3_2) (View.ld w r3_3) b) (ix2 a q)
      = Cheb.logSoftmaxAt (fun q' : Fin 4 => Cheb.comb x0 x1 x2 w (Cheb.rowOf b) a q') q := by
  unfold k3_pay1 k3_pay3 k3_pay2
  simp only [shapeCast_self]
  refine (Cheb.kernel_normalised_at _ _ _ _ _ _ _ a q).trans ?_
  refine congrArg (fun f => Cheb.logSoftmaxAt f q) (funext fun q' => ?_)
  rw [addf_apply, addf_apply, addf_apply,
    Cheb.matmul_zero_at _ rfl rfl rfl rfl rfl rfl, Cheb.matmul_zero_at _ rfl rfl rfl rfl rfl rfl,
    Cheb.matmul_zero_at _ rfl rfl rfl rfl rfl rfl, Cheb.broadcastTo_1b_ab_apply]
  unfold Cheb.comb Cheb.rowOf
  have e0 : ∀ k : Fin 16, View.ld w r3_1 (ix3 (0 : Fin 1) k q') = w (ix3 (0 : Fin 3) k q') :=
    fun k => congrArg w (Cheb.slab_idx 0 (by omega) _ k q')
  have e1 : ∀ k : Fin 16, View.ld w r3_2 (ix3 (0 : Fin 1) k q') = w (ix3 (1 : Fin 3) k q') :=
    fun k => congrArg w (Cheb.slab_idx 1 (by omega) _ k q')
  have e2 : ∀ k : Fin 16, View.ld w r3_3 (ix3 (0 : Fin 1) k q') = w (ix3 (2 : Fin 3) k q') :=
    fun k => congrArg w (Cheb.slab_idx 2 (by omega) _ k q')
  simp only [truncf_apply, Cheb.slab_cast_at, e0, e1, e2]

/-! ## The windows' blocks as parts of their arrays -/

variable (V : (c : Dev nD) → (b : Ref sig .tc) → Buf (Elt Ideal) ((c : Thread nD τ).loc b))

/-- The printed index maps, decided over the twenty points: the signals and the result move one row block per point, the
    weight stack and the bias stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 3) = 0 ∧ win3_3.index t (1 : Fin 3) = 0 ∧ win3_3.index t (2 : Fin 3) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `a` of signal window 0's block at point `t` is row `5000·t + a` of its array. -/
theorem iblk3_0_at (c : Dev nD) (t : Fin cfg3.N) (a : Fin 5000) (k : Fin 16) (r : Fin 100000) (hr : r.val = t.val * 5000 + a.val) :
    (iblk3 V c 0 t : Vec Ideal S5000x16 .f32) (ix2 a k) = (V c main_v125 : S100000x16.Idx → EReal) (ix2 r k) := by
  have e := idx_facts3 t
  unfold iblk3
  rw [View.read_apply]
  show V c main_v125 _ = V c main_v125 _
  congr 1
  funext d; apply Fin.ext
  match d with
  | ⟨0, _⟩ => show win3_0.index t 0 * 5000 + 1 * a.val = r.val; rw [hr]; omega
  | ⟨1, _⟩ => show win3_0.index t 1 * 16 + 1 * k.val = k.val; omega

/-- Row `a` of signal window 1's block at point `t` is row `5000·t + a` of its array. -/
theorem iblk3_1_at (c : Dev nD) (t : Fin cfg3.N) (a : Fin 5000) (k : Fin 16) (r : Fin 100000) (hr : r.val = t.val * 5000 + a.val) :
    (iblk3 V c 1 t : Vec Ideal S5000x16 .f32) (ix2 a k) = (V c main_v139 : S100000x16.Idx → EReal) (ix2 r k) := by
  have e := idx_facts3 t
  unfold iblk3
  rw [View.read_apply]
  show V c main_v139 _ = V c main_v139 _
  congr 1
  funext d; apply Fin.ext
  match d with
  | ⟨0, _⟩ => show win3_1.index t 0 * 5000 + 1 * a.val = r.val; rw [hr]; omega
  | ⟨1, _⟩ => show win3_1.index t 1 * 16 + 1 * k.val = k.val; omega

/-- Row `a` of signal window 2's block at point `t` is row `5000·t + a` of its array. -/
theorem iblk3_2_at (c : Dev nD) (t : Fin cfg3.N) (a : Fin 5000) (k : Fin 16) (r : Fin 100000) (hr : r.val = t.val * 5000 + a.val) :
    (iblk3 V c 2 t : Vec Ideal S5000x16 .f32) (ix2 a k) = (V c main_v156 : S100000x16.Idx → EReal) (ix2 r k) := by
  have e := idx_facts3 t
  unfold iblk3
  rw [View.read_apply]
  show V c main_v156 _ = V c main_v156 _
  congr 1
  funext d; apply Fin.ext
  match d with
  | ⟨0, _⟩ => show win3_2.index t 0 * 5000 + 1 * a.val = r.val; rw [hr]; omega
  | ⟨1, _⟩ => show win3_2.index t 1 * 16 + 1 * k.val = k.val; omega

/-- The weight window's block is the whole stack at every point. -/
theorem iblk3_3_at (c : Dev nD) (t : Fin cfg3.N) (s : Fin 3) (k : Fin 16) (q : Fin 4) :
    (iblk3 V c 3 t : Vec Ideal S3x16x4 .f32) (ix3 s k q) = (V c main_arg9 : S3x16x4.Idx → EReal) (ix3 s k q) := by
  have e := idx_facts3 t
  unfold iblk3
  rw [View.read_apply]
  show V c main_arg9 _ = V c main_arg9 _
  congr 1
  funext d; apply Fin.ext
  match d with
  | ⟨0, _⟩ => show win3_3.index t 0 * 3 + 1 * s.val = s.val; omega
  | ⟨1, _⟩ => show win3_3.index t 1 * 16 + 1 * k.val = k.val; omega
  | ⟨2, _⟩ => show win3_3.index t 2 * 4 + 1 * q.val = q.val; omega

/-- The bias window's block is the whole one-row bias at every point. -/
theorem iblk3_4_at (c : Dev nD) (t : Fin cfg3.N) (u : Fin 1) (q : Fin 4) :
    (iblk3 V c 4 t : Vec Ideal S1x4 .f32) (ix2 u q) = (V c main_v157 : S1x4.Idx → EReal) (ix2 u q) := by
  have e := idx_facts3 t
  unfold iblk3
  rw [View.read_apply]
  show V c main_v157 _ = V c main_v157 _
  congr 1
  funext d; apply Fin.ext
  match d with
  | ⟨0, _⟩ => show win3_4.index t 0 * 1 + 1 * u.val = u.val; omega
  | ⟨1, _⟩ => show win3_4.index t 1 * 4 + 1 * q.val = q.val; omega

/-! ## What a point writes back, and the array at the end -/

/-- The array the call's result ends holding: the normalised scores of the whole signals as the call finds them. -/
abbrev layer3 (c : Dev nD) : S100000x4.Idx → EReal :=
  Cheb.normalised <| Cheb.scores (V c main_v125 : S100000x16.Idx → EReal) (V c main_v139) (V c main_v156) (V c main_arg9 : S3x16x4.Idx → EReal)
    (Cheb.rowOf (V c main_v157 : S1x4.Idx → EReal))

/-- What point `t` writes back is block `t` of that array. -/
theorem flushed3_eq (c : Dev nD) (t : Fin cfg3.N) :
    (dat3 (F := Ideal) V c).flushed 5 t = ((cfg3.win 5).blk t).view.read (Elt Ideal) (layer3 V c) := by
  show (cfg3.win 5).cut (grid3.coords t) ((dat3 V c).after 5 t) = _
  rw [after3_5]
  unfold out3_5
  rw [View.canon_unit_zero hz2_3]
  simp only [View.ld_unit_zero (S := S5000x16) hz2_3, View.ld_unit_zero (S := S1x4) hz2_3]
  funext j
  obtain ⟨a, q, rfl⟩ : ∃ (a : Fin 5000) (q : Fin 4), j = ix2 a q := ⟨j 0, j 1, eq_ix2 j⟩
  have e := idx_facts3 t
  have hN : cfg3.N = 20 := N_3
  have hrow : t.val * 5000 + a.val < 100000 := by have := t.isLt; have := a.isLt; omega
  refine (pay3_at (iblk3 V c 0 t) (iblk3 V c 1 t) (iblk3 V c 2 t) (iblk3 V c 3 t) (iblk3 V c 4 t) a q).trans ?_
  have hemb : ((cfg3.win 5).blk t).view.emb (ix2 a q) = ix2 (⟨t.val * 5000 + a.val, hrow⟩ : Fin 100000) q := by
    funext d; apply Fin.ext
    match d with
    | ⟨0, _⟩ => show win3_5.index t 0 * 5000 + 1 * a.val = t.val * 5000 + a.val; omega
    | ⟨1, _⟩ => show win3_5.index t 1 * 4 + 1 * q.val = q.val; omega
  show _ = layer3 V c (((cfg3.win 5).blk t).view.emb (ix2 a q))
  rw [hemb]
  refine congrArg (fun f => Cheb.logSoftmaxAt f q) (funext fun q' => ?_)
  exact Cheb.comb_congr _ _ _ _ _ _ _ _ _ _ a (⟨t.val * 5000 + a.val, hrow⟩ : Fin 100000) q'
    (fun k => iblk3_0_at V c t a k _ rfl) (fun k => iblk3_1_at V c t a k _ rfl) (fun k => iblk3_2_at V c t a k _ rfl)
    (fun s k => iblk3_3_at V c t s k q') (iblk3_4_at V c t 0 q')

/-- An index of the result is in point `t`'s block iff each coordinate is in the block's range. -/
theorem mem_blk3 (t : Fin cfg3.N) (i : S100000x4.Idx) :
    i ∈ ((cfg3.win 5).blk t).view.set ↔ ∀ a : Fin 2, win3_5.index t a * S5000x4.size a ≤ (i a).val ∧ (i a).val < win3_5.index t a * S5000x4.size a + S5000x4.size a := by
  show i ∈ ((View.whole main_v158).slice (win3_5.rect t)).set ↔ _
  rw [View.set_slice_whole, Rect.mem_set_unit]
  exact Iff.rfl

/-- Every row of the result is in the block of the point `row / 5000`. -/
theorem cover3 (i : S100000x4.Idx) : ∃ t : Fin cfg3.N, (cfg3.win 5).flush t = true ∧ i ∈ ((cfg3.win 5).blk t).view.set := by
  have hN : cfg3.N = 20 := N_3
  have hi0 : (i 0).val < 100000 := (i 0).isLt
  have hi1 : (i 1).val < 4 := (i 1).isLt
  have e := idx_facts3 (⟨(i 0).val / 5000, by omega⟩ : Fin cfg3.N)
  refine ⟨⟨(i 0).val / 5000, by omega⟩, flush3_5 _, ?_⟩
  rw [mem_blk3]
  intro a
  match a with
  | ⟨0, _⟩ =>
    show win3_5.index ⟨(i 0).val / 5000, _⟩ 0 * 5000 ≤ (i 0).val ∧ (i 0).val < win3_5.index ⟨(i 0).val / 5000, _⟩ 0 * 5000 + 5000
    obtain ⟨-, -, -, -, -, -, -, -, -, -, -, e50, -⟩ := e
    rw [e50]; show (i 0).val / 5000 * 5000 ≤ (i 0).val ∧ (i 0).val < (i 0).val / 5000 * 5000 + 5000; omega
  | ⟨1, _⟩ =>
    show win3_5.index ⟨(i 0).val / 5000, _⟩ 1 * 4 ≤ (i 1).val ∧ (i 1).val < win3_5.index ⟨(i 0).val / 5000, _⟩ 1 * 4 + 4
    obtain ⟨-, -, -, -, -, -, -, -, -, -, -, -, e51⟩ := e
    rw [e51]; omega

/-- The call's result array ends holding the normalised scores of the signals the call was entered with. -/
theorem final3 (c : Dev nD) : (dat3 (F := Ideal) V c).arrAt 5 cfg3.N = layer3 V c :=
  (dat3 V c).arrAt_eq_of_cover 5 (layer3 V c) (fun t _ => flushed3_eq V c t) (cover3)

end Cert.KernelIdeal.Net

end
-- ==== Proof.Stage8.lean ====
/-
  The last boundary: the fourth layer's combination and the row-wise normalisation.

  The reference forms the fourth layer's scores with three contractions and the bias and passes them through the
  logarithmic softmax; the kernel's fourth call does both on row blocks. Both are the specification's normalised scores
  of the same three signals, weight stack and bias — so the two programs' results are one array.
-/
import proofs.«164740_j8744553414859_1_alg».proof.Proof.Stage7
import proofs.«164740_j8744553414859_1_alg».proof.Proof.Region3

set_option maxRecDepth 16384

noncomputable section

namespace Cert.Bridge

open Idealize.ShloMosaic Idealize.ShloMosaic.TcCoe Idealize.SL.Sem Idealize.ShloMosaic.StableHlo
open Cert.ReferenceIdeal.Seg
open Cert.KernelIdeal.Gen (W0 W1 W2 W3 W4 W5 W6 W7 W8 W9 W10 V3 V5 V7 V9)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- Contents carried to a typed reference's buffer type and back are the contents. -/
theorem ofBuf_toBuf {sig : RefSig} {T : BufTy} {Val : EltTy → Type} (x : TRef sig T) (v : T.Contents Val) :
    x.ofBuf (x.toBuf v) = v := by
  obtain ⟨r, rfl, h1, h2⟩ := x
  rfl

set_option maxHeartbeats 8000000 in
theorem x8_h (h : Agree m ρ m' c) : U8 m' c (Proc.devRef .tc Cert.ReferenceIdeal.main_v210) = W10 m ρ c (Proc.devRef .tc Cert.KernelIdeal.main_v158) := by
  have hk : W10 m ρ c (Proc.devRef .tc Cert.KernelIdeal.main_v158) = Cert.KernelIdeal.Net.layer3 (V9 m ρ) c :=
    (Cert.KernelIdeal.Gen.W10_arr m ρ c 5).trans (Cert.KernelIdeal.Net.final3 (V9 m ρ) c)
  rw [hk]
  unfold U8
  simp only [Cert.ReferenceIdeal.ValueP.ops, List.take_succ_cons, List.take_zero, List.drop_succ_cons, List.drop_zero]
  after_results_simp
  simp only [ofBuf_toBuf]
  have hz := Cheb.host_scores_eq (M := 100000) (K := 16) (N := 4) Cert.ReferenceIdeal.dot_S100000x16_S16x4_S100000x4_1_0_0_1_n_n rfl rfl rfl rfl rfl rfl
      (U7 m' c (Proc.devRef .tc Cert.ReferenceIdeal.main_v164)) (U7 m' c (Proc.devRef .tc Cert.ReferenceIdeal.main_v178)) (U7 m' c (Proc.devRef .tc Cert.ReferenceIdeal.main_v195)) (U7 m' c (Proc.devRef .tc Cert.ReferenceIdeal.main_arg9)) (U7 m' c (Proc.devRef .tc Cert.ReferenceIdeal.main_arg10))
      Cert.ReferenceIdeal.Gen.slices_S3x16x4_S1x16x4_0_0_0 Cert.ReferenceIdeal.Gen.slices_S3x16x4_S1x16x4_1_0_0 Cert.ReferenceIdeal.Gen.slices_S3x16x4_S1x16x4_2_0_0
      Cert.ReferenceIdeal.Gen.shapeCasts_S1x16x4_S16x4 Cert.ReferenceIdeal.Gen.bcast_S4_S1x4_1 Cert.ReferenceIdeal.Gen.bcast_S1x4_S100000x4_0_1
  refine (Cheb.host_normalised_of hz Cert.ReferenceIdeal.Gen.reducesTo_S100000x4_S100000_d1 (by decide) Cert.ReferenceIdeal.Gen.h_S_
      Cert.ReferenceIdeal.Gen.bcast_S_S100000 Cert.ReferenceIdeal.Gen.bcast_S100000_S100000x1_0 Cert.ReferenceIdeal.Gen.bcast_S100000x1_S100000x4_0_1).trans ?_
  have e0 : U7 m' c (Proc.devRef .tc Cert.ReferenceIdeal.main_v164) = W9 m ρ c (Proc.devRef .tc Cert.KernelIdeal.main_v125) :=
    (Cert.ReferenceIdeal.Seg.rh7 m' c).trans ((x6_h m ρ m' c h).trans (Cert.KernelIdeal.Net.kh9 m ρ c).symm)
  have e1 : U7 m' c (Proc.devRef .tc Cert.ReferenceIdeal.main_v178) = W9 m ρ c (Proc.devRef .tc Cert.KernelIdeal.main_v139) :=
    x7_t1 m ρ m' c h
  have e2 : U7 m' c (Proc.devRef .tc Cert.ReferenceIdeal.main_v195) = W9 m ρ c (Proc.devRef .tc Cert.KernelIdeal.main_v156) :=
    x7_t2 m ρ m' c h
  have e3 : U7 m' c (Proc.devRef .tc Cert.ReferenceIdeal.main_arg9) = W9 m ρ c (Proc.devRef .tc Cert.KernelIdeal.main_arg9) :=
    (Cert.ReferenceIdeal.Seg.ra7_arg9 m' c).trans (h.a9.trans (Cert.KernelIdeal.Net.ka9_arg9 m ρ c).symm)
  have e4 : U7 m' c (Proc.devRef .tc Cert.ReferenceIdeal.main_arg10) = Cheb.rowOf (W9 m ρ c (Proc.devRef .tc Cert.KernelIdeal.main_v157)) :=
    (Cert.ReferenceIdeal.Seg.ra7_arg10 m' c).trans (h.a10.trans (Cert.KernelIdeal.Net.bias9 m ρ c).symm)
  rw [e0, e1, e2, e3, e4]

end Cert.Bridge

end
-- ==== Proof.lean ====
/-
  The certificate: a four-layer Chebyshev graph network (K = 3) whose dense part runs in four pipelined calls, against
  its plain host reference, on the extended reals.

  Both programs start with the same host computation on the graph: the weighted degrees, their inverse square roots where
  positive, the normalised edge weights, and from them the scaled Laplacian applied by gather, scale, scatter-add and
  negation. Each layer forms the node signal's first two Chebyshev transforms this way and then combines the three signals
  with a stack of three weight matrices and a bias; the first three layers cut the result off at zero, the last takes the
  logarithmic softmax of each row. The kernel does the combination (and the cut-off or softmax) inside a call that walks
  twenty blocks of 5000 rows; the reference does it with three whole-array contractions.

  On the extended reals a contraction in either dialect is the plain sum over the contracted index, the kernel's change of
  float format is the identity, and a row of the result depends only on that row of the signals. So each call's result
  array is the layer of the whole signals (Region0 … Region3 over the generic readings of LayerOps / SoftmaxOps /
  HostLayer and the specification Spec), the reference's layer is the same function (HostLayer), and the host stretches
  in between are the same operations on the same arrays (Stage1 … Stage8 over the two programs' buffer contents at their
  segment boundaries, KRun and RefSeg). The two sides group every sum the same way, so no law of arithmetic beyond these
  readings is used and the finiteness of the inputs is never opened. The frames of the two kernel programs are the
  generated ones; the reference's is its run with the result dropped. The idealisation rewrote nothing, so `preserves`
  is trivially true.
-/
import proofs.«164740_j8744553414859_1_alg».proof.Defs
import proofs.«164740_j8744553414859_1_alg».proof.Proof.Gen.Kernel
import proofs.«164740_j8744553414859_1_alg».proof.Proof.Gen.Kernel.Frame
import proofs.«164740_j8744553414859_1_alg».proof.Proof.Gen.KernelIdeal
import proofs.«164740_j8744553414859_1_alg».proof.Proof.Gen.KernelIdeal.Frame
import proofs.«164740_j8744553414859_1_alg».proof.Proof.Gen.ReferenceIdeal
import proofs.«164740_j8744553414859_1_alg».proof.Proof.Gen.Pre_finite_inputs
import proofs.«164740_j8744553414859_1_alg».proof.Proof.KRun
import proofs.«164740_j8744553414859_1_alg».proof.Proof.RArgs
import proofs.«164740_j8744553414859_1_alg».proof.Proof.Stage8
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments as launched: its run, read at the argument buffers. -/
theorem frame_ri : Cert.frame_ReferenceIdeal := fun m ρ _ =>
  (θ_run Cert.ReferenceIdeal.defs _ _).mono (fun r h c =>
    ⟨(h c Cert.ReferenceIdeal.main_arg0).trans (Cert.ReferenceIdeal.Seg.ra8_arg0 m c),
      (h c Cert.ReferenceIdeal.main_arg1).trans (Cert.ReferenceIdeal.Seg.ra8_arg1 m c),
      (h c Cert.ReferenceIdeal.main_arg2).trans (Cert.ReferenceIdeal.Seg.ra8_arg2 m c),
      (h c Cert.ReferenceIdeal.main_arg3).trans (Cert.ReferenceIdeal.Seg.ra8_arg3 m c),
      (h c Cert.ReferenceIdeal.main_arg4).trans (Cert.ReferenceIdeal.Seg.ra8_arg4 m c),
      (h c Cert.ReferenceIdeal.main_arg5).trans (Cert.ReferenceIdeal.Seg.ra8_arg5 m c),
      (h c Cert.ReferenceIdeal.main_arg6).trans (Cert.ReferenceIdeal.Seg.ra8_arg6 m c),
      (h c Cert.ReferenceIdeal.main_arg7).trans (Cert.ReferenceIdeal.Seg.ra8_arg7 m c),
      (h c Cert.ReferenceIdeal.main_arg8).trans (Cert.ReferenceIdeal.Seg.ra8_arg8 m c),
      (h c Cert.ReferenceIdeal.main_arg9).trans (Cert.ReferenceIdeal.Seg.ra8_arg9 m c),
      (h c Cert.ReferenceIdeal.main_arg10).trans (Cert.ReferenceIdeal.Seg.ra8_arg10 m c)⟩)
    (Cert.ReferenceIdeal.Seg.run m ρ)

/-- From memories agreeing on the arguments both idealised programs run, and end with the same result array: the
    kernel's at its fold's final contents, the reference's at its eighth boundary, which hold the same normalised
    scores. -/
theorem algebraic : Cert.algebraic_KernelIdeal_ReferenceIdeal := by
  intro m ρ m' ρ' _ hagree
  refine ⟨fun c => Cert.KernelIdeal.Gen.W10 m ρ c (Proc.devRef .tc Cert.KernelIdeal.main_v158), Cert.KernelIdeal.Net.run_named (F := Ideal) m ρ, ?_⟩
  refine (θ_run Cert.ReferenceIdeal.defs _ _).mono (fun r h c => ?_) (Cert.ReferenceIdeal.Seg.run m' ρ')
  obtain ⟨a0, a1, a2, a3, a4, a5, a6, a7, a8, a9, a10⟩ := hagree c
  have hA : Cert.Bridge.Agree m ρ m' c := ⟨a0, a1, a2, a3, a4, a5, a6, a7, a8, a9, a10⟩
  exact ⟨(h c Cert.ReferenceIdeal.main_v210).trans (Cert.Bridge.x8_h m ρ m' c hA),
      (h c Cert.ReferenceIdeal.main_arg0).trans (Cert.ReferenceIdeal.Seg.ra8_arg0 m' c),
      (h c Cert.ReferenceIdeal.main_arg1).trans (Cert.ReferenceIdeal.Seg.ra8_arg1 m' c),
      (h c Cert.ReferenceIdeal.main_arg2).trans (Cert.ReferenceIdeal.Seg.ra8_arg2 m' c),
      (h c Cert.ReferenceIdeal.main_arg3).trans (Cert.ReferenceIdeal.Seg.ra8_arg3 m' c),
      (h c Cert.ReferenceIdeal.main_arg4).trans (Cert.ReferenceIdeal.Seg.ra8_arg4 m' c),
      (h c Cert.ReferenceIdeal.main_arg5).trans (Cert.ReferenceIdeal.Seg.ra8_arg5 m' c),
      (h c Cert.ReferenceIdeal.main_arg6).trans (Cert.ReferenceIdeal.Seg.ra8_arg6 m' c),
      (h c Cert.ReferenceIdeal.main_arg7).trans (Cert.ReferenceIdeal.Seg.ra8_arg7 m' c),
      (h c Cert.ReferenceIdeal.main_arg8).trans (Cert.ReferenceIdeal.Seg.ra8_arg8 m' c),
      (h c Cert.ReferenceIdeal.main_arg9).trans (Cert.ReferenceIdeal.Seg.ra8_arg9 m' c),
      (h c Cert.ReferenceIdeal.main_arg10).trans (Cert.ReferenceIdeal.Seg.ra8_arg10 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
